-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x32768 : Shape := ⟨2, ![2048, 32768]⟩
abbrev S2048x64x64 : Shape := ⟨3, ![2048, 64, 64]⟩
abbrev S64x64 : Shape := ⟨2, ![64, 64]⟩
abbrev S_ : Shape := ⟨0, ![]⟩

class Facts : Prop where
  bcast_S_S2048x32768 : S_.BroadcastsInDim S2048x32768 (![] : Fin 0 → Fin S2048x32768.rank)
  reducesTo_S2048x32768_S_d0_1 : S2048x32768.ReducesTo [0, 1] S_
  h_S_ : 0 < S_.numel
  bcast_S_S2048x64x64 : S_.BroadcastsInDim S2048x64x64 (![] : Fin 0 → Fin S2048x64x64.rank)
  reducesTo_S2048x64x64_S_d0_1_2 : S2048x64x64.ReducesTo [0, 1, 2] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  main_v18

def fn {F : FTy → Type} [FloatOps F] (main_arg0 : FVec F S2048x32768 .f32) (main_arg1 : FVec F S2048x64x64 .f32) (main_arg2 : FVec F S64x64 .f32) (main_arg3 : FVec F S64x64 .f32) : IVec S_ 1 :=
  let main_v0 : FVec F S2048x32768 .f32 := Host.absf main_arg0
  let main_cst : FVec F S_ .f32 := constant S_ .f32 0x7F800000#32
  let main_v1 : FVec F S2048x32768 .f32 := broadcastInDim S2048x32768 ![] bcast_S_S2048x32768 main_cst
  let main_v2 : IVec S2048x32768 1 := cmpf .olt main_v0 main_v1
  let main_c : IVec S_ 1 := constantI S_ 1 1#1
  let main_v3 : IVec S_ 1 := (fun x v => Host.reduce IntOp.andi x v reducesTo_S2048x32768_S_d0_1 h_S_) main_v2 main_c
  let main_v4 : FVec F S2048x64x64 .f32 := Host.absf main_arg1
  let main_cst_0 : FVec F S_ .f32 := constant S_ .f32 0x7F800000#32
  let main_v5 : FVec F S2048x64x64 .f32 := broadcastInDim S2048x64x64 ![] bcast_S_S2048x64x64 main_cst_0
  let main_v6 : IVec S2048x64x64 1 := cmpf .olt main_v4 main_v5
  let main_c_1 : IVec S_ 1 := constantI S_ 1 1#1
  let main_v7 : IVec S_ 1 := (fun x v => Host.reduce IntOp.andi x v reducesTo_S2048x64x64_S_d0_1_2 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_v13 main_v16
-- ==== Kernel.lean ====
abbrev S2048x32768 : Shape := ⟨2, ![2048, 32768]⟩
abbrev S2048x64x64 : Shape := ⟨3, ![2048, 64, 64]⟩
abbrev S64x64 : Shape := ⟨2, ![64, 64]⟩
abbrev S2048x8x64x64 : Shape := ⟨4, ![2048, 8, 64, 64]⟩
abbrev S64x8x64x64 : Shape := ⟨4, ![64, 8, 64, 64]⟩
abbrev S64x64x64 : Shape := ⟨3, ![64, 64, 64]⟩
abbrev S1x64x64 : Shape := ⟨3, ![1, 64, 64]⟩
abbrev S64x1x64x64 : Shape := ⟨4, ![64, 1, 64, 64]⟩
abbrev S64x64x1 : Shape := ⟨3, ![64, 64, 1]⟩
abbrev S64x1 : Shape := ⟨2, ![64, 1]⟩
abbrev S64x1x1 : Shape := ⟨3, ![64, 1, 1]⟩

abbrev nBuf : Space → Nat
  | .hbm => 6
  | .vmem => 8
  | .smem => 0
  | _ => 0

abbrev bufTy : (tb : Table) → Fin (tcTables nBuf tb) → BufTy
  | .hbm, ⟨0, _⟩ => ⟨S2048x32768, .f32⟩
  | .hbm, ⟨1, _⟩ => ⟨S2048x64x64, .f32⟩
  | .hbm, ⟨2, _⟩ => ⟨S64x64, .f32⟩
  | .hbm, ⟨3, _⟩ => ⟨S64x64, .f32⟩
  | .hbm, ⟨4, _⟩ => ⟨S2048x8x64x64, .f32⟩
  | .hbm, ⟨5, _⟩ => ⟨S2048x64x64, .f32⟩
  | .local _ .vmem, ⟨0, _⟩ => ⟨S64x8x64x64, .f32⟩
  | .local _ .vmem, ⟨1, _⟩ => ⟨S64x8x64x64, .f32⟩
  | .local _ .vmem, ⟨2, _⟩ => ⟨S64x64x64, .f32⟩
  | .local _ .vmem, ⟨3, _⟩ => ⟨S64x64x64, .f32⟩
  | .local _ .vmem, ⟨4, _⟩ => ⟨S64x64, .f32⟩
  | .local _ .vmem, ⟨5, _⟩ => ⟨S64x64, .f32⟩
  | .local _ .vmem, ⟨6, _⟩ => ⟨S64x64x64, .f32⟩
  | .local _ .vmem, ⟨7, _⟩ => ⟨S64x64x64, .f32⟩
  | _, _ => ⟨S2048x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x8x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S2048x32768_S2048x8x64x64 : S2048x32768.ShapeCasts S2048x8x64x64
  inb_S64x64x64_S64x64x64_0_0_0 : ∀ a, (![0, 0, 0] : Fin 3 → Nat) a + S64x64x64.size a ≤ S64x64x64.size a
  h_S64x64x64 : 0 < S64x64x64.numel
  inb_S64x64_S64x64_0_0 : ∀ a, (![0, 0] : Fin 2 → Nat) a + S64x64.size a ≤ S64x64.size a
  h_S64x64 : 0 < S64x64.numel
  shapeCasts_S64x64_S1x64x64 : S64x64.ShapeCasts S1x64x64
  broadcasts_S1x64x64_S64x64x64 : S1x64x64.Broadcasts S64x64x64
  inb_S64x8x64x64_S64x1x64x64_0_0_0_0 : ∀ a, (![0, 0, 0, 0] : Fin 4 → Nat) a + S64x1x64x64.size a ≤ S64x8x64x64.size a
  h_S64x1x64x64 : 0 < S64x1x64x64.numel
  shapeCasts_S64x1x64x64_S64x64x64 : S64x1x64x64.ShapeCasts S64x64x64
  bitsLt_bf16_f32 : FTy.bits .bf16 < FTy.bits .f32
  reduces_S64x64x64_S64x64 : S64x64x64.Reduces [2] S64x64
  shapeCasts_S64x64_S64x64x1 : S64x64.ShapeCasts S64x64x1
  reduces_S64x64x1_S64x1 : S64x64x1.Reduces [1] S64x1
  shapeCasts_S64x1_S64x1x1 : S64x1.ShapeCasts S64x1x1
  broadcasts_S64x1x1_S64x64x64 : S64x1x1.Broadcasts S64x64x64
  inb_S64x8x64x64_S64x1x64x64_0_1_0_0 : ∀ a, (![0, 1, 0, 0] : Fin 4 → Nat) a + S64x1x64x64.size a ≤ S64x8x64x64.size a
  inb_S64x8x64x64_S64x1x64x64_0_2_0_0 : ∀ a, (![0, 2, 0, 0] : Fin 4 → Nat) a + S64x1x64x64.size a ≤ S64x8x64x64.size a
  inb_S64x8x64x64_S64x1x64x64_0_3_0_0 : ∀ a, (![0, 3, 0, 0] : Fin 4 → Nat) a + S64x1x64x64.size a ≤ S64x8x64x64.size a
  inb_S64x8x64x64_S64x1x64x64_0_4_0_0 : ∀ a, (![0, 4, 0, 0] : Fin 4 → Nat) a + S64x1x64x64.size a ≤ S64x8x64x64.size a
  inb_S64x8x64x64_S64x1x64x64_0_5_0_0 : ∀ a, (![0, 5, 0, 0] : Fin 4 → Nat) a + S64x1x64x64.size a ≤ S64x8x64x64.size a
  inb_S64x8x64x64_S64x1x64x64_0_6_0_0 : ∀ a, (![0, 6, 0, 0] : Fin 4 → Nat) a + S64x1x64x64.size a ≤ S64x8x64x64.size a
  inb_S64x8x64x64_S64x1x64x64_0_7_0_0 : ∀ a, (![0, 7, 0, 0] : Fin 4 → Nat) a + S64x1x64x64.size a ≤ S64x8x64x64.size a
  dot_S64x64x64_S64x64x64_S64x64x64_2_1_1_2_0_0_wf : DotDims.WF S64x64x64 S64x64x64 S64x64x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x8x64x64.size a ≤ S2048x8x64x64.size a
  hwx0_0 : ∀ i : grid0.Coords, EltTy.bits .f32 = 32 ∨ (Rect.block (s := S2048x8x64x64) S64x8x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x64x64.size a ≤ S2048x64x64.size a
  hwx0_1 : ∀ i : grid0.Coords, EltTy.bits .f32 = 32 ∨ (Rect.block (s := S2048x64x64) S64x64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x64x64.size a ≤ S2048x64x64.size a
  hwx0_4 : ∀ i : grid0.Coords, EltTy.bits .f32 = 32 ∨ (Rect.block (s := S2048x64x64) S64x64x64.size (cc0_transform_4 i) (hinb0_4 i)).WholeWords (EltTy.packing .f32)

variable [Facts₀]

def dot_S64x64x64_S64x64x64_S64x64x64_2_1_1_2_0_0 : DotDims S64x64x64 S64x64x64 S64x64x64 where
  lhsContracting := [2]
  rhsContracting := [1]
  lhsNonContracting := [1]
  rhsNonContracting := [2]
  lhsBatch := [0]
  rhsBatch := [0]
  wf := dot_S64x64x64_S64x64x64_S64x64x64_2_1_1_2_0_0_wf

abbrev win0_0 : Pipeline.Window sig grid0 :=
  Pipeline.Window.ofSpec (Memref.whole main_v0) S64x8x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S64x64x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2048x32768 : Shape := ⟨2, ![2048, 32768]⟩
abbrev S2048x64x64 : Shape := ⟨3, ![2048, 64, 64]⟩
abbrev S64x64 : Shape := ⟨2, ![64, 64]⟩
abbrev S2048x8x64x64 : Shape := ⟨4, ![2048, 8, 64, 64]⟩
abbrev S8x2048x64x64 : Shape := ⟨4, ![8, 2048, 64, 64]⟩
abbrev S1x2048x64x64 : Shape := ⟨4, ![1, 2048, 64, 64]⟩
abbrev S_ : Shape := ⟨0, ![]⟩
abbrev S2048 : Shape := ⟨1, ![2048]⟩
abbrev S2048x1x1 : Shape := ⟨3, ![2048, 1, 1]⟩
abbrev S1x64x64 : Shape := ⟨3, ![1, 64, 64]⟩

abbrev nBuf : Space → Nat
  | .hbm => 401
  | .vmem => 0
  | .smem => 0
  | _ => 0

abbrev hbmTy0_0 (i : Nat) : BufTy := match i % 128 with
  | 0 => ⟨S2048x32768, .f32⟩
  | 1 => ⟨S2048x64x64, .f32⟩
  | 2 => ⟨S64x64, .f32⟩
  | 3 => ⟨S64x64, .f32⟩
  | 4 => ⟨S2048x8x64x64, .f32⟩
  | 5 => ⟨S8x2048x64x64, .f32⟩
  | 6 => ⟨S1x2048x64x64, .f32⟩
  | 7 => ⟨S2048x64x64, .f32⟩
  | 8 => ⟨S2048x64x64, .f32⟩
  | 9 => ⟨S_, .f32⟩
  | 10 => ⟨S2048, .f32⟩
  | 11 => ⟨S2048x1x1, .f32⟩
  | 12 => ⟨S_, .f32⟩
  | 13 => ⟨S2048x1x1, .f32⟩
  | 14 => ⟨S2048x1x1, .f32⟩
  | 15 => ⟨S_, .i32⟩
  | 16 => ⟨S_, .f32⟩
  | 17 => ⟨S2048, .f32⟩
  | 18 => ⟨S2048x1x1, .f32⟩
  | 19 => ⟨S_, .f32⟩
  | 20 => ⟨S2048x1x1, .f32⟩
  | 21 => ⟨S2048x1x1, .f32⟩
  | 22 => ⟨S2048x64x64, .f32⟩
  | 23 => ⟨S2048x64x64, .f32⟩
  | 24 => ⟨S2048x64x64, .f32⟩
  | 25 => ⟨S_, .f32⟩
  | 26 => ⟨S_, .f32⟩
  | 27 => ⟨S_, .f32⟩
  | 28 => ⟨S_, .f32⟩
  | 29 => ⟨S2048, .f32⟩
  | 30 => ⟨S2048x1x1, .f32⟩
  | 31 => ⟨S2048x1x1, .f32⟩
  | 32 => ⟨S2048x1x1, .f32⟩
  | 33 => ⟨S_, .f32⟩
  | 34 => ⟨S_, .i1⟩
  | 35 => ⟨S_, .f32⟩
  | 36 => ⟨S_, .f32⟩
  | 37 => ⟨S2048x1x1, .f32⟩
  | 38 => ⟨S2048x1x1, .f32⟩
  | 39 => ⟨S2048x64x64, .f32⟩
  | 40 => ⟨S2048x64x64, .f32⟩
  | 41 => ⟨S_, .f32⟩
  | 42 => ⟨S2048x1x1, .f32⟩
  | 43 => ⟨S2048x1x1, .f32⟩
  | 44 => ⟨S2048x1x1, .f32⟩
  | 45 => ⟨S2048x64x64, .f32⟩
  | 46 => ⟨S2048x64x64, .f32⟩
  | 47 => ⟨S1x64x64, .f32⟩
  | 48 => ⟨S2048x64x64, .f32⟩
  | 49 => ⟨S2048x64x64, .f32⟩
  | 50 => ⟨S1x64x64, .f32⟩
  | 51 => ⟨S2048x64x64, .f32⟩
  | 52 => ⟨S2048x64x64, .f32⟩
  | 53 => ⟨S_, .f32⟩
  | 54 => ⟨S2048x64x64, .f32⟩
  | 55 => ⟨S2048x64x64, .f32⟩
  | 56 => ⟨S1x2048x64x64, .f32⟩
  | 57 => ⟨S2048x64x64, .f32⟩
  | 58 => ⟨S2048x64x64, .f32⟩
  | 59 => ⟨S_, .f32⟩
  | 60 => ⟨S2048, .f32⟩
  | 61 => ⟨S2048x1x1, .f32⟩
  | 62 => ⟨S_, .f32⟩
  | 63 => ⟨S2048x1x1, .f32⟩
  | 64 => ⟨S2048x1x1, .f32⟩
  | 65 => ⟨S_, .i32⟩
  | 66 => ⟨S_, .f32⟩
  | 67 => ⟨S2048, .f32⟩
  | 68 => ⟨S2048x1x1, .f32⟩
  | 69 => ⟨S_, .f32⟩
  | 70 => ⟨S2048x1x1, .f32⟩
  | 71 => ⟨S2048x1x1, .f32⟩
  | 72 => ⟨S2048x64x64, .f32⟩
  | 73 => ⟨S2048x64x64, .f32⟩
  | 74 => ⟨S2048x64x64, .f32⟩
  | 75 => ⟨S_, .f32⟩
  | 76 => ⟨S_, .f32⟩
  | 77 => ⟨S_, .f32⟩
  | 78 => ⟨S_, .f32⟩
  | 79 => ⟨S2048, .f32⟩
  | 80 => ⟨S2048x1x1, .f32⟩
  | 81 => ⟨S2048x1x1, .f32⟩
  | 82 => ⟨S2048x1x1, .f32⟩
  | 83 => ⟨S_, .f32⟩
  | 84 => ⟨S_, .i1⟩
  | 85 => ⟨S_, .f32⟩
  | 86 => ⟨S_, .f32⟩
  | 87 => ⟨S2048x1x1, .f32⟩
  | 88 => ⟨S2048x1x1, .f32⟩
  | 89 => ⟨S2048x64x64, .f32⟩
  | 90 => ⟨S2048x64x64, .f32⟩
  | 91 => ⟨S_, .f32⟩
  | 92 => ⟨S2048x1x1, .f32⟩
  | 93 => ⟨S2048x1x1, .f32⟩
  | 94 => ⟨S2048x1x1, .f32⟩
  | 95 => ⟨S2048x64x64, .f32⟩
  | 96 => ⟨S2048x64x64, .f32⟩
  | 97 => ⟨S1x64x64, .f32⟩
  | 98 => ⟨S2048x64x64, .f32⟩
  | 99 => ⟨S2048x64x64, .f32⟩
  | 100 => ⟨S1x64x64, .f32⟩
  | 101 => ⟨S2048x64x64, .f32⟩
  | 102 => ⟨S2048x64x64, .f32⟩
  | 103 => ⟨S2048x64x64, .f32⟩
  | 104 => ⟨S1x2048x64x64, .f32⟩
  | 105 => ⟨S2048x64x64, .f32⟩
  | 106 => ⟨S2048x64x64, .f32⟩
  | 107 => ⟨S_, .f32⟩
  | 108 => ⟨S2048, .f32⟩
  | 109 => ⟨S2048x1x1, .f32⟩
  | 110 => ⟨S_, .f32⟩
  | 111 => ⟨S2048x1x1, .f32⟩
  | 112 => ⟨S2048x1x1, .f32⟩
  | 113 => ⟨S_, .i32⟩
  | 114 => ⟨S_, .f32⟩
  | 115 => ⟨S2048, .f32⟩
  | 116 => ⟨S2048x1x1, .f32⟩
  | 117 => ⟨S_, .f32⟩
  | 118 => ⟨S2048x1x1, .f32⟩
  | 119 => ⟨S2048x1x1, .f32⟩
  | 120 => ⟨S2048x64x64, .f32⟩
  | 121 => ⟨S2048x64x64, .f32⟩
  | 122 => ⟨S2048x64x64, .f32⟩
  | 123 => ⟨S_, .f32⟩
  | 124 => ⟨S_, .f32⟩
  | 125 => ⟨S_, .f32⟩
  | 126 => ⟨S_, .f32⟩
  | 127 => ⟨S2048, .f32⟩
  | _ => ⟨S2048x32768, .f32⟩

abbrev hbmTy0_1 (i : Nat) : BufTy := match i % 128 with
  | 0 => ⟨S2048x1x1, .f32⟩
  | 1 => ⟨S2048x1x1, .f32⟩
  | 2 => ⟨S2048x1x1, .f32⟩
  | 3 => ⟨S_, .f32⟩
  | 4 => ⟨S_, .i1⟩
  | 5 => ⟨S_, .f32⟩
  | 6 => ⟨S_, .f32⟩
  | 7 => ⟨S2048x1x1, .f32⟩
  | 8 => ⟨S2048x1x1, .f32⟩
  | 9 => ⟨S2048x64x64, .f32⟩
  | 10 => ⟨S2048x64x64, .f32⟩
  | 11 => ⟨S_, .f32⟩
  | 12 => ⟨S2048x1x1, .f32⟩
  | 13 => ⟨S2048x1x1, .f32⟩
  | 14 => ⟨S2048x1x1, .f32⟩
  | 15 => ⟨S2048x64x64, .f32⟩
  | 16 => ⟨S2048x64x64, .f32⟩
  | 17 => ⟨S1x64x64, .f32⟩
  | 18 => ⟨S2048x64x64, .f32⟩
  | 19 => ⟨S2048x64x64, .f32⟩
  | 20 => ⟨S1x64x64, .f32⟩
  | 21 => ⟨S2048x64x64, .f32⟩
  | 22 => ⟨S2048x64x64, .f32⟩
  | 23 => ⟨S_, .f32⟩
  | 24 => ⟨S2048x64x64, .f32⟩
  | 25 => ⟨S2048x64x64, .f32⟩
  | 26 => ⟨S2048x64x64, .f32⟩
  | 27 => ⟨S1x2048x64x64, .f32⟩
  | 28 => ⟨S2048x64x64, .f32⟩
  | 29 => ⟨S2048x64x64, .f32⟩
  | 30 => ⟨S_, .f32⟩
  | 31 => ⟨S2048, .f32⟩
  | 32 => ⟨S2048x1x1, .f32⟩
  | 33 => ⟨S_, .f32⟩
  | 34 => ⟨S2048x1x1, .f32⟩
  | 35 => ⟨S2048x1x1, .f32⟩
  | 36 => ⟨S_, .i32⟩
  | 37 => ⟨S_, .f32⟩
  | 38 => ⟨S2048, .f32⟩
  | 39 => ⟨S2048x1x1, .f32⟩
  | 40 => ⟨S_, .f32⟩
  | 41 => ⟨S2048x1x1, .f32⟩
  | 42 => ⟨S2048x1x1, .f32⟩
  | 43 => ⟨S2048x64x64, .f32⟩
  | 44 => ⟨S2048x64x64, .f32⟩
  | 45 => ⟨S2048x64x64, .f32⟩
  | 46 => ⟨S_, .f32⟩
  | 47 => ⟨S_, .f32⟩
  | 48 => ⟨S_, .f32⟩
  | 49 => ⟨S_, .f32⟩
  | 50 => ⟨S2048, .f32⟩
  | 51 => ⟨S2048x1x1, .f32⟩
  | 52 => ⟨S2048x1x1, .f32⟩
  | 53 => ⟨S2048x1x1, .f32⟩
  | 54 => ⟨S_, .f32⟩
  | 55 => ⟨S_, .i1⟩
  | 56 => ⟨S_, .f32⟩
  | 57 => ⟨S_, .f32⟩
  | 58 => ⟨S2048x1x1, .f32⟩
  | 59 => ⟨S2048x1x1, .f32⟩
  | 60 => ⟨S2048x64x64, .f32⟩
  | 61 => ⟨S2048x64x64, .f32⟩
  | 62 => ⟨S_, .f32⟩
  | 63 => ⟨S2048x1x1, .f32⟩
  | 64 => ⟨S2048x1x1, .f32⟩
  | 65 => ⟨S2048x1x1, .f32⟩
  | 66 => ⟨S2048x64x64, .f32⟩
  | 67 => ⟨S2048x64x64, .f32⟩
  | 68 => ⟨S1x64x64, .f32⟩
  | 69 => ⟨S2048x64x64, .f32⟩
  | 70 => ⟨S2048x64x64, .f32⟩
  | 71 => ⟨S1x64x64, .f32⟩
  | 72 => ⟨S2048x64x64, .f32⟩
  | 73 => ⟨S2048x64x64, .f32⟩
  | 74 => ⟨S2048x64x64, .f32⟩
  | 75 => ⟨S1x2048x64x64, .f32⟩
  | 76 => ⟨S2048x64x64, .f32⟩
  | 77 => ⟨S2048x64x64, .f32⟩
  | 78 => ⟨S_, .f32⟩
  | 79 => ⟨S2048, .f32⟩
  | 80 => ⟨S2048x1x1, .f32⟩
  | 81 => ⟨S_, .f32⟩
  | 82 => ⟨S2048x1x1, .f32⟩
  | 83 => ⟨S2048x1x1, .f32⟩
  | 84 => ⟨S_, .i32⟩
  | 85 => ⟨S_, .f32⟩
  | 86 => ⟨S2048, .f32⟩
  | 87 => ⟨S2048x1x1, .f32⟩
  | 88 => ⟨S_, .f32⟩
  | 89 => ⟨S2048x1x1, .f32⟩
  | 90 => ⟨S2048x1x1, .f32⟩
  | 91 => ⟨S2048x64x64, .f32⟩
  | 92 => ⟨S2048x64x64, .f32⟩
  | 93 => ⟨S2048x64x64, .f32⟩
  | 94 => ⟨S_, .f32⟩
  | 95 => ⟨S_, .f32⟩
  | 96 => ⟨S_, .f32⟩
  | 97 => ⟨S_, .f32⟩
  | 98 => ⟨S2048, .f32⟩
  | 99 => ⟨S2048x1x1, .f32⟩
  | 100 => ⟨S2048x1x1, .f32⟩
  | 101 => ⟨S2048x1x1, .f32⟩
  | 102 => ⟨S_, .f32⟩
  | 103 => ⟨S_, .i1⟩
  | 104 => ⟨S_, .f32⟩
  | 105 => ⟨S_, .f32⟩
  | 106 => ⟨S2048x1x1, .f32⟩
  | 107 => ⟨S2048x1x1, .f32⟩
  | 108 => ⟨S2048x64x64, .f32⟩
  | 109 => ⟨S2048x64x64, .f32⟩
  | 110 => ⟨S_, .f32⟩
  | 111 => ⟨S2048x1x1, .f32⟩
  | 112 => ⟨S2048x1x1, .f32⟩
  | 113 => ⟨S2048x1x1, .f32⟩
  | 114 => ⟨S2048x64x64, .f32⟩
  | 115 => ⟨S2048x64x64, .f32⟩
  | 116 => ⟨S1x64x64, .f32⟩
  | 117 => ⟨S2048x64x64, .f32⟩
  | 118 => ⟨S2048x64x64, .f32⟩
  | 119 => ⟨S1x64x64, .f32⟩
  | 120 => ⟨S2048x64x64, .f32⟩
  | 121 => ⟨S2048x64x64, .f32⟩
  | 122 => ⟨S_, .f32⟩
  | 123 => ⟨S2048x64x64, .f32⟩
  | 124 => ⟨S2048x64x64, .f32⟩
  | 125 => ⟨S2048x64x64, .f32⟩
  | 126 => ⟨S1x2048x64x64, .f32⟩
  | 127 => ⟨S2048x64x64, .f32⟩
  | _ => ⟨S2048x32768, .f32⟩

abbrev hbmTy0_2 (i : Nat) : BufTy := match i % 128 with
  | 0 => ⟨S2048x64x64, .f32⟩
  | 1 => ⟨S_, .f32⟩
  | 2 => ⟨S2048, .f32⟩
  | 3 => ⟨S2048x1x1, .f32⟩
  | 4 => ⟨S_, .f32⟩
  | 5 => ⟨S2048x1x1, .f32⟩
  | 6 => ⟨S2048x1x1, .f32⟩
  | 7 => ⟨S_, .i32⟩
  | 8 => ⟨S_, .f32⟩
  | 9 => ⟨S2048, .f32⟩
  | 10 => ⟨S2048x1x1, .f32⟩
  | 11 => ⟨S_, .f32⟩
  | 12 => ⟨S2048x1x1, .f32⟩
  | 13 => ⟨S2048x1x1, .f32⟩
  | 14 => ⟨S2048x64x64, .f32⟩
  | 15 => ⟨S2048x64x64, .f32⟩
  | 16 => ⟨S2048x64x64, .f32⟩
  | 17 => ⟨S_, .f32⟩
  | 18 => ⟨S_, .f32⟩
  | 19 => ⟨S_, .f32⟩
  | 20 => ⟨S_, .f32⟩
  | 21 => ⟨S2048, .f32⟩
  | 22 => ⟨S2048x1x1, .f32⟩
  | 23 => ⟨S2048x1x1, .f32⟩
  | 24 => ⟨S2048x1x1, .f32⟩
  | 25 => ⟨S_, .f32⟩
  | 26 => ⟨S_, .i1⟩
  | 27 => ⟨S_, .f32⟩
  | 28 => ⟨S_, .f32⟩
  | 29 => ⟨S2048x1x1, .f32⟩
  | 30 => ⟨S2048x1x1, .f32⟩
  | 31 => ⟨S2048x64x64, .f32⟩
  | 32 => ⟨S2048x64x64, .f32⟩
  | 33 => ⟨S_, .f32⟩
  | 34 => ⟨S2048x1x1, .f32⟩
  | 35 => ⟨S2048x1x1, .f32⟩
  | 36 => ⟨S2048x1x1, .f32⟩
  | 37 => ⟨S2048x64x64, .f32⟩
  | 38 => ⟨S2048x64x64, .f32⟩
  | 39 => ⟨S1x64x64, .f32⟩
  | 40 => ⟨S2048x64x64, .f32⟩
  | 41 => ⟨S2048x64x64, .f32⟩
  | 42 => ⟨S1x64x64, .f32⟩
  | 43 => ⟨S2048x64x64, .f32⟩
  | 44 => ⟨S2048x64x64, .f32⟩
  | 45 => ⟨S2048x64x64, .f32⟩
  | 46 => ⟨S1x2048x64x64, .f32⟩
  | 47 => ⟨S2048x64x64, .f32⟩
  | 48 => ⟨S2048x64x64, .f32⟩
  | 49 => ⟨S_, .f32⟩
  | 50 => ⟨S2048, .f32⟩
  | 51 => ⟨S2048x1x1, .f32⟩
  | 52 => ⟨S_, .f32⟩
  | 53 => ⟨S2048x1x1, .f32⟩
  | 54 => ⟨S2048x1x1, .f32⟩
  | 55 => ⟨S_, .i32⟩
  | 56 => ⟨S_, .f32⟩
  | 57 => ⟨S2048, .f32⟩
  | 58 => ⟨S2048x1x1, .f32⟩
  | 59 => ⟨S_, .f32⟩
  | 60 => ⟨S2048x1x1, .f32⟩
  | 61 => ⟨S2048x1x1, .f32⟩
  | 62 => ⟨S2048x64x64, .f32⟩
  | 63 => ⟨S2048x64x64, .f32⟩
  | 64 => ⟨S2048x64x64, .f32⟩
  | 65 => ⟨S_, .f32⟩
  | 66 => ⟨S_, .f32⟩
  | 67 => ⟨S_, .f32⟩
  | 68 => ⟨S_, .f32⟩
  | 69 => ⟨S2048, .f32⟩
  | 70 => ⟨S2048x1x1, .f32⟩
  | 71 => ⟨S2048x1x1, .f32⟩
  | 72 => ⟨S2048x1x1, .f32⟩
  | 73 => ⟨S_, .f32⟩
  | 74 => ⟨S_, .i1⟩
  | 75 => ⟨S_, .f32⟩
  | 76 => ⟨S_, .f32⟩
  | 77 => ⟨S2048x1x1, .f32⟩
  | 78 => ⟨S2048x1x1, .f32⟩
  | 79 => ⟨S2048x64x64, .f32⟩
  | 80 => ⟨S2048x64x64, .f32⟩
  | 81 => ⟨S_, .f32⟩
  | 82 => ⟨S2048x1x1, .f32⟩
  | 83 => ⟨S2048x1x1, .f32⟩
  | 84 => ⟨S2048x1x1, .f32⟩
  | 85 => ⟨S2048x64x64, .f32⟩
  | 86 => ⟨S2048x64x64, .f32⟩
  | 87 => ⟨S1x64x64, .f32⟩
  | 88 => ⟨S2048x64x64, .f32⟩
  | 89 => ⟨S2048x64x64, .f32⟩
  | 90 => ⟨S1x64x64, .f32⟩
  | 91 => ⟨S2048x64x64, .f32⟩
  | 92 => ⟨S2048x64x64, .f32⟩
  | 93 => ⟨S_, .f32⟩
  | 94 => ⟨S2048x64x64, .f32⟩
  | 95 => ⟨S2048x64x64, .f32⟩
  | 96 => ⟨S2048x64x64, .f32⟩
  | 97 => ⟨S1x2048x64x64, .f32⟩
  | 98 => ⟨S2048x64x64, .f32⟩
  | 99 => ⟨S2048x64x64, .f32⟩
  | 100 => ⟨S_, .f32⟩
  | 101 => ⟨S2048, .f32⟩
  | 102 => ⟨S2048x1x1, .f32⟩
  | 103 => ⟨S_, .f32⟩
  | 104 => ⟨S2048x1x1, .f32⟩
  | 105 => ⟨S2048x1x1, .f32⟩
  | 106 => ⟨S_, .i32⟩
  | 107 => ⟨S_, .f32⟩
  | 108 => ⟨S2048, .f32⟩
  | 109 => ⟨S2048x1x1, .f32⟩
  | 110 => ⟨S_, .f32⟩
  | 111 => ⟨S2048x1x1, .f32⟩
  | 112 => ⟨S2048x1x1, .f32⟩
  | 113 => ⟨S2048x64x64, .f32⟩
  | 114 => ⟨S2048x64x64, .f32⟩
  | 115 => ⟨S2048x64x64, .f32⟩
  | 116 => ⟨S_, .f32⟩
  | 117 => ⟨S_, .f32⟩
  | 118 => ⟨S_, .f32⟩
  | 119 => ⟨S_, .f32⟩
  | 120 => ⟨S2048, .f32⟩
  | 121 => ⟨S2048x1x1, .f32⟩
  | 122 => ⟨S2048x1x1, .f32⟩
  | 123 => ⟨S2048x1x1, .f32⟩
  | 124 => ⟨S_, .f32⟩
  | 125 => ⟨S_, .i1⟩
  | 126 => ⟨S_, .f32⟩
  | 127 => ⟨S_, .f32⟩
  | _ => ⟨S2048x32768, .f32⟩

abbrev hbmTy0_3 (i : Nat) : BufTy := match i % 128 with
  | 0 => ⟨S2048x1x1, .f32⟩
  | 1 => ⟨S2048x1x1, .f32⟩
  | 2 => ⟨S2048x64x64, .f32⟩
  | 3 => ⟨S2048x64x64, .f32⟩
  | 4 => ⟨S_, .f32⟩
  | 5 => ⟨S2048x1x1, .f32⟩
  | 6 => ⟨S2048x1x1, .f32⟩
  | 7 => ⟨S2048x1x1, .f32⟩
  | 8 => ⟨S2048x64x64, .f32⟩
  | 9 => ⟨S2048x64x64, .f32⟩
  | 10 => ⟨S1x64x64, .f32⟩
  | 11 => ⟨S2048x64x64, .f32⟩
  | 12 => ⟨S2048x64x64, .f32⟩
  | 13 => ⟨S1x64x64, .f32⟩
  | 14 => ⟨S2048x64x64, .f32⟩
  | 15 => ⟨S2048x64x64, .f32⟩
  | 16 => ⟨S2048x64x64, .f32⟩
  | _ => ⟨S2048x32768, .f32⟩

abbrev hbmTy (i : Nat) : BufTy := match i / 128 with
  | 0 => hbmTy0_0 i
  | 1 => hbmTy0_1 i
  | 2 => hbmTy0_2 i
  | 3 => hbmTy0_3 i
  | _ => ⟨S2048x32768, .f32⟩

abbrev bufTy : (tb : Table) → Fin (tcTables nBuf tb) → BufTy
  | .hbm, ⟨i, _⟩ => hbmTy i
  | _, _ => ⟨S2048x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_cst_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_cst_1 : Ref sig .tc := ⟨.hbm, 26, rfl⟩
abbrev main_call0_v8 : Ref sig .tc := ⟨.hbm, 27, rfl⟩
abbrev main_call0_cst_2 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_cst_3 : Ref sig .tc := ⟨.hbm, 33, rfl⟩
abbrev main_call0_v13 : Ref sig .tc := ⟨.hbm, 34, rfl⟩
abbrev main_call0_cst_4 : Ref sig .tc := ⟨.hbm, 35, rfl⟩
abbrev main_call0_call0_v0 : Ref sig .tc := ⟨.hbm, 36, rfl⟩
abbrev main_call0_call0_v1 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_cst_1 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_call1_cst : Ref sig .tc := ⟨.hbm, 53, rfl⟩
abbrev main_call1_v0 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_cst_2 : Ref sig .tc := ⟨.hbm, 59, rfl⟩
abbrev main_v27 : Ref sig .tc := ⟨.hbm, 60, rfl⟩
abbrev main_v28 : Ref sig .tc := ⟨.hbm, 61, rfl⟩
abbrev main_cst_3 : Ref sig .tc := ⟨.hbm, 62, rfl⟩
abbrev main_v29 : Ref sig .tc := ⟨.hbm, 63, rfl⟩
abbrev main_v30 : Ref sig .tc := ⟨.hbm, 64, rfl⟩
abbrev main_c_4 : Ref sig .tc := ⟨.hbm, 65, rfl⟩
abbrev main_call2_cst : Ref sig .tc := ⟨.hbm, 66, rfl⟩
abbrev main_call2_v0 : Ref sig .tc := ⟨.hbm, 67, rfl⟩
abbrev main_call2_v1 : Ref sig .tc := ⟨.hbm, 68, rfl⟩
abbrev main_call2_cst_0 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_v6 : Ref sig .tc := ⟨.hbm, 74, rfl⟩
abbrev main_call2_v7 : Ref sig .tc := ⟨.hbm, 75, rfl⟩
abbrev main_call2_cst_1 : Ref sig .tc := ⟨.hbm, 76, rfl⟩
abbrev main_call2_v8 : Ref sig .tc := ⟨.hbm, 77, rfl⟩
abbrev main_call2_cst_2 : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_v12 : Ref sig .tc := ⟨.hbm, 82, rfl⟩
abbrev main_call2_cst_3 : Ref sig .tc := ⟨.hbm, 83, rfl⟩
abbrev main_call2_v13 : Ref sig .tc := ⟨.hbm, 84, rfl⟩
abbrev main_call2_cst_4 : Ref sig .tc := ⟨.hbm, 85, rfl⟩
abbrev main_call2_call0_v0 : Ref sig .tc := ⟨.hbm, 86, rfl⟩
abbrev main_call2_call0_v1 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_cst_5 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_cst_6 : Ref sig .tc := ⟨.hbm, 107, rfl⟩
abbrev main_v49 : Ref sig .tc := ⟨.hbm, 108, rfl⟩
abbrev main_v50 : Ref sig .tc := ⟨.hbm, 109, rfl⟩
abbrev main_cst_7 : Ref sig .tc := ⟨.hbm, 110, rfl⟩
abbrev main_v51 : Ref sig .tc := ⟨.hbm, 111, rfl⟩
abbrev main_v52 : Ref sig .tc := ⟨.hbm, 112, rfl⟩
abbrev main_c_8 : Ref sig .tc := ⟨.hbm, 113, rfl⟩
abbrev main_call3_cst : Ref sig .tc := ⟨.hbm, 114, rfl⟩
abbrev main_call3_v0 : Ref sig .tc := ⟨.hbm, 115, rfl⟩
abbrev main_call3_v1 : Ref sig .tc := ⟨.hbm, 116, rfl⟩
abbrev main_call3_cst_0 : Ref sig .tc := ⟨.hbm, 117, rfl⟩
abbrev main_call3_v2 : Ref sig .tc := ⟨.hbm, 118, rfl⟩
abbrev main_call3_v3 : Ref sig .tc := ⟨.hbm, 119, rfl⟩
abbrev main_call3_v4 : Ref sig .tc := ⟨.hbm, 120, rfl⟩
abbrev main_call3_v5 : Ref sig .tc := ⟨.hbm, 121, rfl⟩
abbrev main_call3_v6 : Ref sig .tc := ⟨.hbm, 122, rfl⟩
abbrev main_call3_v7 : Ref sig .tc := ⟨.hbm, 123, rfl⟩
abbrev main_call3_cst_1 : Ref sig .tc := ⟨.hbm, 124, rfl⟩
abbrev main_call3_v8 : Ref sig .tc := ⟨.hbm, 125, rfl⟩
abbrev main_call3_cst_2 : Ref sig .tc := ⟨.hbm, 126, rfl⟩
abbrev main_call3_v9 : Ref sig .tc := ⟨.hbm, 127, rfl⟩
abbrev main_call3_v10 : Ref sig .tc := ⟨.hbm, 128, rfl⟩
abbrev main_call3_v11 : Ref sig .tc := ⟨.hbm, 129, rfl⟩
abbrev main_call3_v12 : Ref sig .tc := ⟨.hbm, 130, rfl⟩
abbrev main_call3_cst_3 : Ref sig .tc := ⟨.hbm, 131, rfl⟩
abbrev main_call3_v13 : Ref sig .tc := ⟨.hbm, 132, rfl⟩
abbrev main_call3_cst_4 : Ref sig .tc := ⟨.hbm, 133, rfl⟩
abbrev main_call3_call0_v0 : Ref sig .tc := ⟨.hbm, 134, rfl⟩
abbrev main_call3_call0_v1 : Ref sig .tc := ⟨.hbm, 135, rfl⟩
abbrev main_v53 : Ref sig .tc := ⟨.hbm, 136, rfl⟩
abbrev main_v54 : Ref sig .tc := ⟨.hbm, 137, rfl⟩
abbrev main_v55 : Ref sig .tc := ⟨.hbm, 138, rfl⟩
abbrev main_cst_9 : Ref sig .tc := ⟨.hbm, 139, rfl⟩
abbrev main_v56 : Ref sig .tc := ⟨.hbm, 140, rfl⟩
abbrev main_v57 : Ref sig .tc := ⟨.hbm, 141, rfl⟩
abbrev main_v58 : Ref sig .tc := ⟨.hbm, 142, rfl⟩
abbrev main_v59 : Ref sig .tc := ⟨.hbm, 143, rfl⟩
abbrev main_v60 : Ref sig .tc := ⟨.hbm, 144, rfl⟩
abbrev main_v61 : Ref sig .tc := ⟨.hbm, 145, rfl⟩
abbrev main_v62 : Ref sig .tc := ⟨.hbm, 146, rfl⟩
abbrev main_v63 : Ref sig .tc := ⟨.hbm, 147, rfl⟩
abbrev main_v64 : Ref sig .tc := ⟨.hbm, 148, rfl⟩
abbrev main_v65 : Ref sig .tc := ⟨.hbm, 149, rfl⟩
abbrev main_v66 : Ref sig .tc := ⟨.hbm, 150, rfl⟩
abbrev main_call4_cst : Ref sig .tc := ⟨.hbm, 151, rfl⟩
abbrev main_call4_v0 : Ref sig .tc := ⟨.hbm, 152, rfl⟩
abbrev main_v67 : Ref sig .tc := ⟨.hbm, 153, rfl⟩
abbrev main_v68 : Ref sig .tc := ⟨.hbm, 154, rfl⟩
abbrev main_v69 : Ref sig .tc := ⟨.hbm, 155, rfl⟩
abbrev main_v70 : Ref sig .tc := ⟨.hbm, 156, rfl⟩
abbrev main_v71 : Ref sig .tc := ⟨.hbm, 157, rfl⟩
abbrev main_cst_10 : Ref sig .tc := ⟨.hbm, 158, rfl⟩
abbrev main_v72 : Ref sig .tc := ⟨.hbm, 159, rfl⟩
abbrev main_v73 : Ref sig .tc := ⟨.hbm, 160, rfl⟩
abbrev main_cst_11 : Ref sig .tc := ⟨.hbm, 161, rfl⟩
abbrev main_v74 : Ref sig .tc := ⟨.hbm, 162, rfl⟩
abbrev main_v75 : Ref sig .tc := ⟨.hbm, 163, rfl⟩
abbrev main_c_12 : Ref sig .tc := ⟨.hbm, 164, rfl⟩
abbrev main_call5_cst : Ref sig .tc := ⟨.hbm, 165, rfl⟩
abbrev main_call5_v0 : Ref sig .tc := ⟨.hbm, 166, rfl⟩
abbrev main_call5_v1 : Ref sig .tc := ⟨.hbm, 167, rfl⟩
abbrev main_call5_cst_0 : Ref sig .tc := ⟨.hbm, 168, rfl⟩
abbrev main_call5_v2 : Ref sig .tc := ⟨.hbm, 169, rfl⟩
abbrev main_call5_v3 : Ref sig .tc := ⟨.hbm, 170, rfl⟩
abbrev main_call5_v4 : Ref sig .tc := ⟨.hbm, 171, rfl⟩
abbrev main_call5_v5 : Ref sig .tc := ⟨.hbm, 172, rfl⟩
abbrev main_call5_v6 : Ref sig .tc := ⟨.hbm, 173, rfl⟩
abbrev main_call5_v7 : Ref sig .tc := ⟨.hbm, 174, rfl⟩
abbrev main_call5_cst_1 : Ref sig .tc := ⟨.hbm, 175, rfl⟩
abbrev main_call5_v8 : Ref sig .tc := ⟨.hbm, 176, rfl⟩
abbrev main_call5_cst_2 : Ref sig .tc := ⟨.hbm, 177, rfl⟩
abbrev main_call5_v9 : Ref sig .tc := ⟨.hbm, 178, rfl⟩
abbrev main_call5_v10 : Ref sig .tc := ⟨.hbm, 179, rfl⟩
abbrev main_call5_v11 : Ref sig .tc := ⟨.hbm, 180, rfl⟩
abbrev main_call5_v12 : Ref sig .tc := ⟨.hbm, 181, rfl⟩
abbrev main_call5_cst_3 : Ref sig .tc := ⟨.hbm, 182, rfl⟩
abbrev main_call5_v13 : Ref sig .tc := ⟨.hbm, 183, rfl⟩
abbrev main_call5_cst_4 : Ref sig .tc := ⟨.hbm, 184, rfl⟩
abbrev main_call5_call0_v0 : Ref sig .tc := ⟨.hbm, 185, rfl⟩
abbrev main_call5_call0_v1 : Ref sig .tc := ⟨.hbm, 186, rfl⟩
abbrev main_v76 : Ref sig .tc := ⟨.hbm, 187, rfl⟩
abbrev main_v77 : Ref sig .tc := ⟨.hbm, 188, rfl⟩
abbrev main_v78 : Ref sig .tc := ⟨.hbm, 189, rfl⟩
abbrev main_cst_13 : Ref sig .tc := ⟨.hbm, 190, rfl⟩
abbrev main_v79 : Ref sig .tc := ⟨.hbm, 191, rfl⟩
abbrev main_v80 : Ref sig .tc := ⟨.hbm, 192, rfl⟩
abbrev main_v81 : Ref sig .tc := ⟨.hbm, 193, rfl⟩
abbrev main_v82 : Ref sig .tc := ⟨.hbm, 194, rfl⟩
abbrev main_v83 : Ref sig .tc := ⟨.hbm, 195, rfl⟩
abbrev main_v84 : Ref sig .tc := ⟨.hbm, 196, rfl⟩
abbrev main_v85 : Ref sig .tc := ⟨.hbm, 197, rfl⟩
abbrev main_v86 : Ref sig .tc := ⟨.hbm, 198, rfl⟩
abbrev main_v87 : Ref sig .tc := ⟨.hbm, 199, rfl⟩
abbrev main_v88 : Ref sig .tc := ⟨.hbm, 200, rfl⟩
abbrev main_v89 : Ref sig .tc := ⟨.hbm, 201, rfl⟩
abbrev main_v90 : Ref sig .tc := ⟨.hbm, 202, rfl⟩
abbrev main_v91 : Ref sig .tc := ⟨.hbm, 203, rfl⟩
abbrev main_v92 : Ref sig .tc := ⟨.hbm, 204, rfl⟩
abbrev main_v93 : Ref sig .tc := ⟨.hbm, 205, rfl⟩
abbrev main_cst_14 : Ref sig .tc := ⟨.hbm, 206, rfl⟩
abbrev main_v94 : Ref sig .tc := ⟨.hbm, 207, rfl⟩
abbrev main_v95 : Ref sig .tc := ⟨.hbm, 208, rfl⟩
abbrev main_cst_15 : Ref sig .tc := ⟨.hbm, 209, rfl⟩
abbrev main_v96 : Ref sig .tc := ⟨.hbm, 210, rfl⟩
abbrev main_v97 : Ref sig .tc := ⟨.hbm, 211, rfl⟩
abbrev main_c_16 : Ref sig .tc := ⟨.hbm, 212, rfl⟩
abbrev main_call6_cst : Ref sig .tc := ⟨.hbm, 213, rfl⟩
abbrev main_call6_v0 : Ref sig .tc := ⟨.hbm, 214, rfl⟩
abbrev main_call6_v1 : Ref sig .tc := ⟨.hbm, 215, rfl⟩
abbrev main_call6_cst_0 : Ref sig .tc := ⟨.hbm, 216, rfl⟩
abbrev main_call6_v2 : Ref sig .tc := ⟨.hbm, 217, rfl⟩
abbrev main_call6_v3 : Ref sig .tc := ⟨.hbm, 218, rfl⟩
abbrev main_call6_v4 : Ref sig .tc := ⟨.hbm, 219, rfl⟩
abbrev main_call6_v5 : Ref sig .tc := ⟨.hbm, 220, rfl⟩
abbrev main_call6_v6 : Ref sig .tc := ⟨.hbm, 221, rfl⟩
abbrev main_call6_v7 : Ref sig .tc := ⟨.hbm, 222, rfl⟩
abbrev main_call6_cst_1 : Ref sig .tc := ⟨.hbm, 223, rfl⟩
abbrev main_call6_v8 : Ref sig .tc := ⟨.hbm, 224, rfl⟩
abbrev main_call6_cst_2 : Ref sig .tc := ⟨.hbm, 225, rfl⟩
abbrev main_call6_v9 : Ref sig .tc := ⟨.hbm, 226, rfl⟩
abbrev main_call6_v10 : Ref sig .tc := ⟨.hbm, 227, rfl⟩
abbrev main_call6_v11 : Ref sig .tc := ⟨.hbm, 228, rfl⟩
abbrev main_call6_v12 : Ref sig .tc := ⟨.hbm, 229, rfl⟩
abbrev main_call6_cst_3 : Ref sig .tc := ⟨.hbm, 230, rfl⟩
abbrev main_call6_v13 : Ref sig .tc := ⟨.hbm, 231, rfl⟩
abbrev main_call6_cst_4 : Ref sig .tc := ⟨.hbm, 232, rfl⟩
abbrev main_call6_call0_v0 : Ref sig .tc := ⟨.hbm, 233, rfl⟩
abbrev main_call6_call0_v1 : Ref sig .tc := ⟨.hbm, 234, rfl⟩
abbrev main_v98 : Ref sig .tc := ⟨.hbm, 235, rfl⟩
abbrev main_v99 : Ref sig .tc := ⟨.hbm, 236, rfl⟩
abbrev main_v100 : Ref sig .tc := ⟨.hbm, 237, rfl⟩
abbrev main_cst_17 : Ref sig .tc := ⟨.hbm, 238, rfl⟩
abbrev main_v101 : Ref sig .tc := ⟨.hbm, 239, rfl⟩
abbrev main_v102 : Ref sig .tc := ⟨.hbm, 240, rfl⟩
abbrev main_v103 : Ref sig .tc := ⟨.hbm, 241, rfl⟩
abbrev main_v104 : Ref sig .tc := ⟨.hbm, 242, rfl⟩
abbrev main_v105 : Ref sig .tc := ⟨.hbm, 243, rfl⟩
abbrev main_v106 : Ref sig .tc := ⟨.hbm, 244, rfl⟩
abbrev main_v107 : Ref sig .tc := ⟨.hbm, 245, rfl⟩
abbrev main_v108 : Ref sig .tc := ⟨.hbm, 246, rfl⟩
abbrev main_v109 : Ref sig .tc := ⟨.hbm, 247, rfl⟩
abbrev main_v110 : Ref sig .tc := ⟨.hbm, 248, rfl⟩
abbrev main_v111 : Ref sig .tc := ⟨.hbm, 249, rfl⟩
abbrev main_call7_cst : Ref sig .tc := ⟨.hbm, 250, rfl⟩
abbrev main_call7_v0 : Ref sig .tc := ⟨.hbm, 251, rfl⟩
abbrev main_v112 : Ref sig .tc := ⟨.hbm, 252, rfl⟩
abbrev main_v113 : Ref sig .tc := ⟨.hbm, 253, rfl⟩
abbrev main_v114 : Ref sig .tc := ⟨.hbm, 254, rfl⟩
abbrev main_v115 : Ref sig .tc := ⟨.hbm, 255, rfl⟩
abbrev main_v116 : Ref sig .tc := ⟨.hbm, 256, rfl⟩
abbrev main_cst_18 : Ref sig .tc := ⟨.hbm, 257, rfl⟩
abbrev main_v117 : Ref sig .tc := ⟨.hbm, 258, rfl⟩
abbrev main_v118 : Ref sig .tc := ⟨.hbm, 259, rfl⟩
abbrev main_cst_19 : Ref sig .tc := ⟨.hbm, 260, rfl⟩
abbrev main_v119 : Ref sig .tc := ⟨.hbm, 261, rfl⟩
abbrev main_v120 : Ref sig .tc := ⟨.hbm, 262, rfl⟩
abbrev main_c_20 : Ref sig .tc := ⟨.hbm, 263, rfl⟩
abbrev main_call8_cst : Ref sig .tc := ⟨.hbm, 264, rfl⟩
abbrev main_call8_v0 : Ref sig .tc := ⟨.hbm, 265, rfl⟩
abbrev main_call8_v1 : Ref sig .tc := ⟨.hbm, 266, rfl⟩
abbrev main_call8_cst_0 : Ref sig .tc := ⟨.hbm, 267, rfl⟩
abbrev main_call8_v2 : Ref sig .tc := ⟨.hbm, 268, rfl⟩
abbrev main_call8_v3 : Ref sig .tc := ⟨.hbm, 269, rfl⟩
abbrev main_call8_v4 : Ref sig .tc := ⟨.hbm, 270, rfl⟩
abbrev main_call8_v5 : Ref sig .tc := ⟨.hbm, 271, rfl⟩
abbrev main_call8_v6 : Ref sig .tc := ⟨.hbm, 272, rfl⟩
abbrev main_call8_v7 : Ref sig .tc := ⟨.hbm, 273, rfl⟩
abbrev main_call8_cst_1 : Ref sig .tc := ⟨.hbm, 274, rfl⟩
abbrev main_call8_v8 : Ref sig .tc := ⟨.hbm, 275, rfl⟩
abbrev main_call8_cst_2 : Ref sig .tc := ⟨.hbm, 276, rfl⟩
abbrev main_call8_v9 : Ref sig .tc := ⟨.hbm, 277, rfl⟩
abbrev main_call8_v10 : Ref sig .tc := ⟨.hbm, 278, rfl⟩
abbrev main_call8_v11 : Ref sig .tc := ⟨.hbm, 279, rfl⟩
abbrev main_call8_v12 : Ref sig .tc := ⟨.hbm, 280, rfl⟩
abbrev main_call8_cst_3 : Ref sig .tc := ⟨.hbm, 281, rfl⟩
abbrev main_call8_v13 : Ref sig .tc := ⟨.hbm, 282, rfl⟩
abbrev main_call8_cst_4 : Ref sig .tc := ⟨.hbm, 283, rfl⟩
abbrev main_call8_call0_v0 : Ref sig .tc := ⟨.hbm, 284, rfl⟩
abbrev main_call8_call0_v1 : Ref sig .tc := ⟨.hbm, 285, rfl⟩
abbrev main_v121 : Ref sig .tc := ⟨.hbm, 286, rfl⟩
abbrev main_v122 : Ref sig .tc := ⟨.hbm, 287, rfl⟩
abbrev main_v123 : Ref sig .tc := ⟨.hbm, 288, rfl⟩
abbrev main_cst_21 : Ref sig .tc := ⟨.hbm, 289, rfl⟩
abbrev main_v124 : Ref sig .tc := ⟨.hbm, 290, rfl⟩
abbrev main_v125 : Ref sig .tc := ⟨.hbm, 291, rfl⟩
abbrev main_v126 : Ref sig .tc := ⟨.hbm, 292, rfl⟩
abbrev main_v127 : Ref sig .tc := ⟨.hbm, 293, rfl⟩
abbrev main_v128 : Ref sig .tc := ⟨.hbm, 294, rfl⟩
abbrev main_v129 : Ref sig .tc := ⟨.hbm, 295, rfl⟩
abbrev main_v130 : Ref sig .tc := ⟨.hbm, 296, rfl⟩
abbrev main_v131 : Ref sig .tc := ⟨.hbm, 297, rfl⟩
abbrev main_v132 : Ref sig .tc := ⟨.hbm, 298, rfl⟩
abbrev main_v133 : Ref sig .tc := ⟨.hbm, 299, rfl⟩
abbrev main_v134 : Ref sig .tc := ⟨.hbm, 300, rfl⟩
abbrev main_v135 : Ref sig .tc := ⟨.hbm, 301, rfl⟩
abbrev main_v136 : Ref sig .tc := ⟨.hbm, 302, rfl⟩
abbrev main_v137 : Ref sig .tc := ⟨.hbm, 303, rfl⟩
abbrev main_v138 : Ref sig .tc := ⟨.hbm, 304, rfl⟩
abbrev main_cst_22 : Ref sig .tc := ⟨.hbm, 305, rfl⟩
abbrev main_v139 : Ref sig .tc := ⟨.hbm, 306, rfl⟩
abbrev main_v140 : Ref sig .tc := ⟨.hbm, 307, rfl⟩
abbrev main_cst_23 : Ref sig .tc := ⟨.hbm, 308, rfl⟩
abbrev main_v141 : Ref sig .tc := ⟨.hbm, 309, rfl⟩
abbrev main_v142 : Ref sig .tc := ⟨.hbm, 310, rfl⟩
abbrev main_c_24 : Ref sig .tc := ⟨.hbm, 311, rfl⟩
abbrev main_call9_cst : Ref sig .tc := ⟨.hbm, 312, rfl⟩
abbrev main_call9_v0 : Ref sig .tc := ⟨.hbm, 313, rfl⟩
abbrev main_call9_v1 : Ref sig .tc := ⟨.hbm, 314, rfl⟩
abbrev main_call9_cst_0 : Ref sig .tc := ⟨.hbm, 315, rfl⟩
abbrev main_call9_v2 : Ref sig .tc := ⟨.hbm, 316, rfl⟩
abbrev main_call9_v3 : Ref sig .tc := ⟨.hbm, 317, rfl⟩
abbrev main_call9_v4 : Ref sig .tc := ⟨.hbm, 318, rfl⟩
abbrev main_call9_v5 : Ref sig .tc := ⟨.hbm, 319, rfl⟩
abbrev main_call9_v6 : Ref sig .tc := ⟨.hbm, 320, rfl⟩
abbrev main_call9_v7 : Ref sig .tc := ⟨.hbm, 321, rfl⟩
abbrev main_call9_cst_1 : Ref sig .tc := ⟨.hbm, 322, rfl⟩
abbrev main_call9_v8 : Ref sig .tc := ⟨.hbm, 323, rfl⟩
abbrev main_call9_cst_2 : Ref sig .tc := ⟨.hbm, 324, rfl⟩
abbrev main_call9_v9 : Ref sig .tc := ⟨.hbm, 325, rfl⟩
abbrev main_call9_v10 : Ref sig .tc := ⟨.hbm, 326, rfl⟩
abbrev main_call9_v11 : Ref sig .tc := ⟨.hbm, 327, rfl⟩
abbrev main_call9_v12 : Ref sig .tc := ⟨.hbm, 328, rfl⟩
abbrev main_call9_cst_3 : Ref sig .tc := ⟨.hbm, 329, rfl⟩
abbrev main_call9_v13 : Ref sig .tc := ⟨.hbm, 330, rfl⟩
abbrev main_call9_cst_4 : Ref sig .tc := ⟨.hbm, 331, rfl⟩
abbrev main_call9_call0_v0 : Ref sig .tc := ⟨.hbm, 332, rfl⟩
abbrev main_call9_call0_v1 : Ref sig .tc := ⟨.hbm, 333, rfl⟩
abbrev main_v143 : Ref sig .tc := ⟨.hbm, 334, rfl⟩
abbrev main_v144 : Ref sig .tc := ⟨.hbm, 335, rfl⟩
abbrev main_v145 : Ref sig .tc := ⟨.hbm, 336, rfl⟩
abbrev main_cst_25 : Ref sig .tc := ⟨.hbm, 337, rfl⟩
abbrev main_v146 : Ref sig .tc := ⟨.hbm, 338, rfl⟩
abbrev main_v147 : Ref sig .tc := ⟨.hbm, 339, rfl⟩
abbrev main_v148 : Ref sig .tc := ⟨.hbm, 340, rfl⟩
abbrev main_v149 : Ref sig .tc := ⟨.hbm, 341, rfl⟩
abbrev main_v150 : Ref sig .tc := ⟨.hbm, 342, rfl⟩
abbrev main_v151 : Ref sig .tc := ⟨.hbm, 343, rfl⟩
abbrev main_v152 : Ref sig .tc := ⟨.hbm, 344, rfl⟩
abbrev main_v153 : Ref sig .tc := ⟨.hbm, 345, rfl⟩
abbrev main_v154 : Ref sig .tc := ⟨.hbm, 346, rfl⟩
abbrev main_v155 : Ref sig .tc := ⟨.hbm, 347, rfl⟩
abbrev main_v156 : Ref sig .tc := ⟨.hbm, 348, rfl⟩
abbrev main_call10_cst : Ref sig .tc := ⟨.hbm, 349, rfl⟩
abbrev main_call10_v0 : Ref sig .tc := ⟨.hbm, 350, rfl⟩
abbrev main_v157 : Ref sig .tc := ⟨.hbm, 351, rfl⟩
abbrev main_v158 : Ref sig .tc := ⟨.hbm, 352, rfl⟩
abbrev main_v159 : Ref sig .tc := ⟨.hbm, 353, rfl⟩
abbrev main_v160 : Ref sig .tc := ⟨.hbm, 354, rfl⟩
abbrev main_v161 : Ref sig .tc := ⟨.hbm, 355, rfl⟩
abbrev main_cst_26 : Ref sig .tc := ⟨.hbm, 356, rfl⟩
abbrev main_v162 : Ref sig .tc := ⟨.hbm, 357, rfl⟩
abbrev main_v163 : Ref sig .tc := ⟨.hbm, 358, rfl⟩
abbrev main_cst_27 : Ref sig .tc := ⟨.hbm, 359, rfl⟩
abbrev main_v164 : Ref sig .tc := ⟨.hbm, 360, rfl⟩
abbrev main_v165 : Ref sig .tc := ⟨.hbm, 361, rfl⟩
abbrev main_c_28 : Ref sig .tc := ⟨.hbm, 362, rfl⟩
abbrev main_call11_cst : Ref sig .tc := ⟨.hbm, 363, rfl⟩
abbrev main_call11_v0 : Ref sig .tc := ⟨.hbm, 364, rfl⟩
abbrev main_call11_v1 : Ref sig .tc := ⟨.hbm, 365, rfl⟩
abbrev main_call11_cst_0 : Ref sig .tc := ⟨.hbm, 366, rfl⟩
abbrev main_call11_v2 : Ref sig .tc := ⟨.hbm, 367, rfl⟩
abbrev main_call11_v3 : Ref sig .tc := ⟨.hbm, 368, rfl⟩
abbrev main_call11_v4 : Ref sig .tc := ⟨.hbm, 369, rfl⟩
abbrev main_call11_v5 : Ref sig .tc := ⟨.hbm, 370, rfl⟩
abbrev main_call11_v6 : Ref sig .tc := ⟨.hbm, 371, rfl⟩
abbrev main_call11_v7 : Ref sig .tc := ⟨.hbm, 372, rfl⟩
abbrev main_call11_cst_1 : Ref sig .tc := ⟨.hbm, 373, rfl⟩
abbrev main_call11_v8 : Ref sig .tc := ⟨.hbm, 374, rfl⟩
abbrev main_call11_cst_2 : Ref sig .tc := ⟨.hbm, 375, rfl⟩
abbrev main_call11_v9 : Ref sig .tc := ⟨.hbm, 376, rfl⟩
abbrev main_call11_v10 : Ref sig .tc := ⟨.hbm, 377, rfl⟩
abbrev main_call11_v11 : Ref sig .tc := ⟨.hbm, 378, rfl⟩
abbrev main_call11_v12 : Ref sig .tc := ⟨.hbm, 379, rfl⟩
abbrev main_call11_cst_3 : Ref sig .tc := ⟨.hbm, 380, rfl⟩
abbrev main_call11_v13 : Ref sig .tc := ⟨.hbm, 381, rfl⟩
abbrev main_call11_cst_4 : Ref sig .tc := ⟨.hbm, 382, rfl⟩
abbrev main_call11_call0_v0 : Ref sig .tc := ⟨.hbm, 383, rfl⟩
abbrev main_call11_call0_v1 : Ref sig .tc := ⟨.hbm, 384, rfl⟩
abbrev main_v166 : Ref sig .tc := ⟨.hbm, 385, rfl⟩
abbrev main_v167 : Ref sig .tc := ⟨.hbm, 386, rfl⟩
abbrev main_v168 : Ref sig .tc := ⟨.hbm, 387, rfl⟩
abbrev main_cst_29 : Ref sig .tc := ⟨.hbm, 388, rfl⟩
abbrev main_v169 : Ref sig .tc := ⟨.hbm, 389, rfl⟩
abbrev main_v170 : Ref sig .tc := ⟨.hbm, 390, rfl⟩
abbrev main_v171 : Ref sig .tc := ⟨.hbm, 391, rfl⟩
abbrev main_v172 : Ref sig .tc := ⟨.hbm, 392, rfl⟩
abbrev main_v173 : Ref sig .tc := ⟨.hbm, 393, rfl⟩
abbrev main_v174 : Ref sig .tc := ⟨.hbm, 394, rfl⟩
abbrev main_v175 : Ref sig .tc := ⟨.hbm, 395, rfl⟩
abbrev main_v176 : Ref sig .tc := ⟨.hbm, 396, rfl⟩
abbrev main_v177 : Ref sig .tc := ⟨.hbm, 397, rfl⟩
abbrev main_v178 : Ref sig .tc := ⟨.hbm, 398, rfl⟩
abbrev main_v179 : Ref sig .tc := ⟨.hbm, 399, rfl⟩
abbrev main_v180 : Ref sig .tc := ⟨.hbm, 400, rfl⟩

abbrev nD : Nat := 1
abbrev τ : Topo := Topo.v7x

variable {F : FTy → Type} [FloatOps F]

class Facts₀ : Prop where
  shapeCasts_S2048x32768_S2048x8x64x64 : S2048x32768.ShapeCasts S2048x8x64x64
  transposes_S2048x8x64x64_S8x2048x64x64_1_0_2_3 : S2048x8x64x64.Transposes [1, 0, 2, 3] S8x2048x64x64
  slices_S8x2048x64x64_S1x2048x64x64_0_0_0_0 : S8x2048x64x64.Slices ![0, 0, 0, 0] S1x2048x64x64
  shapeCasts_S1x2048x64x64_S2048x64x64 : S1x2048x64x64.ShapeCasts S2048x64x64
  reducesTo_S2048x64x64_S2048_d1_2 : S2048x64x64.ReducesTo [1, 2] S2048
  h_S_ : 0 < S_.numel
  bcast_S2048_S2048x1x1_0 : S2048.BroadcastsInDim S2048x1x1 (![0] : Fin 1 → Fin S2048x1x1.rank)
  bcast_S_S2048x1x1 : S_.BroadcastsInDim S2048x1x1 (![] : Fin 0 → Fin S2048x1x1.rank)
  bcast_S2048x1x1_S2048x64x64_0_1_2 : S2048x1x1.BroadcastsInDim S2048x64x64 (![0, 1, 2] : Fin 3 → Fin S2048x64x64.rank)
  bcast_S64x64_S1x64x64_1_2 : S64x64.BroadcastsInDim S1x64x64 (![1, 2] : Fin 2 → Fin S1x64x64.rank)
  bcast_S1x64x64_S2048x64x64_0_1_2 : S1x64x64.BroadcastsInDim S2048x64x64 (![0, 1, 2] : Fin 3 → Fin S2048x64x64.rank)
  bcast_S_S2048x64x64 : S_.BroadcastsInDim S2048x64x64 (![] : Fin 0 → Fin S2048x64x64.rank)
  slices_S8x2048x64x64_S1x2048x64x64_1_0_0_0 : S8x2048x64x64.Slices ![1, 0, 0, 0] S1x2048x64x64
  slices_S8x2048x64x64_S1x2048x64x64_2_0_0_0 : S8x2048x64x64.Slices ![2, 0, 0, 0] S1x2048x64x64
  slices_S8x2048x64x64_S1x2048x64x64_3_0_0_0 : S8x2048x64x64.Slices ![3, 0, 0, 0] S1x2048x64x64
  slices_S8x2048x64x64_S1x2048x64x64_4_0_0_0 : S8x2048x64x64.Slices ![4, 0, 0, 0] S1x2048x64x64
  slices_S8x2048x64x64_S1x2048x64x64_5_0_0_0 : S8x2048x64x64.Slices ![5, 0, 0, 0] S1x2048x64x64
  slices_S8x2048x64x64_S1x2048x64x64_6_0_0_0 : S8x2048x64x64.Slices ![6, 0, 0, 0] S1x2048x64x64
  slices_S8x2048x64x64_S1x2048x64x64_7_0_0_0 : S8x2048x64x64.Slices ![7, 0, 0, 0] S1x2048x64x64
  dot_S2048x64x64_S2048x64x64_S2048x64x64_2_1_1_2_0_0_wf : DotDims.WF S2048x64x64 S2048x64x64 S2048x64x64 [2] [1] [1] [2] [0] [0]

variable [Facts₀]

def dot_S2048x64x64_S2048x64x64_S2048x64x64_2_1_1_2_0_0 : DotDims S2048x64x64 S2048x64x64 S2048x64x64 where
  lhsContracting := [2]
  rhsContracting := [1]
  lhsNonContracting := [1]
  rhsNonContracting := [2]
  lhsBatch := [0]
  rhsBatch := [0]
  wf := dot_S2048x64x64_S2048x64x64_S2048x64x64_2_1_1_2_0_0_wf

class Facts : Prop extends Facts₀ where

variable [Facts]
-- ==== Proof.KernelLayers.lean ====
/-
  The kernel body's arithmetic as functions of whole blocks, for any float instance.

  At one grid point the body holds a block of 64 batch elements: the state x [64, 64, 64], the eight weight slabs
  [64, 1, 64, 64] of the block's weights [64, 8, 64, 64], and γ, β [64, 64] repeated over the block. One layer is the batched
  product of the slab (rounded to half width) with the state (rounded likewise), then, matrix by matrix: the total by two
  lane sums, the mean as the total times 2⁻¹², the centred matrix, the mean of its squares the same way, plus ε, the reciprocal
  square root, and c · rstd · γ + β. Even layers are clamped below at zero; the first layer's value replaces x, the later ones
  are added to it. The one store of the body writes the eighth state.

  Each definition is one stretch of the body's operations in the body's own order and spelling, so that the stored value IS
  `blockNet` of the loaded blocks by unfolding alone.
-/
import proofs.«102972_j63007170233017_2_alg».proof.Proof.Gen.KernelIdeal.Frame

noncomputable section

namespace Cert.KernelIdeal.KValue

open Cert.KernelIdeal Cert.KernelIdeal.Gen Idealize.ShloMosaic

variable {F : FTy → Type} [FloatOps F] [Facts]
open Facts₀ Facts

/-- Matrix by matrix, the total of all entries, as a [64, 1, 1] column: two lane sums with their keep-dimension views. -/
def blockTotal (T : FVec F S64x64x64 .f32) : FVec F S64x1x1 .f32 :=
  shapeCast S64x1x1
    (multiReduction .add [1] S64x1
      (shapeCast S64x64x1 (multiReduction .add [2] S64x64 T 0x00000000#32 Facts₀.reduces_S64x64x64_S64x64 (.inl rfl) rfl) Facts₀.shapeCasts_S64x64_S64x64x1)
      0x00000000#32 Facts₀.reduces_S64x64x1_S64x1 (.inl rfl) rfl)
    Facts₀.shapeCasts_S64x1_S64x1x1

/-- The mean: the total times 2⁻¹². -/
def blockMean (T : FVec F S64x64x64 .f32) : FVec F S64x1x1 .f32 :=
  mulf (blockTotal T) (broadcast S64x1x1 (Scalar.ofBits .f32 0x39800000#32))

/-- The matrices minus their means. -/
def blockCentre (T : FVec F S64x64x64 .f32) : FVec F S64x64x64 .f32 :=
  subf T (broadcastTo S64x64x64 (blockMean T) Facts₀.broadcasts_S64x1x1_S64x64x64)

/-- The reciprocal standard deviations of centred matrices. -/
def blockRstd (C : FVec F S64x64x64 .f32) : FVec F S64x1x1 .f32 :=
  rsqrt (addf (blockMean (mulf C C)) (broadcast S64x1x1 (Scalar.ofBits .f32 0x3727C5AC#32)))

/-- Centred matrices scaled to unit variance. -/
def blockScaled (C : FVec F S64x64x64 .f32) : FVec F S64x64x64 .f32 :=
  mulf C (broadcastTo S64x64x64 (blockRstd C) Facts₀.broadcasts_S64x1x1_S64x64x64)

/-- The batched product of a weight slab with the state, both rounded to half width, into a zero accumulator. -/
def blockProduct (W : Vec F S64x1x64x64 .f32) (X : FVec F S64x64x64 .f32) : FVec F S64x64x64 .f32 :=
  matmul dot_S64x64x64_S64x64x64_S64x64x64_2_1_1_2_0_0 none
    (truncf .bf16 (shapeCast S64x64x64 W Facts₀.shapeCasts_S64x1x64x64_S64x64x64) Facts₀.bitsLt_bf16_f32)
    (truncf .bf16 X Facts₀.bitsLt_bf16_f32) (constant S64x64x64 .f32 0x00000000#32)

/-- One layer before the clamp. -/
def blockNorm (G Bt : FVec F S64x64x64 .f32) (W : Vec F S64x1x64x64 .f32) (X : FVec F S64x64x64 .f32) : FVec F S64x64x64 .f32 :=
  addf (mulf (blockScaled (blockCentre (blockProduct W X))) G) Bt

/-- The clamp below at zero. -/
def blockRelu (Y : FVec F S64x64x64 .f32) : FVec F S64x64x64 .f32 :=
  maximumf Y (broadcast S64x64x64 (Scalar.ofBits .f32 0x00000000#32))

/-- The eight layers on a block. -/
def blockNet (G Bt : FVec F S64x64x64 .f32) (w0 w1 w2 w3 w4 w5 w6 w7 : Vec F S64x1x64x64 .f32) (x : FVec F S64x64x64 .f32) :
    FVec F S64x64x64 .f32 :=
  let x1 := blockRelu (blockNorm G Bt w0 x)
  let x2 := addf x1 (blockNorm G Bt w1 x1)
  let x3 := addf x2 (blockRelu (blockNorm G Bt w2 x2))
  let x4 := addf x3 (blockNorm G Bt w3 x3)
  let x5 := addf x4 (blockRelu (blockNorm G Bt w4 x4))
  let x6 := addf x5 (blockNorm G Bt w5 x5)
  let x7 := addf x6 (blockRelu (blockNorm G Bt w6 x6))
  addf x7 (blockNorm G Bt w7 x7)

set_option maxHeartbeats 2000000 in
/-- What the body leaves in the output block: the eight layers of the loaded blocks, γ and β repeated over the block. -/
theorem out_eq (x0 : Vec F S64x8x64x64 .f32) (x1 : Vec F S64x64x64 .f32) (x2 x3 : Vec F S64x64 .f32) :
    out0_4 x0 x1 x2 x3
      = View.canon [⟨r0_0, blockNet (k0_pay2 (View.ld x2 r0_1)) (k0_pay3 (View.ld x3 r0_1))
          (View.ld x0 r0_2) (View.ld x0 r0_3) (View.ld x0 r0_4) (View.ld x0 r0_5) (View.ld x0 r0_6) (View.ld x0 r0_7)
          (View.ld x0 r0_8) (View.ld x0 r0_9) (View.ld x1 r0_0)⟩] := rfl

end Cert.KernelIdeal.KValue

end
-- ==== Proof.Spec.lean ====
/-
  One layer of the network, for ONE batch element, over the extended reals.

  The state is a 64 × 64 matrix x. A layer with weight matrix W forms T = W · x (entry (p, q) the sum over k of
  W(p, k) · x(k, q)), then normalises T over all of its 4096 entries: with
      mean = (Σ T) · 2⁻¹²,   c = T − mean,   var = (Σ c²) · 2⁻¹²,
  the layer's value is c · rsqrt(var + ε) · γ + β, entry by entry, where ε is the single-precision number nearest 10⁻⁵ and
  γ, β are 64 × 64 parameters. Even layers are clamped below at zero. The first layer's value replaces x, every later
  layer's value is added to x.

  The two programs differ in one spelling only: one multiplies the sums by the constant 2⁻¹² (an exact power of two),
  the other divides them by 4096 − 0 after checking 4096 − 0 > 0. On every extended real, the infinities included,
  dividing by the real 4096 is multiplying by 1/4096 (`div_4096`), and the check passes (`var_guard`).
-/
import Idealize.ShloMosaic.PureOps.Ideal
import Idealize.ShloMosaic.Lib.ValueIdx
import Idealize.ShloMosaic.PureOps.Ideal.Laws

noncomputable section

open scoped BigOperators

namespace Cert.Spec

open Idealize.ShloMosaic Idealize.ShloMosaic.ValueIdx

/-- A 64 × 64 matrix of extended reals. -/
abbrev Mat : Type := Fin 64 → Fin 64 → EReal

/-- The constant 2⁻¹² as the kernel spells it. -/
def cInv : EReal := Ideal.ofBits .f32 0x39800000#32
/-- The constant 4096 as the reference spells it. -/
def c4096 : EReal := Ideal.ofBits .f32 0x45800000#32
/-- ε, the same pattern in both programs: never evaluated. -/
def eps : EReal := Ideal.ofBits .f32 0x3727C5AC#32
/-- The zero the clamp compares with. -/
def zero : EReal := Ideal.ofBits .f32 0x00000000#32

theorem cInv_eq : cInv = ((1 / 4096 : ℝ) : EReal) := by
  unfold cInv; simp [Ideal.ofBits, Ideal.ieee, -EReal.coe_mul]; norm_num

theorem c4096_eq : c4096 = ((4096 : ℝ) : EReal) := by
  unfold c4096; simp [Ideal.ofBits, Ideal.ieee, -EReal.coe_mul]; norm_num

theorem zero_eq : zero = 0 := by
  unfold zero; simp [Ideal.ofBits, Ideal.ieee]

/-- Dividing by 4096 is multiplying by 2⁻¹², at every extended real. -/
theorem div_4096 (x : EReal) : Ideal.div x c4096 = x * cInv := by
  rw [c4096_eq, cInv_eq, Ideal.div_coe (by norm_num : (4096 : ℝ) ≠ 0)]

/-- The sum of all entries, rows first. -/
def total (T : Mat) : EReal := ∑ p : Fin 64, ∑ q : Fin 64, T p q

/-- The matrix product. -/
def mm (W X : Mat) : Mat := fun p q => ∑ k : Fin 64, W p k * X k q

/-- A matrix minus the mean of its entries. -/
def centre (T : Mat) : Mat := fun p q => T p q - total T * cInv

/-- The reciprocal standard deviation of a centred matrix. -/
def rstd (C : Mat) : EReal := Ideal.rsqrt (total (fun p q => C p q * C p q) * cInv + eps)

/-- One layer before the clamp. -/
def norm (g b W X : Mat) : Mat := fun p q => centre (mm W X) p q * rstd (centre (mm W X)) * g p q + b p q

/-- The clamp below at zero. -/
def relu (Y : Mat) : Mat := fun p q => max (Y p q) zero

/-- Entrywise sum. -/
def plus (A B : Mat) : Mat := fun p q => A p q + B p q

/-- The eight layers. -/
def net (W : Fin 8 → Mat) (x g b : Mat) : Mat :=
  let x1 := relu (norm g b (W 0) x)
  let x2 := plus x1 (norm g b (W 1) x1)
  let x3 := plus x2 (relu (norm g b (W 2) x2))
  let x4 := plus x3 (norm g b (W 3) x3)
  let x5 := plus x4 (relu (norm g b (W 4) x4))
  let x6 := plus x5 (norm g b (W 5) x5)
  let x7 := plus x6 (relu (norm g b (W 6) x6))
  plus x7 (norm g b (W 7) x7)

/-- The reference's divisor 4096 − ddof at ddof = 0 (an integer zero converted) is 4096. -/
theorem divisor_eq : c4096 - (((0#32 : BitVec 32).toInt : ℝ) : EReal) = c4096 := by
  simp

/-- … and it is positive, so the reference keeps its quotient. -/
theorem var_guard : Ideal.cmp .ogt c4096 zero = 1#1 := by
  rw [c4096_eq, zero_eq]
  simp [Ideal.cmp]

/-! ## The whole arrays -/

/-- Layer l's weight matrix of batch element B: row B of the weights, positions 4096·l + 64·p + k. -/
def weightMat (w : (⟨2, ![2048, 32768]⟩ : Shape).Idx → EReal) (B : Fin 2048) (l : Fin 8) : Mat :=
  fun p k => w (ix2 B ⟨l.val * 4096 + p.val * 64 + k.val, by have := l.isLt; have := p.isLt; have := k.isLt; omega⟩)

/-- Batch element B's state matrix. -/
def stateMat (x : (⟨3, ![2048, 64, 64]⟩ : Shape).Idx → EReal) (B : Fin 2048) : Mat := fun p q => x (ix3 B p q)

/-- A [64, 64] parameter as a matrix. -/
def paramMat (g : (⟨2, ![64, 64]⟩ : Shape).Idx → EReal) : Mat := fun p q => g (ix2 p q)

/-- The result at batch element B, row p, column q. -/
def resultAt (w : (⟨2, ![2048, 32768]⟩ : Shape).Idx → EReal) (x : (⟨3, ![2048, 64, 64]⟩ : Shape).Idx → EReal)
    (g bt : (⟨2, ![64, 64]⟩ : Shape).Idx → EReal) (B : Fin 2048) (p q : Fin 64) : EReal :=
  net (weightMat w B) (stateMat x B) (paramMat g) (paramMat bt) p q

/-- The result array. -/
def result (w : (⟨2, ![2048, 32768]⟩ : Shape).Idx → EReal) (x : (⟨3, ![2048, 64, 64]⟩ : Shape).Idx → EReal)
    (g bt : (⟨2, ![64, 64]⟩ : Shape).Idx → EReal) : (⟨3, ![2048, 64, 64]⟩ : Shape).Idx → EReal :=
  fun i => resultAt w x g bt (i 0) (i 1) (i 2)

end Cert.Spec

end
-- ==== Proof.LibBatchedProduct.lean ====
/-
  A batched matrix product read at one entry, at the extended reals.

  For a stack of B products, [B, M, K] times [B, K, N] giving [B, M, N] — the first axis of both operands the batch, the last
  axis of the left operand contracted with the middle axis of the right — entry (b, p, q) is the finite sum over k of
  left(b, p, k) · right(b, k, q): the b-th left matrix times the b-th right matrix, nothing of the other batch elements.
  Stated for a kernel's product into a zero accumulator and for the host's product, at any precision and schedule key, and for
  any dimension record whose contraction has one axis of extent K and whose operand indices at (output index, contraction
  index) have the coordinates given as the six hypotheses (for a printed record each is one line: a batch or non-contracting
  coordinate by unfolding, a contracting one by `DotDims.lhsIdx_val_of_single` / `rhsIdx_val_of_single`).
-/
import Idealize.ShloMosaic.Lib.ValueIdx
import Idealize.ShloMosaic.PureOps.Ideal.Laws

noncomputable section

open scoped BigOperators

namespace Cert.LibBatchedProduct

open Idealize.ShloMosaic Idealize.ShloMosaic.ValueIdx

variable {B M N K : Nat} {φ₁ φ₂ : FTy}

/-- The two operand indices at output entry (b, p, q) and contraction position k are (b, p, k) and (b, k, q). -/
theorem operand_indices (D : DotDims ⟨3, ![B, M, K]⟩ ⟨3, ![B, K, N]⟩ ⟨3, ![B, M, N]⟩)
    (hr : D.contr.rank = 1) (hs : D.contr.size ⟨0, by omega⟩ = K)
    (hl0 : ∀ i q, (D.lhsIdx i q 0).val = (i 0).val) (hl1 : ∀ i q, (D.lhsIdx i q 1).val = (i 1).val)
    (hl2 : ∀ i q, (D.lhsIdx i q 2).val = (q ⟨0, by omega⟩).val)
    (hr0 : ∀ i q, (D.rhsIdx i q 0).val = (i 0).val) (hr1 : ∀ i q, (D.rhsIdx i q 1).val = (q ⟨0, by omega⟩).val)
    (hr2 : ∀ i q, (D.rhsIdx i q 2).val = (i 2).val)
    (b : Fin B) (p : Fin M) (q : Fin N) (k : Fin K) :
    D.lhsIdx (ix3 b p q) ((contrEquiv1 D K hr hs).symm k) = ix3 b p k
      ∧ D.rhsIdx (ix3 b p q) ((contrEquiv1 D K hr hs).symm k) = ix3 b k q := by
  have hk := contrEquiv1_symm_val D K hr hs k
  constructor
  · exact funext fun a => Fin.ext (by
      match a with
      | ⟨0, _⟩ => exact hl0 _ _
      | ⟨1, _⟩ => exact hl1 _ _
      | ⟨2, _⟩ => exact (hl2 _ _).trans hk)
  · exact funext fun a => Fin.ext (by
      match a with
      | ⟨0, _⟩ => exact hr0 _ _
      | ⟨1, _⟩ => exact (hr1 _ _).trans hk
      | ⟨2, _⟩ => exact hr2 _ _)

/-- A kernel's batched product into a zero accumulator, at entry (b, p, q). -/
theorem matmul_batched_apply (D : DotDims ⟨3, ![B, M, K]⟩ ⟨3, ![B, K, N]⟩ ⟨3, ![B, M, N]⟩)
    (hr : D.contr.rank = 1) (hs : D.contr.size ⟨0, by omega⟩ = K) (pr : Option ContractPrecision)
    (hl0 : ∀ i q, (D.lhsIdx i q 0).val = (i 0).val) (hl1 : ∀ i q, (D.lhsIdx i q 1).val = (i 1).val)
    (hl2 : ∀ i q, (D.lhsIdx i q 2).val = (q ⟨0, by omega⟩).val)
    (hr0 : ∀ i q, (D.rhsIdx i q 0).val = (i 0).val) (hr1 : ∀ i q, (D.rhsIdx i q 1).val = (q ⟨0, by omega⟩).val)
    (hr2 : ∀ i q, (D.rhsIdx i q 2).val = (i 2).val)
    (lhs : FVec Ideal ⟨3, ![B, M, K]⟩ φ₁) (rhs : FVec Ideal ⟨3, ![B, K, N]⟩ φ₂) (b : Fin B) (p : Fin M) (q : Fin N) :
    FloatOps.matmul D pr lhs rhs (constant ⟨3, ![B, M, N]⟩ .f32 0x00000000#32) (ix3 b p q)
      = ∑ k : Fin K, lhs (ix3 b p k) * rhs (ix3 b k q) := by
  rw [Ideal.matmul_constant_zero_apply, ← Equiv.sum_comp (contrEquiv1 D K hr hs).symm]
  refine Finset.sum_congr rfl fun k _ => ?_
  obtain ⟨el, er⟩ := operand_indices D hr hs hl0 hl1 hl2 hr0 hr1 hr2 b p q k
  rw [el, er]

/-- The host's batched product, at entry (b, p, q). -/
theorem dotGeneral_batched_apply (D : DotDims ⟨3, ![B, M, K]⟩ ⟨3, ![B, K, N]⟩ ⟨3, ![B, M, N]⟩)
    (hr : D.contr.rank = 1) (hs : D.contr.size ⟨0, by omega⟩ = K) (pr : Option ContractPrecision) (sched : HostSchedule)
    (hl0 : ∀ i q, (D.lhsIdx i q 0).val = (i 0).val) (hl1 : ∀ i q, (D.lhsIdx i q 1).val = (i 1).val)
    (hl2 : ∀ i q, (D.lhsIdx i q 2).val = (q ⟨0, by omega⟩).val)
    (hr0 : ∀ i q, (D.rhsIdx i q 0).val = (i 0).val) (hr1 : ∀ i q, (D.rhsIdx i q 1).val = (q ⟨0, by omega⟩).val)
    (hr2 : ∀ i q, (D.rhsIdx i q 2).val = (i 2).val)
    (lhs : FVec Ideal ⟨3, ![B, M, K]⟩ φ₁) (rhs : FVec Ideal ⟨3, ![B, K, N]⟩ φ₂) (b : Fin B) (p : Fin M) (q : Fin N) :
    FloatOps.dotGeneral D pr sched lhs rhs (ix3 b p q)
      = ∑ k : Fin K, lhs (ix3 b p k) * rhs (ix3 b k q) := by
  rw [Ideal.dotGeneral_apply, ← Equiv.sum_comp (contrEquiv1 D K hr hs).symm]
  refine Finset.sum_congr rfl fun k _ => ?_
  obtain ⟨el, er⟩ := operand_indices D hr hs hl0 hl1 hl2 hr0 hr1 hr2 b p q k
  rw [el, er]

end Cert.LibBatchedProduct

end
-- ==== Proof.LibTrailingSums.lean ====
/-
  Sums over the two trailing axes of a stack of matrices, and the keep-dimension layouts around them, read at coordinates.

  For an array x of shape [B, M, N] — B matrices of M rows and N columns — the total of matrix b is Σ_p Σ_q x(b, p, q).
  Two spellings of it are read here at the extended reals:
  * lane by lane: sum the last axis (giving [B, M]), view the result as [B, M, 1], sum the middle axis (giving [B, 1]),
    view that as [B, 1, 1]; its entry (b, 0, 0) is the total of matrix b;
  * at once on the host: reduce axes 1 and 2 from an initial value; entry b is the initial value plus the total of matrix b.
  Around them: a [B, 1, 1] column repeated to [B, M, N] reads its entry (b, 0, 0) at every (b, p, q), by either kind of
  broadcast; a [B] vector placed as a [B, 1, 1] column reads its entry b; a scalar repeated reads the scalar; an [M, N]
  parameter viewed as [1, M, N] and repeated over the batch reads its entry (p, q); and a [B, 1, M, K] slab viewed as
  [B, M, K] reads its entry (b, 0, p, k). All for any extents and element type.
-/
import Idealize.ShloMosaic.Lib.ValueIdx
import Idealize.ShloMosaic.Lib.Pipeline.Value
import Idealize.ShloMosaic.PureOps.Ideal.Laws

noncomputable section

open scoped BigOperators

namespace Cert.LibTrailingSums

open Idealize.ShloMosaic Idealize.ShloMosaic.ValueIdx

variable {B M N : Nat} {α : Type} {φ : FTy}

/-! ## Layouts -/

/-- A [B, 1, 1] column repeated to [B, M, N] (`vector.broadcast`) reads its entry (b, 0, 0). -/
theorem broadcastTo_column_apply (v : (⟨3, ![B, 1, 1]⟩ : Shape).Idx → α)
    (h : (⟨3, ![B, 1, 1]⟩ : Shape).Broadcasts ⟨3, ![B, M, N]⟩) (b : Fin B) (p : Fin M) (q : Fin N) :
    broadcastTo ⟨3, ![B, M, N]⟩ v h (ix3 b p q) = v (ix3 b 0 0) := by
  refine broadcastTo_apply v h (ix3 b p q) (ix3 b 0 0) fun a => ?_
  match a with
  | ⟨0, _⟩ =>
    show b.val = if B = 1 then 0 else b.val
    split
    · have := b.isLt; omega
    · rfl
  | ⟨1, _⟩ => rfl
  | ⟨2, _⟩ => rfl

/-- A [B, 1, 1] column repeated to [B, M, N] (`broadcast_in_dim` along all three axes) reads its entry (b, 0, 0). -/
theorem broadcastInDim_column_apply (v : (⟨3, ![B, 1, 1]⟩ : Shape).Idx → α)
    (h : (⟨3, ![B, 1, 1]⟩ : Shape).BroadcastsInDim ⟨3, ![B, M, N]⟩ (![0, 1, 2] : Fin 3 → Fin 3)) (b : Fin B) (p : Fin M) (q : Fin N) :
    broadcastInDim ⟨3, ![B, M, N]⟩ ![0, 1, 2] h v (ix3 b p q) = v (ix3 b 0 0) := by
  refine broadcastInDim_apply _ h v (ix3 b p q) (ix3 b 0 0) fun a => ?_
  match a with
  | ⟨0, _⟩ =>
    show b.val = if B = 1 then 0 else b.val
    split
    · have := b.isLt; omega
    · rfl
  | ⟨1, _⟩ => rfl
  | ⟨2, _⟩ => rfl

/-- A [B] vector placed as a [B, 1, 1] column reads its entry b. -/
theorem broadcastInDim_vector_column_apply (v : (⟨1, ![B]⟩ : Shape).Idx → α)
    (h : (⟨1, ![B]⟩ : Shape).BroadcastsInDim ⟨3, ![B, 1, 1]⟩ (![0] : Fin 1 → Fin 3)) (b : Fin B) (u w : Fin 1) :
    broadcastInDim ⟨3, ![B, 1, 1]⟩ ![0] h v (ix3 b u w) = v (ix1 b) := by
  refine broadcastInDim_apply _ h v (ix3 b u w) (ix1 b) fun a => ?_
  match a with
  | ⟨0, _⟩ =>
    show b.val = if B = 1 then 0 else b.val
    split
    · have := b.isLt; omega
    · rfl

/-- A scalar repeated to any shape reads the scalar. -/
theorem broadcastInDim_scalar_apply {t : Shape} (v : (⟨0, ![]⟩ : Shape).Idx → α)
    (h : (⟨0, ![]⟩ : Shape).BroadcastsInDim t (![] : Fin 0 → Fin t.rank)) (j : t.Idx) :
    broadcastInDim t ![] h v j = v ix0 :=
  broadcastInDim_apply _ h v j ix0 fun a => a.elim0

/-- An [M, N] parameter viewed as [1, M, N] and repeated over the batch (`broadcast_in_dim` twice) reads its entry (p, q). -/
theorem broadcastInDim_param_apply (g : (⟨2, ![M, N]⟩ : Shape).Idx → α)
    (h1 : (⟨2, ![M, N]⟩ : Shape).BroadcastsInDim ⟨3, ![1, M, N]⟩ (![1, 2] : Fin 2 → Fin 3))
    (h2 : (⟨3, ![1, M, N]⟩ : Shape).BroadcastsInDim ⟨3, ![B, M, N]⟩ (![0, 1, 2] : Fin 3 → Fin 3))
    (b : Fin B) (p : Fin M) (q : Fin N) :
    broadcastInDim ⟨3, ![B, M, N]⟩ ![0, 1, 2] h2 (broadcastInDim ⟨3, ![1, M, N]⟩ ![1, 2] h1 g) (ix3 b p q) = g (ix2 p q) := by
  refine (broadcastInDim_apply _ h2 _ (ix3 b p q) (ix3 0 p q) fun a => ?_).trans
    (broadcastInDim_apply _ h1 g (ix3 0 p q) (ix2 p q) fun a => ?_)
  · match a with
    | ⟨0, _⟩ => rfl
    | ⟨1, _⟩ =>
      show p.val = if M = 1 then 0 else p.val
      split
      · have := p.isLt; omega
      · rfl
    | ⟨2, _⟩ =>
      show q.val = if N = 1 then 0 else q.val
      split
      · have := q.isLt; omega
      · rfl
  · match a with
    | ⟨0, _⟩ =>
      show p.val = if M = 1 then 0 else p.val
      split
      · have := p.isLt; omega
      · rfl
    | ⟨1, _⟩ =>
      show q.val = if N = 1 then 0 else q.val
      split
      · have := q.isLt; omega
      · rfl

/-- An [M, N] parameter viewed as [1, M, N] (`vector.shape_cast`) and repeated over the batch (`vector.broadcast`) reads
    its entry (p, q). -/
theorem broadcastTo_param_apply (g : (⟨2, ![M, N]⟩ : Shape).Idx → α)
    (c : (⟨2, ![M, N]⟩ : Shape).ShapeCasts ⟨3, ![1, M, N]⟩)
    (h : (⟨3, ![1, M, N]⟩ : Shape).Broadcasts ⟨3, ![B, M, N]⟩)
    (b : Fin B) (p : Fin M) (q : Fin N) :
    broadcastTo ⟨3, ![B, M, N]⟩ (shapeCast ⟨3, ![1, M, N]⟩ g c) h (ix3 b p q) = g (ix2 p q) := by
  refine (broadcastTo_apply _ h (ix3 b p q) (ix3 0 p q) fun a => ?_).trans
    (shapeCast_apply g c (ix3 0 p q) (ix2 p q) ?_)
  · match a with
    | ⟨0, _⟩ => rfl
    | ⟨1, _⟩ =>
      show p.val = if M = 1 then 0 else p.val
      split
      · have := p.isLt; omega
      · rfl
    | ⟨2, _⟩ =>
      show q.val = if N = 1 then 0 else q.val
      split
      · have := q.isLt; omega
      · rfl
  · rw [Shape.rowMajor_val_two, Shape.rowMajor_val_three]
    show p.val * N + q.val = (0 * M + p.val) * N + q.val
    simp

/-- A [B, 1, M, K] slab viewed as [B, M, K] reads its entry (b, 0, p, k). -/
theorem shapeCast_slab_apply {K : Nat} (w : (⟨4, ![B, 1, M, K]⟩ : Shape).Idx → α)
    (c : (⟨4, ![B, 1, M, K]⟩ : Shape).ShapeCasts ⟨3, ![B, M, K]⟩) (b : Fin B) (p : Fin M) (k : Fin K) :
    shapeCast ⟨3, ![B, M, K]⟩ w c (ix3 b p k) = w (ix4 b 0 p k) := by
  refine shapeCast_apply w c (ix3 b p k) (ix4 b 0 p k) ?_
  rw [Shape.rowMajor_val_three, Shape.rowMajor_val_four]
  show ((b.val * 1 + 0) * M + p.val) * K + k.val = (b.val * M + p.val) * K + k.val
  simp

/-! ## Totals -/

/-- Lane by lane: the last axis summed, viewed [B, M, 1], the middle axis summed, viewed [B, 1, 1]: entry (b, 0, 0) is the
    total of matrix b. -/
theorem lane_total_apply (T : FVec Ideal ⟨3, ![B, M, N]⟩ φ) (acc : BitVec φ.bits)
    (h2 : (⟨3, ![B, M, N]⟩ : Shape).Reduces [2] ⟨2, ![B, M]⟩)
    (c1 : (⟨2, ![B, M]⟩ : Shape).ShapeCasts ⟨3, ![B, M, 1]⟩)
    (h1 : (⟨3, ![B, M, 1]⟩ : Shape).Reduces [1] ⟨2, ![B, 1]⟩)
    (c2 : (⟨2, ![B, 1]⟩ : Shape).ShapeCasts ⟨3, ![B, 1, 1]⟩)
    (hφ : FKind.Formats φ) (hacc : acc = FKind.add.neutral φ hφ) (b : Fin B) :
    shapeCast ⟨3, ![B, 1, 1]⟩
        (multiReduction .add [1] ⟨2, ![B, 1]⟩
          (shapeCast ⟨3, ![B, M, 1]⟩ (multiReduction .add [2] ⟨2, ![B, M]⟩ T acc h2 hφ hacc) c1) acc h1 hφ hacc) c2 (ix3 b 0 0)
      = ∑ p : Fin M, ∑ q : Fin N, T (ix3 b p q) := by
  refine (shapeCast_apply _ c2 (ix3 b 0 0) (ix2 b 0) ?_).trans ?_
  · rw [Shape.rowMajor_val_two, Shape.rowMajor_val_three]
    show b.val * 1 + 0 = (b.val * 1 + 0) * 1 + 0
    simp
  refine (Ideal.multiReduction_add_single _ acc h1 hφ hacc (ix2 b 0)).trans ?_
  refine Finset.sum_congr rfl fun p _ => ?_
  have e1 : h1.lift (ix2 b 0) p = ix3 b p 0 := funext fun a => Fin.ext (by
    match a with
    | ⟨0, _⟩ => rfl
    | ⟨1, _⟩ => rfl
    | ⟨2, _⟩ => rfl)
  rw [e1]
  refine (shapeCast_apply _ c1 (ix3 b p 0) (ix2 b p) ?_).trans ?_
  · rw [Shape.rowMajor_val_two, Shape.rowMajor_val_three]
    show b.val * M + p.val = (b.val * M + p.val) * 1 + 0
    simp
  refine (Ideal.multiReduction_add_single T acc h2 hφ hacc (ix2 b p)).trans ?_
  refine Finset.sum_congr rfl fun q _ => ?_
  have e2 : h2.lift (ix2 b p) q = ix3 b p q := funext fun a => Fin.ext (by
    match a with
    | ⟨0, _⟩ => rfl
    | ⟨1, _⟩ => rfl
    | ⟨2, _⟩ => rfl)
  exact congrArg T e2

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {A : Type*} [AddCommMonoid A] {n0 n1 n2 : Nat} (f : (⟨3, ![n0, n1, n2]⟩ : Shape).Idx → A) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Dropping the two trailing axes of (a, p, q) leaves a: it lands on b exactly when a = b. -/
theorem drop_trailing_iff (h' : (⟨3, ![B, M, N]⟩ : Shape).ReducesTo [1, 2] ⟨1, ![B]⟩) (a b : Fin B) (p : Fin M) (q : Fin N) :
    h'.drop (ix3 a p q) = ix1 b ↔ a = b := by
  have e : (h'.drop (ix3 a p q) 0).val = a.val := rfl
  constructor
  · intro h
    have := congrArg (fun j => (j 0).val) h
    exact Fin.ext (e.symm.trans this)
  · rintro rfl
    funext d
    match d with
    | ⟨0, _⟩ => exact Fin.ext e

/-- At once on the host: axes 1 and 2 reduced from an initial value; entry b is the initial value plus the total of matrix b
    (the elements that reduce to b are exactly those of matrix b). -/
theorem host_total_apply (x : (⟨3, ![B, M, N]⟩ : Shape).Idx → EReal) (init : EReal)
    (h' : (⟨3, ![B, M, N]⟩ : Shape).ReducesTo [1, 2] ⟨1, ![B]⟩) (b : Fin B) :
    Ideal.hostReduceAdd h' x init (ix1 b) = init + ∑ p : Fin M, ∑ q : Fin N, x (ix3 b p q) := by
  unfold Ideal.hostReduceAdd
  refine congrArg (init + ·) ?_
  rw [Finset.sum_filter, sum_idx3, Finset.sum_eq_single b]
  · refine Finset.sum_congr rfl fun p _ => Finset.sum_congr rfl fun q _ => ?_
    rw [if_pos ((drop_trailing_iff h' b b p q).2 rfl)]
  · intro a _ hab
    refine Finset.sum_eq_zero fun p _ => Finset.sum_eq_zero fun q _ => ?_
    rw [if_neg (fun h => hab ((drop_trailing_iff h' a b p q).1 h))]
  · intro h; exact absurd (Finset.mem_univ b) h

end Cert.LibTrailingSums

end
-- ==== Proof.KernelIndex.lean ====
/-
  The kernel's block functions read one batch element at a time, at the extended reals.

  A block holds 64 batch elements. Every operation of a layer acts on each of them separately: the batched product multiplies
  the b-th weight matrix with the b-th state matrix, the lane sums total the b-th matrix, the keep-dimension broadcasts hand
  matrix b its own mean and its own reciprocal deviation, and γ, β are the same for every b. So the b-th matrix of a block
  function's value is the specification's matrix function of the b-th matrices of its arguments, and the eight layers of a
  block are, matrix by matrix, the specification's eight layers.
-/
import proofs.«102972_j63007170233017_2_alg».proof.Proof.KernelLayers
import proofs.«102972_j63007170233017_2_alg».proof.Proof.Spec
import proofs.«102972_j63007170233017_2_alg».proof.Proof.LibBatchedProduct
import proofs.«102972_j63007170233017_2_alg».proof.Proof.LibTrailingSums

noncomputable section

open scoped BigOperators

namespace Cert.KernelIdeal.KValue

open Cert.KernelIdeal Cert.KernelIdeal.Gen Idealize.ShloMosaic Idealize.ShloMosaic.ValueIdx

variable [Facts]

/-- Matrix b of a block. -/
def slice (V : FVec Ideal S64x64x64 .f32) (b : Fin 64) : Cert.Spec.Mat := fun p q => V (ix3 b p q)

/-- Matrix b of weight slab W. -/
def slab (W : Vec Ideal S64x1x64x64 .f32) (b : Fin 64) : Cert.Spec.Mat := fun p k => W (ix4 b 0 p k)

theorem blockTotal_apply (T : FVec Ideal S64x64x64 .f32) (b : Fin 64) :
    blockTotal T (ix3 b 0 0) = Cert.Spec.total (slice T b) :=
  Cert.LibTrailingSums.lane_total_apply (B := 64) (M := 64) (N := 64) T 0x00000000#32 _ _ _ _ (.inl rfl) rfl b

theorem blockMean_apply (T : FVec Ideal S64x64x64 .f32) (b : Fin 64) :
    blockMean T (ix3 b 0 0) = Cert.Spec.total (slice T b) * Cert.Spec.cInv := by
  unfold blockMean
  rw [mulf_apply, blockTotal_apply]
  rfl

theorem blockCentre_slice (T : FVec Ideal S64x64x64 .f32) (b : Fin 64) :
    slice (blockCentre T) b = Cert.Spec.centre (slice T b) := by
  funext p q
  show blockCentre T (ix3 b p q) = _
  unfold blockCentre
  rw [subf_apply]
  refine congrArg (T (ix3 b p q) - ·) ?_
  exact (Cert.LibTrailingSums.broadcastTo_column_apply (B := 64) (M := 64) (N := 64) _ _ b p q).trans (blockMean_apply T b)

theorem mulf_self_slice (C : FVec Ideal S64x64x64 .f32) (b : Fin 64) :
    slice (mulf C C) b = fun p q => slice C b p q * slice C b p q := rfl

theorem blockRstd_apply (C : FVec Ideal S64x64x64 .f32) (b : Fin 64) :
    blockRstd C (ix3 b 0 0) = Cert.Spec.rstd (slice C b) := by
  unfold blockRstd Cert.Spec.rstd
  show Ideal.rsqrt (blockMean (mulf C C) (ix3 b 0 0) + _) = _
  rw [blockMean_apply, mulf_self_slice]
  rfl

theorem blockScaled_slice (C : FVec Ideal S64x64x64 .f32) (b : Fin 64) :
    slice (blockScaled C) b = fun p q => slice C b p q * Cert.Spec.rstd (slice C b) := by
  funext p q
  show blockScaled C (ix3 b p q) = _
  unfold blockScaled
  rw [mulf_apply]
  refine congrArg (C (ix3 b p q) * ·) ?_
  exact (Cert.LibTrailingSums.broadcastTo_column_apply (B := 64) (M := 64) (N := 64) _ _ b p q).trans (blockRstd_apply C b)

theorem blockProduct_slice (W : Vec Ideal S64x1x64x64 .f32) (X : FVec Ideal S64x64x64 .f32) (b : Fin 64) :
    slice (blockProduct W X) b = Cert.Spec.mm (slab W b) (slice X b) := by
  funext p q
  show blockProduct W X (ix3 b p q) = ∑ k : Fin 64, W (ix4 b 0 p k) * X (ix3 b k q)
  unfold blockProduct
  refine (Cert.LibBatchedProduct.matmul_batched_apply (B := 64) (M := 64) (N := 64) (K := 64)
    dot_S64x64x64_S64x64x64_S64x64x64_2_1_1_2_0_0 rfl rfl none
    (fun _ _ => rfl) (fun _ _ => rfl) (fun i k => DotDims.lhsIdx_val_of_single _ rfl i k)
    (fun _ _ => rfl) (fun i k => DotDims.rhsIdx_val_of_single _ rfl i k) (fun _ _ => rfl) _ _ b p q).trans ?_
  refine Finset.sum_congr rfl fun k _ => ?_
  rw [truncf_apply, truncf_apply]
  exact congrArg (· * X (ix3 b k q)) (Cert.LibTrailingSums.shapeCast_slab_apply (B := 64) (M := 64) (K := 64) W _ b p k)

theorem blockNorm_slice (G Bt : FVec Ideal S64x64x64 .f32) (W : Vec Ideal S64x1x64x64 .f32) (X : FVec Ideal S64x64x64 .f32) (b : Fin 64) :
    slice (blockNorm G Bt W X) b = Cert.Spec.norm (slice G b) (slice Bt b) (slab W b) (slice X b) := by
  funext p q
  show blockNorm G Bt W X (ix3 b p q) = _
  unfold blockNorm Cert.Spec.norm
  rw [addf_apply, mulf_apply]
  have h := congrFun (congrFun (blockScaled_slice (blockCentre (blockProduct W X)) b) p) q
  rw [blockCentre_slice, blockProduct_slice] at h
  show slice (blockScaled (blockCentre (blockProduct W X))) b p q * _ + _ = _
  rw [h]
  rfl

theorem blockRelu_slice (Y : FVec Ideal S64x64x64 .f32) (b : Fin 64) :
    slice (blockRelu Y) b = Cert.Spec.relu (slice Y b) := rfl

theorem addf_slice (A C : FVec Ideal S64x64x64 .f32) (b : Fin 64) :
    slice (addf A C) b = Cert.Spec.plus (slice A b) (slice C b) := rfl

/-- The eight weight matrices of batch element b. -/
def slabs (w0 w1 w2 w3 w4 w5 w6 w7 : Vec Ideal S64x1x64x64 .f32) (b : Fin 64) : Fin 8 → Cert.Spec.Mat :=
  ![slab w0 b, slab w1 b, slab w2 b, slab w3 b, slab w4 b, slab w5 b, slab w6 b, slab w7 b]

/-- Matrix b of the eight layers of a block is the specification's eight layers of the b-th matrices. -/
theorem blockNet_slice (G Bt : FVec Ideal S64x64x64 .f32) (w0 w1 w2 w3 w4 w5 w6 w7 : Vec Ideal S64x1x64x64 .f32)
    (x : FVec Ideal S64x64x64 .f32) (b : Fin 64) :
    slice (blockNet G Bt w0 w1 w2 w3 w4 w5 w6 w7 x) b
      = Cert.Spec.net (slabs w0 w1 w2 w3 w4 w5 w6 w7 b) (slice x b) (slice G b) (slice Bt b) := by
  unfold blockNet Cert.Spec.net
  simp only [addf_slice, blockRelu_slice, blockNorm_slice]
  rfl

end Cert.KernelIdeal.KValue

end
-- ==== Proof.KernelPoint.lean ====
/-
  What one grid point's eight layers read at (b, p, q), given what the loaded blocks hold.

  The body loads the state block whole, γ and β whole, and the weight block [64, 8, 64, 64] as eight slabs [64, 1, 64, 64], slab
  l being layer l's 64 weight matrices. If batch element b of the block is batch element B of the arrays — the weight block's
  (b, l, p, k) is position 4096·l + 64·p + k of row B of the weights, the state block's (b, p, q) is the state's (B, p, q), and the
  parameter blocks are the parameters — then the stored block's (b, p, q) is the result at (B, p, q).
-/
import proofs.«102972_j63007170233017_2_alg».proof.Proof.KernelIndex

noncomputable section

namespace Cert.KernelIdeal.KValue

open Cert.KernelIdeal Cert.KernelIdeal.Gen Idealize.ShloMosaic Idealize.ShloMosaic.ValueIdx

variable [Facts]

theorem zero3 : (![0, 0, 0] : Fin 3 → Nat) = fun _ => 0 := funext fun a => by fin_cases a <;> rfl
theorem zero2 : (![0, 0] : Fin 2 → Nat) = fun _ => 0 := funext fun a => by fin_cases a <;> rfl

/-- The whole-block load of the state is the state block. -/
theorem ld_state (X1 : Vec Ideal S64x64x64 .f32) : View.ld X1 r0_0 = X1 := View.ld_unit_zero (S := S64x64x64) zero3 _ X1

/-- The whole-block load of a parameter is the parameter block. -/
theorem ld_param (X2 : Vec Ideal S64x64 .f32) : View.ld X2 r0_1 = X2 := View.ld_unit_zero (S := S64x64) zero2 _ X2

/-- Slab l of the weight block at (b, 0, p, k) is the weight block at (b, l, p, k). -/
theorem ld_slab (X0 : Vec Ideal S64x8x64x64 .f32) (l : Nat) (hl : l < 8)
    (inb : ∀ a, (![0, l, 0, 0] : Fin 4 → Nat) a + S64x1x64x64.size a ≤ S64x8x64x64.size a) (b p k : Fin 64) :
    View.ld X0 (Rect.unit (s := S64x8x64x64) ![0, l, 0, 0] S64x1x64x64.size inb) (ix4 b 0 p k) = X0 (ix4 b ⟨l, hl⟩ p k) := by
  show X0 _ = X0 _
  refine congrArg X0 (funext fun a => Fin.ext ?_)
  match a with
  | ⟨0, _⟩ => show 0 + 1 * b.val = b.val; omega
  | ⟨1, _⟩ => show l + 1 * 0 = l; omega
  | ⟨2, _⟩ => show 0 + 1 * p.val = p.val; omega
  | ⟨3, _⟩ => show 0 + 1 * k.val = k.val; omega

/-- A parameter block viewed [1, 64, 64] and repeated over the block reads the parameter at (p, q), for every b. -/
theorem gamma_slice (X2 : Vec Ideal S64x64 .f32) (b : Fin 64) :
    slice (k0_pay2 (View.ld X2 r0_1)) b = fun p q => X2 (ix2 p q) := by
  funext p q
  rw [ld_param]
  exact Cert.LibTrailingSums.broadcastTo_param_apply (B := 64) (M := 64) (N := 64) X2
    Facts₀.shapeCasts_S64x64_S1x64x64 Facts₀.broadcasts_S1x64x64_S64x64x64 b p q

theorem beta_slice (X3 : Vec Ideal S64x64 .f32) (b : Fin 64) :
    slice (k0_pay3 (View.ld X3 r0_1)) b = fun p q => X3 (ix2 p q) := by
  funext p q
  rw [ld_param]
  exact Cert.LibTrailingSums.broadcastTo_param_apply (B := 64) (M := 64) (N := 64) X3
    Facts₀.shapeCasts_S64x64_S1x64x64 Facts₀.broadcasts_S1x64x64_S64x64x64 b p q

/-- The stored block at (b, p, q) is the result at (B, p, q) when batch element b of the loaded blocks is batch element B of the
    arrays. -/
theorem point_value (X0 : Vec Ideal S64x8x64x64 .f32) (X1 : Vec Ideal S64x64x64 .f32) (X2 X3 : Vec Ideal S64x64 .f32)
    (w : (⟨2, ![2048, 32768]⟩ : Shape).Idx → EReal) (x : (⟨3, ![2048, 64, 64]⟩ : Shape).Idx → EReal)
    (g bt : (⟨2, ![64, 64]⟩ : Shape).Idx → EReal) (B : Fin 2048) (b : Fin 64)
    (h0 : ∀ (l : Fin 8) (p k : Fin 64), X0 (ix4 b l p k) = Cert.Spec.weightMat w B l p k)
    (h1 : ∀ p q : Fin 64, X1 (ix3 b p q) = x (ix3 B p q))
    (h2 : ∀ p q : Fin 64, X2 (ix2 p q) = g (ix2 p q))
    (h3 : ∀ p q : Fin 64, X3 (ix2 p q) = bt (ix2 p q)) (p q : Fin 64) :
    blockNet (k0_pay2 (View.ld X2 r0_1)) (k0_pay3 (View.ld X3 r0_1))
        (View.ld X0 r0_2) (View.ld X0 r0_3) (View.ld X0 r0_4) (View.ld X0 r0_5) (View.ld X0 r0_6) (View.ld X0 r0_7)
        (View.ld X0 r0_8) (View.ld X0 r0_9) (View.ld X1 r0_0) (ix3 b p q)
      = Cert.Spec.resultAt w x g bt B p q := by
  refine (congrFun (congrFun (blockNet_slice (k0_pay2 (View.ld X2 r0_1)) (k0_pay3 (View.ld X3 r0_1))
    (View.ld X0 r0_2) (View.ld X0 r0_3) (View.ld X0 r0_4) (View.ld X0 r0_5) (View.ld X0 r0_6) (View.ld X0 r0_7)
    (View.ld X0 r0_8) (View.ld X0 r0_9) (View.ld X1 r0_0) b) p) q).trans ?_
  have e0 : slabs (View.ld X0 r0_2) (View.ld X0 r0_3) (View.ld X0 r0_4) (View.ld X0 r0_5) (View.ld X0 r0_6) (View.ld X0 r0_7)
      (View.ld X0 r0_8) (View.ld X0 r0_9) b = Cert.Spec.weightMat w B := by
    funext l
    match l with
    | ⟨0, _⟩ => exact funext fun p => funext fun k => (ld_slab X0 0 (by omega) _ b p k).trans (h0 0 p k)
    | ⟨1, _⟩ => exact funext fun p => funext fun k => (ld_slab X0 1 (by omega) _ b p k).trans (h0 1 p k)
    | ⟨2, _⟩ => exact funext fun p => funext fun k => (ld_slab X0 2 (by omega) _ b p k).trans (h0 2 p k)
    | ⟨3, _⟩ => exact funext fun p => funext fun k => (ld_slab X0 3 (by omega) _ b p k).trans (h0 3 p k)
    | ⟨4, _⟩ => exact funext fun p => funext fun k => (ld_slab X0 4 (by omega) _ b p k).trans (h0 4 p k)
    | ⟨5, _⟩ => exact funext fun p => funext fun k => (ld_slab X0 5 (by omega) _ b p k).trans (h0 5 p k)
    | ⟨6, _⟩ => exact funext fun p => funext fun k => (ld_slab X0 6 (by omega) _ b p k).trans (h0 6 p k)
    | ⟨7, _⟩ => exact funext fun p => funext fun k => (ld_slab X0 7 (by omega) _ b p k).trans (h0 7 p k)
  have e1 : slice (View.ld X1 r0_0) b = Cert.Spec.stateMat x B := by
    rw [ld_state]; exact funext fun p => funext fun q => h1 p q
  have e2 : slice (k0_pay2 (View.ld X2 r0_1)) b = Cert.Spec.paramMat g :=
    (gamma_slice X2 b).trans (funext fun p => funext fun q => h2 p q)
  have e3 : slice (k0_pay3 (View.ld X3 r0_1)) b = Cert.Spec.paramMat bt :=
    (beta_slice X3 b).trans (funext fun p => funext fun q => h3 p q)
  rw [e0, e1, e2, e3]
  rfl

end Cert.KernelIdeal.KValue

end
-- ==== Proof.KernelValue.lean ====
/-
  From the blocks to the whole result array.

  The grid has 32 points; point t holds batch elements 64·t … 64·t + 63: its weight block is rows 64·t … of the weights viewed
  [2048, 8, 64, 64] (a row of 32768 numbers is eight 64 × 64 matrices end to end, so (B, l, p, k) is position 4096·l + 64·p + k
  of row B), its state block and its output block are matrices 64·t … of the state and of the result, and γ, β are whole. By the
  per-point lemma the block written back at t is block t of the result array `Cert.Spec.result` of the four arguments; the 32
  blocks cover all 2048 batch elements (element B lies in block B / 64), so after the run the output array is that function.
-/
import proofs.«102972_j63007170233017_2_alg».proof.Proof.Gen.KernelIdeal.Value
import proofs.«102972_j63007170233017_2_alg».proof.Proof.KernelPoint
import Idealize.ShloMosaic.Lib.StableHlo.Run

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The printed index maps over the grid: the weight, state and output windows move along the batch axis with the point, and sit at
    0 on every other axis; the parameter windows do not move. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

theorem point_lt (t : Fin cfg0.N) : t.val < 32 := lt_of_lt_of_eq t.isLt Gen.N_0

/-- The weights as the region finds them: the argument viewed [2048, 8, 64, 64]. -/
theorem V_weights (c : Dev nD) :
    (V m c main_v0 : S2048x8x64x64.Idx → EReal)
      = shapeCast S2048x8x64x64 (m ((c : Thread nD τ).loc main_arg0)) Facts₀.shapeCasts_S2048x32768_S2048x8x64x64 := by
  dsimp only [Gen.V, Gen.hostOps0]
  after_results
  rfl

/-- … so at (B, l, p, k) they are position 4096·l + 64·p + k of row B. -/
theorem V_weights_apply (c : Dev nD) (B : Fin 2048) (l : Fin 8) (p k : Fin 64) :
    (V m c main_v0 : S2048x8x64x64.Idx → EReal) (ix4 B l p k)
      = Cert.Spec.weightMat (m ((c : Thread nD τ).loc main_arg0)) B l p k := by
  rw [V_weights]
  refine shapeCast_apply _ _ (ix4 B l p k) (ix2 B ⟨l.val * 4096 + p.val * 64 + k.val, by have := l.isLt; have := p.isLt; have := k.isLt; omega⟩) ?_
  rw [Shape.rowMajor_val_two, Shape.rowMajor_val_four]
  show B.val * 32768 + (l.val * 4096 + p.val * 64 + k.val) = ((B.val * 8 + l.val) * 64 + p.val) * 64 + k.val
  omega

/-- The weight block at point t, at (b, l, p, k), is the weights as the region finds them at (64·t + b, l, p, k). -/
theorem iblk0_apply (c : Dev nD) (t : Fin cfg0.N) (b : Fin 64) (l : Fin 8) (p k : Fin 64) :
    iblk m c 0 t (ix4 b l p k)
      = (V m c main_v0 : S2048x8x64x64.Idx → EReal) (ix4 ⟨t.val * 64 + b.val, by have := point_lt t; have := b.isLt; omega⟩ l p k) := by
  show (V m c main_v0 : S2048x8x64x64.Idx → EReal) (((cfg0.win 0).blk t).view.emb (ix4 b l p k)) = _
  refine congrArg (V m c main_v0 : S2048x8x64x64.Idx → EReal) (funext fun a => Fin.ext ?_)
  obtain ⟨e0, e1, e2, e3, -⟩ := idx_facts t
  match a with
  | ⟨0, _⟩ => show win0_0.index t (0 : Fin 4) * 64 + 1 * b.val = t.val * 64 + b.val; omega
  | ⟨1, _⟩ => show win0_0.index t (1 : Fin 4) * 8 + 1 * l.val = l.val; omega
  | ⟨2, _⟩ => show win0_0.index t (2 : Fin 4) * 64 + 1 * p.val = p.val; omega
  | ⟨3, _⟩ => show win0_0.index t (3 : Fin 4) * 64 + 1 * k.val = k.val; omega

/-- The state block at point t, at (b, p, q), is the state argument at (64·t + b, p, q). -/
theorem iblk1_apply (c : Dev nD) (t : Fin cfg0.N) (b p q : Fin 64) :
    iblk m c 1 t (ix3 b p q)
      = (m ((c : Thread nD τ).loc main_arg1) : S2048x64x64.Idx → EReal) (ix3 ⟨t.val * 64 + b.val, by have := point_lt t; have := b.isLt; omega⟩ p q) := by
  show (V m c main_arg1 : S2048x64x64.Idx → EReal) (((cfg0.win 1).blk t).view.emb (ix3 b p q)) = _
  rw [V_main_arg1]
  refine congrArg (m ((c : Thread nD τ).loc main_arg1) : S2048x64x64.Idx → EReal) (funext fun a => Fin.ext ?_)
  obtain ⟨-, -, -, -, e0, e1, e2, -⟩ := idx_facts t
  match a with
  | ⟨0, _⟩ => show win0_1.index t (0 : Fin 3) * 64 + 1 * b.val = t.val * 64 + b.val; omega
  | ⟨1, _⟩ => show win0_1.index t (1 : Fin 3) * 64 + 1 * p.val = p.val; omega
  | ⟨2, _⟩ => show win0_1.index t (2 : Fin 3) * 64 + 1 * q.val = q.val; omega

/-- The γ block at any point is the γ argument. -/
theorem iblk2_apply (c : Dev nD) (t : Fin cfg0.N) (p q : Fin 64) :
    iblk m c 2 t (ix2 p q) = (m ((c : Thread nD τ).loc main_arg2) : S64x64.Idx → EReal) (ix2 p q) := by
  show (V m c main_arg2 : S64x64.Idx → EReal) (((cfg0.win 2).blk t).view.emb (ix2 p q)) = _
  rw [V_main_arg2]
  refine congrArg (m ((c : Thread nD τ).loc main_arg2) : S64x64.Idx → EReal) (funext fun a => Fin.ext ?_)
  obtain ⟨-, -, -, -, -, -, -, e0, e1, -⟩ := idx_facts t
  match a with
  | ⟨0, _⟩ => show win0_2.index t (0 : Fin 2) * 64 + 1 * p.val = p.val; omega
  | ⟨1, _⟩ => show win0_2.index t (1 : Fin 2) * 64 + 1 * q.val = q.val; omega

/-- The β block at any point is the β argument. -/
theorem iblk3_apply (c : Dev nD) (t : Fin cfg0.N) (p q : Fin 64) :
    iblk m c 3 t (ix2 p q) = (m ((c : Thread nD τ).loc main_arg3) : S64x64.Idx → EReal) (ix2 p q) := by
  show (V m c main_arg3 : S64x64.Idx → EReal) (((cfg0.win 3).blk t).view.emb (ix2 p q)) = _
  rw [V_main_arg3]
  refine congrArg (m ((c : Thread nD τ).loc main_arg3) : S64x64.Idx → EReal) (funext fun a => Fin.ext ?_)
  obtain ⟨-, -, -, -, -, -, -, -, -, e0, e1, -⟩ := idx_facts t
  match a with
  | ⟨0, _⟩ => show win0_3.index t (0 : Fin 2) * 64 + 1 * p.val = p.val; omega
  | ⟨1, _⟩ => show win0_3.index t (1 : Fin 2) * 64 + 1 * q.val = q.val; omega

/-- What point t writes back is block t of the result array of the four arguments. -/
theorem flushed_eq (c : Dev nD) (t : Fin cfg0.N) :
    (dats m 0 c).flushed 4 t
      = ((cfg0.win 4).blk t).view.read (Elt Ideal)
          (Cert.Spec.result (m ((c : Thread nD τ).loc main_arg0)) (m ((c : Thread nD τ).loc main_arg1))
            (m ((c : Thread nD τ).loc main_arg2)) (m ((c : Thread nD τ).loc main_arg3))) := by
  rw [Cert.KernelIdeal.Value.flushed4, out_eq, View.canon_unit_zero zero3]
  funext y
  obtain ⟨b, p, q, rfl⟩ : ∃ (b p q : Fin 64), y = ix3 b p q := ⟨y 0, y 1, y 2, eq_ix3 y⟩
  have ht := point_lt t
  have hb := b.isLt
  show blockNet (F := Ideal) _ _ _ _ _ _ _ _ _ _ _ (ix3 b p q)
    = Cert.Spec.result _ _ _ _ (((cfg0.win 4).blk t).view.emb (ix3 b p q))
  refine (point_value (iblk m c 0 t) (iblk m c 1 t) (iblk m c 2 t) (iblk m c 3 t)
    (m ((c : Thread nD τ).loc main_arg0)) (m ((c : Thread nD τ).loc main_arg1))
    (m ((c : Thread nD τ).loc main_arg2)) (m ((c : Thread nD τ).loc main_arg3))
    ⟨t.val * 64 + b.val, by omega⟩ b
    (fun l p k => (iblk0_apply m c t b l p k).trans (V_weights_apply m c _ l p k))
    (fun p q => iblk1_apply m c t b p q) (fun p q => iblk2_apply m c t p q) (fun p q => iblk3_apply m c t p q) p q).trans ?_
  obtain ⟨-, -, -, -, -, -, -, -, -, -, -, e0, e1, e2⟩ := idx_facts t
  have hi : ((cfg0.win 4).blk t).view.emb (ix3 b p q) = ix3 ⟨t.val * 64 + b.val, by omega⟩ p q := funext fun a => Fin.ext (by
    match a with
    | ⟨0, _⟩ => show win0_4.index t (0 : Fin 3) * 64 + 1 * b.val = t.val * 64 + b.val; omega
    | ⟨1, _⟩ => show win0_4.index t (1 : Fin 3) * 64 + 1 * p.val = p.val; omega
    | ⟨2, _⟩ => show win0_4.index t (2 : Fin 3) * 64 + 1 * q.val = q.val; omega)
  rw [hi]
  rfl

/-- An index of the result array is in point t's block iff each coordinate is in the block's range on its axis. -/
theorem mem_blk (t : Fin cfg0.N) (i : S2048x64x64.Idx) :
    i ∈ ((cfg0.win 4).blk t).view.set
      ↔ ∀ a : Fin 3, win0_4.index t a * S64x64x64.size a ≤ (i a).val ∧ (i a).val < win0_4.index t a * S64x64x64.size a + S64x64x64.size a := by
  show i ∈ ((View.whole main_v1).slice (win0_4.rect t)).set ↔ _
  rw [View.set_slice_whole, Rect.mem_set_unit]
  exact Iff.rfl

/-- Every index of the result array lies in some point's block: batch element B in block B / 64. -/
theorem cover (i : S2048x64x64.Idx) :
    ∃ t : Fin cfg0.N, (cfg0.win 4).flush t = true ∧ i ∈ ((cfg0.win 4).blk t).view.set := by
  have hi0 : (i 0).val < 2048 := (i 0).isLt
  have hi1 : (i 1).val < 64 := (i 1).isLt
  have hi2 : (i 2).val < 64 := (i 2).isLt
  refine ⟨⟨(i 0).val / 64, lt_of_lt_of_eq (by omega : (i 0).val / 64 < 32) Gen.N_0.symm⟩, flush0_4 _, ?_⟩
  rw [mem_blk]
  obtain ⟨-, -, -, -, -, -, -, -, -, -, -, e0, e1, e2⟩ := idx_facts ⟨(i 0).val / 64, lt_of_lt_of_eq (by omega : (i 0).val / 64 < 32) Gen.N_0.symm⟩
  have e0' : win0_4.index ⟨(i 0).val / 64, lt_of_lt_of_eq (by omega : (i 0).val / 64 < 32) Gen.N_0.symm⟩ (0 : Fin 3) = (i 0).val / 64 := e0
  intro a
  match a with
  | ⟨0, _⟩ =>
    show win0_4.index _ (0 : Fin 3) * 64 ≤ (i 0).val ∧ (i 0).val < win0_4.index _ (0 : Fin 3) * 64 + 64
    rw [e0']; omega
  | ⟨1, _⟩ =>
    show win0_4.index _ (1 : Fin 3) * 64 ≤ (i 1).val ∧ (i 1).val < win0_4.index _ (1 : Fin 3) * 64 + 64
    rw [e1]; omega
  | ⟨2, _⟩ =>
    show win0_4.index _ (2 : Fin 3) * 64 ≤ (i 2).val ∧ (i 2).val < win0_4.index _ (2 : Fin 3) * 64 + 64
    rw [e2]; omega

/-- After the run the output array is the result array of the four arguments. -/
theorem final (c : Dev nD) :
    (dats m 0 c).arrAt 4 cfg0.N
      = Cert.Spec.result (m ((c : Thread nD τ).loc main_arg0)) (m ((c : Thread nD τ).loc main_arg1))
          (m ((c : Thread nD τ).loc main_arg2)) (m ((c : Thread nD τ).loc main_arg3)) :=
  (dats m 0 c).arrAt_eq_of_cover 4 _ (fun t _ => flushed_eq m c t) cover

/-- The kernel's run: every weakly fair execution ends with the output array at the result array of the arguments, the
    arguments unchanged. -/
theorem run : θ_run defs (onTc (τ := τ) (main (F := Ideal))) ⟨m, fun _ => 0, ρ⟩ fun r => ∀ c : Dev nD,
      r.2.mem ((c : Thread nD τ).loc main_v1)
          = Cert.Spec.result (m ((c : Thread nD τ).loc main_arg0)) (m ((c : Thread nD τ).loc main_arg1))
              (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.KValue

end
-- ==== Proof.RefTabPre.lean ====
/-
  The reference's first two operations as a list: the weights reshaped to [2048, 8, 64, 64] and the layer axis moved to the front.
-/
import proofs.«102972_j63007170233017_2_alg».proof.ReferenceIdeal
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo

variable {F : FTy → Type} [FloatOps F] [Facts]
open Facts₀ Facts

/-- The reshape of the weights and the transpose that puts the layer axis first. -/
abbrev opsPre : List (HloOp τ sig (Elt F)) :=
  [ StableHlo.reshape main_arg0 main_v0 rfl shapeCasts_S2048x32768_S2048x8x64x64,
    StableHlo.unary main_v0 main_v1 ((transpose S8x2048x64x64 [1, 0, 2, 3] · transposes_S2048x8x64x64_S8x2048x64x64_1_0_2_3) : (⟨S2048x8x64x64, .f32⟩ : BufTy).Contents (Elt F) → (⟨S8x2048x64x64, .f32⟩ : BufTy).Contents (Elt F)) ]

/-- Every operation of the list touches TensorCore references only. -/
theorem opsPre_sub : (opsPre : List (HloOp τ sig (Elt F))).Forall fun op => op.bufs ⊆ tcRefs τ sig :=
  ⟨reshape_bufs_sub .., unary_bufs_sub ..⟩

/-- Every operation of the list determines its results. -/
theorem opsPre_fresh : ∀ op ∈ (opsPre : List (HloOp τ sig (Elt F))), op.fresh = ∅ := by
  intro _ h; (repeat (cases h with | head => rfl | tail _ h => ?_)); exact nomatch h

end Cert.ReferenceIdeal.RefValue

end
-- ==== Proof.RefDefs.lean ====
/-
  The reference program's arithmetic as functions of whole arrays, for any float instance.

  The reference reshapes the weights f32[2048, 32768] to [2048, 8, 64, 64], moves the layer axis to the front, and
  for layer i = 0..7 takes slice i — a [2048, 64, 64] array `W i` of 2048 square matrices. One layer is, for every
  batch element at once, the matrix product T = W i · x followed by a normalisation over all 64·64 entries of T:
  with mean = (Σ T) / 4096 and var = (Σ (T − mean)²) / 4096,
      y = (T − mean) · rsqrt(var + ε) · γ + β,
  where the variance is computed by a helper that divides by 4096 − ddof with ddof = 0 converted from an integer,
  and keeps the quotient only where 4096 − ddof > 0 (a quiet NaN otherwise). Even layers clamp y below at 0.
  The first layer's output replaces x; every later layer adds its output to x.

  Each definition below is one stretch of the program's operations, in the program's own order and spelling, so that
  the program's run can be read back as `refNet` of the four argument arrays.
-/
import proofs.«102972_j63007170233017_2_alg».proof.ReferenceIdeal

noncomputable section

namespace Cert.ReferenceIdeal.RefValue

open Cert.ReferenceIdeal Idealize.ShloMosaic

variable {F : FTy → Type} [FloatOps F] [Facts]
open Facts₀ Facts

/-- The weights with the layer axis in front: [2048, 32768] → [2048, 8, 64, 64] → [8, 2048, 64, 64]. -/
def refWT (w : FVec F S2048x32768 .f32) : FVec F S8x2048x64x64 .f32 :=
  transpose S8x2048x64x64 [1, 0, 2, 3] (shapeCast S2048x8x64x64 w shapeCasts_S2048x32768_S2048x8x64x64) transposes_S2048x8x64x64_S8x2048x64x64_1_0_2_3

/-- The sum over both matrix axes, one number per batch element, kept as a [2048, 1, 1] column. -/
def refSum (T : FVec F S2048x64x64 .f32) : FVec F S2048x1x1 .f32 :=
  broadcastInDim S2048x1x1 ![0] bcast_S2048_S2048x1x1_0
    (Host.reduceAdd T (constant S_ .f32 0x00000000#32) reducesTo_S2048x64x64_S2048_d1_2 h_S_)

/-- The mean over both matrix axes: the sum divided by 4096. -/
def refMean (T : FVec F S2048x64x64 .f32) : FVec F S2048x1x1 .f32 :=
  Host.divf (refSum T) (broadcastInDim S2048x1x1 ![] bcast_S_S2048x1x1 (constant S_ .f32 0x45800000#32))

/-- The variance helper: the mean of the squared deviations, the divisor 4096 − ddof with the integer `ddof`
    converted to a float, the quotient kept where the divisor is positive and a quiet NaN elsewhere. -/
def refVar (T : FVec F S2048x64x64 .f32) (ddof : IVec S_ 32) : FVec F S2048x1x1 .f32 :=
  let d : FVec F S2048x64x64 .f32 := subf T (broadcastInDim S2048x64x64 ![0, 1, 2] bcast_S2048x1x1_S2048x64x64_0_1_2 (refMean T))
  let n : FVec F S_ .f32 := subf (constant S_ .f32 0x45800000#32) (sitofp .f32 ddof)
  select (broadcastInDim S2048x1x1 ![] bcast_S_S2048x1x1 (cmpf .ogt n (constant S_ .f32 0x00000000#32)))
    (Host.divf (refSum (mulf d d)) (broadcastInDim S2048x1x1 ![] bcast_S_S2048x1x1 n))
    (broadcastInDim S2048x1x1 ![] bcast_S_S2048x1x1 (id (constant S_ .f32 0x7FC00000#32)))

/-- A [64, 64] parameter repeated over the batch. -/
def refParam (g : FVec F S64x64 .f32) : FVec F S2048x64x64 .f32 :=
  broadcastInDim S2048x64x64 ![0, 1, 2] bcast_S1x64x64_S2048x64x64_0_1_2 (broadcastInDim S1x64x64 ![1, 2] bcast_S64x64_S1x64x64_1_2 g)

/-- One layer before the clamp: the batched product, normalised, scaled by γ and shifted by β. -/
def refNorm (g b : FVec F S64x64 .f32) (W X : FVec F S2048x64x64 .f32) : FVec F S2048x64x64 .f32 :=
  let T : FVec F S2048x64x64 .f32 := Host.dotGeneral dot_S2048x64x64_S2048x64x64_S2048x64x64_2_1_1_2_0_0 none W X
  let c : FVec F S2048x64x64 .f32 := subf T (broadcastInDim S2048x64x64 ![0, 1, 2] bcast_S2048x1x1_S2048x64x64_0_1_2 (refMean T))
  let s : FVec F S2048x1x1 .f32 := Host.rsqrt (addf (refVar T (constantI S_ 32 0#32)) (broadcastInDim S2048x1x1 ![] bcast_S_S2048x1x1 (constant S_ .f32 0x3727C5AC#32)))
  addf (mulf (mulf c (broadcastInDim S2048x64x64 ![0, 1, 2] bcast_S2048x1x1_S2048x64x64_0_1_2 s)) (refParam g)) (refParam b)

/-- The clamp below at zero. -/
def refRelu (Y : FVec F S2048x64x64 .f32) : FVec F S2048x64x64 .f32 :=
  maximumf Y (broadcastInDim S2048x64x64 ![] bcast_S_S2048x64x64 (constant S_ .f32 0x00000000#32))

/-- Layer `i`'s 2048 matrices: slice `i` of the layer-major weights with its unit axis dropped. -/
def refW0 (wt : FVec F S8x2048x64x64 .f32) : FVec F S2048x64x64 .f32 := shapeCast S2048x64x64 (extractStridedSlice S1x2048x64x64 ![0, 0, 0, 0] wt slices_S8x2048x64x64_S1x2048x64x64_0_0_0_0) shapeCasts_S1x2048x64x64_S2048x64x64
def refW1 (wt : FVec F S8x2048x64x64 .f32) : FVec F S2048x64x64 .f32 := shapeCast S2048x64x64 (extractStridedSlice S1x2048x64x64 ![1, 0, 0, 0] wt slices_S8x2048x64x64_S1x2048x64x64_1_0_0_0) shapeCasts_S1x2048x64x64_S2048x64x64
def refW2 (wt : FVec F S8x2048x64x64 .f32) : FVec F S2048x64x64 .f32 := shapeCast S2048x64x64 (extractStridedSlice S1x2048x64x64 ![2, 0, 0, 0] wt slices_S8x2048x64x64_S1x2048x64x64_2_0_0_0) shapeCasts_S1x2048x64x64_S2048x64x64
def refW3 (wt : FVec F S8x2048x64x64 .f32) : FVec F S2048x64x64 .f32 := shapeCast S2048x64x64 (extractStridedSlice S1x2048x64x64 ![3, 0, 0, 0] wt slices_S8x2048x64x64_S1x2048x64x64_3_0_0_0) shapeCasts_S1x2048x64x64_S2048x64x64
def refW4 (wt : FVec F S8x2048x64x64 .f32) : FVec F S2048x64x64 .f32 := shapeCast S2048x64x64 (extractStridedSlice S1x2048x64x64 ![4, 0, 0, 0] wt slices_S8x2048x64x64_S1x2048x64x64_4_0_0_0) shapeCasts_S1x2048x64x64_S2048x64x64
def refW5 (wt : FVec F S8x2048x64x64 .f32) : FVec F S2048x64x64 .f32 := shapeCast S2048x64x64 (extractStridedSlice S1x2048x64x64 ![5, 0, 0, 0] wt slices_S8x2048x64x64_S1x2048x64x64_5_0_0_0) shapeCasts_S1x2048x64x64_S2048x64x64
def refW6 (wt : FVec F S8x2048x64x64 .f32) : FVec F S2048x64x64 .f32 := shapeCast S2048x64x64 (extractStridedSlice S1x2048x64x64 ![6, 0, 0, 0] wt slices_S8x2048x64x64_S1x2048x64x64_6_0_0_0) shapeCasts_S1x2048x64x64_S2048x64x64
def refW7 (wt : FVec F S8x2048x64x64 .f32) : FVec F S2048x64x64 .f32 := shapeCast S2048x64x64 (extractStridedSlice S1x2048x64x64 ![7, 0, 0, 0] wt slices_S8x2048x64x64_S1x2048x64x64_7_0_0_0) shapeCasts_S1x2048x64x64_S2048x64x64

/-- The whole reference: eight layers, the even ones clamped, the first replacing x and the rest added to it. -/
def refNet (w : FVec F S2048x32768 .f32) (x : FVec F S2048x64x64 .f32) (g b : FVec F S64x64 .f32) : FVec F S2048x64x64 .f32 :=
  let wt := refWT w
  let x1 := refRelu (refNorm g b (refW0 wt) x)
  let x2 := addf x1 (refNorm g b (refW1 wt) x1)
  let x3 := addf x2 (refRelu (refNorm g b (refW2 wt) x2))
  let x4 := addf x3 (refNorm g b (refW3 wt) x3)
  let x5 := addf x4 (refRelu (refNorm g b (refW4 wt) x4))
  let x6 := addf x5 (refNorm g b (refW5 wt) x5)
  let x7 := addf x6 (refRelu (refNorm g b (refW6 wt) x6))
  addf x7 (refNorm g b (refW7 wt) x7)

end Cert.ReferenceIdeal.RefValue

end
-- ==== Proof.RefPre.lean ====
/-
  The reference's first two operations read back over any contents of the buffers: after them the layer-major
  buffer holds the weights reshaped to [2048, 8, 64, 64] with the layer axis moved to the front, and the four arguments
  are as they were.
-/
import proofs.«102972_j63007170233017_2_alg».proof.Proof.RefTabPre
import proofs.«102972_j63007170233017_2_alg».proof.Proof.RefDefs

noncomputable section

namespace Cert.ReferenceIdeal.RefValue

open Cert.ReferenceIdeal Idealize.ShloMosaic Idealize.ShloMosaic.TcCoe Idealize.SL.Sem Idealize.ShloMosaic.StableHlo

variable {F : FTy → Type} [FloatOps F] [Facts]
open Facts₀ Facts

set_option maxRecDepth 8192 in
/-- The layer-major weights: the reshape's result transposed, which is `refWT` of the weights argument by unfolding. -/
theorem pre_v1 (V : Valuation τ sig (Elt F)) :
    after opsPre V (main_v1 : DevRef τ sig) = refWT (V (main_arg0 : DevRef τ sig)) := by
  simp only [after_cons, after_nil]
  rfl

set_option maxRecDepth 8192 in
/-- Neither operation writes the weights argument: unrolling the fold, each leaves a buffer not its own as it was. -/
theorem pre_arg0 (V : Valuation τ sig (Elt F)) :
    after opsPre V (main_arg0 : DevRef τ sig) = V (main_arg0 : DevRef τ sig) := by
  simp only [after_cons, after_nil]
  rfl

set_option maxRecDepth 8192 in
/-- Neither operation writes the x argument. -/
theorem pre_arg1 (V : Valuation τ sig (Elt F)) :
    after opsPre V (main_arg1 : DevRef τ sig) = V (main_arg1 : DevRef τ sig) := by
  simp only [after_cons, after_nil]
  rfl

set_option maxRecDepth 8192 in
/-- Neither operation writes the scale γ. -/
theorem pre_arg2 (V : Valuation τ sig (Elt F)) :
    after opsPre V (main_arg2 : DevRef τ sig) = V (main_arg2 : DevRef τ sig) := by
  simp only [after_cons, after_nil]
  rfl

set_option maxRecDepth 8192 in
/-- Neither operation writes the shift β. -/
theorem pre_arg3 (V : Valuation τ sig (Elt F)) :
    after opsPre V (main_arg3 : DevRef τ sig) = V (main_arg3 : DevRef τ sig) := by
  simp only [after_cons, after_nil]
  rfl

end Cert.ReferenceIdeal.RefValue

end
-- ==== Proof.RefTabL0.lean ====
/-
  The operations of layer 0 of the reference as a list, the helper functions' operations written at their call sites.
-/
import proofs.«102972_j63007170233017_2_alg».proof.ReferenceIdeal
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo

variable {F : FTy → Type} [FloatOps F] [Facts]
open Facts₀ Facts

/-- Layer 0 of the reference, in order: the slice of the layer-major weights at 0 and its reshape to 2048 matrices, the batched product with the running x, the sum over both matrix axes and its quotient by 4096 (the mean), the variance helper's operations (the sum again, the mean, the deviations, their squares, the divisor 4096 − ddof, the quotient kept where the divisor is positive), the deviations from the mean, the variance plus ε, its reciprocal square root, the product, the scale γ and the shift β each repeated over the batch, the clamp below at zero. -/
abbrev opsL0 : List (HloOp τ sig (Elt F)) :=
  [ StableHlo.unary main_v1 main_v2 ((extractStridedSlice S1x2048x64x64 ![0, 0, 0, 0] · slices_S8x2048x64x64_S1x2048x64x64_0_0_0_0) : (⟨S8x2048x64x64, .f32⟩ : BufTy).Contents (Elt F) → (⟨S1x2048x64x64, .f32⟩ : BufTy).Contents (Elt F)),
    StableHlo.reshape main_v2 main_v3 rfl shapeCasts_S1x2048x64x64_S2048x64x64,
    StableHlo.binary main_v3 main_arg1 main_v4 ((fun l r => Host.dotGeneral dot_S2048x64x64_S2048x64x64_S2048x64x64_2_1_1_2_0_0 none l r) : (⟨S2048x64x64, .f32⟩ : BufTy).Contents (Elt F) → (⟨S2048x64x64, .f32⟩ : BufTy).Contents (Elt F) → (⟨S2048x64x64, .f32⟩ : BufTy).Contents (Elt F)),
    StableHlo.nullary main_cst (constant S_ .f32 0x00000000#32),
    StableHlo.binary main_v4 main_cst main_v5 ((fun x v => Host.reduceAdd x v reducesTo_S2048x64x64_S2048_d1_2 h_S_) : (⟨S2048x64x64, .f32⟩ : BufTy).Contents (Elt F) → (⟨S_, .f32⟩ : BufTy).Contents (Elt F) → (⟨S2048, .f32⟩ : BufTy).Contents (Elt F)),
    StableHlo.unary main_v5 main_v6 (broadcastInDim S2048x1x1 ![0] bcast_S2048_S2048x1x1_0 : (⟨S2048, .f32⟩ : BufTy).Contents (Elt F) → (⟨S2048x1x1, .f32⟩ : BufTy).Contents (Elt F)),
    StableHlo.nullary main_cst_0 (constant S_ .f32 0x45800000#32),
    StableHlo.unary main_cst_0 main_v7 (broadcastInDim S2048x1x1 ![] bcast_S_S2048x1x1 : (⟨S_, .f32⟩ : BufTy).Contents (Elt F) → (⟨S2048x1x1, .f32⟩ : BufTy).Contents (Elt F)),
    StableHlo.binary main_v6 main_v7 main_v8 (Host.divf : (⟨S2048x1x1, .f32⟩ : BufTy).Contents (Elt F) → (⟨S2048x1x1, .f32⟩ : BufTy).Contents (Elt F) → (⟨S2048x1x1, .f32⟩ : BufTy).Contents (Elt F)),
    StableHlo.nullary main_c (constantI S_ 32 0#32),
    StableHlo.TRef.nullary main_call0.cst (constant S_ .f32 0x00000000#32),
    StableHlo.TRef.binary (.of main_v4) main_call0.cst main_call0.v0 (fun x v => Host.reduceAdd x v reducesTo_S2048x64x64_S2048_d1_2 h_S_),
    StableHlo.TRef.unary main_call0.v0 main_call0.v1 (broadcastInDim S2048x1x1 ![0] bcast_S2048_S2048x1x1_0),
    StableHlo.TRef.nullary main_call0.cst_0 (constant S_ .f32 0x45800000#32),
    StableHlo.TRef.unary main_call0.cst_0 main_call0.v2 (broadcastInDim S2048x1x1 ![] bcast_S_S2048x1x1),
    StableHlo.TRef.binary main_call0.v1 main_call0.v2 main_call0.v3 Host.divf,
    StableHlo.TRef.unary main_call0.v3 main_call0.v4 (broadcastInDim S2048x64x64 ![0, 1, 2] bcast_S2048x1x1_S2048x64x64_0_1_2),
    StableHlo.TRef.binary (.of main_v4) main_call0.v4 main_call0.v5 subf,
    StableHlo.TRef.binary main_call0.v5 main_call0.v5 main_call0.v6 mulf,
    StableHlo.TRef.unary (.of main_c) main_call0.v7 (sitofp .f32),
    StableHlo.TRef.nullary main_call0.cst_1 (constant S_ .f32 0x45800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S2048x64x64_S2048_d1_2 h_S_),
    StableHlo.TRef.unary main_call0.v9 main_call0.v10 (broadcastInDim S2048x1x1 ![0] bcast_S2048_S2048x1x1_0),
    StableHlo.TRef.unary main_call0.v8 main_call0.v11 (broadcastInDim S2048x1x1 ![] bcast_S_S2048x1x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S2048x1x1 ![] bcast_S_S2048x1x1),
    StableHlo.TRef.ternary main_call0.v13 main_call0.v12 main_call0.call0.v1 main_call0.call0.v2 (fun p a b => select (broadcastInDim S2048x1x1 ![] bcast_S_S2048x1x1 p) a b),
    StableHlo.unary main_v8 main_v10 (broadcastInDim S2048x64x64 ![0, 1, 2] bcast_S2048x1x1_S2048x64x64_0_1_2 : (⟨S2048x1x1, .f32⟩ : BufTy).Contents (Elt F) → (⟨S2048x64x64, .f32⟩ : BufTy).Contents (Elt F)),
    StableHlo.binary main_v4 main_v10 main_v11 (subf : (⟨S2048x64x64, .f32⟩ : BufTy).Contents (Elt F) → (⟨S2048x64x64, .f32⟩ : BufTy).Contents (Elt F) → (⟨S2048x64x64, .f32⟩ : BufTy).Contents (Elt F)),
    StableHlo.nullary main_cst_1 (constant S_ .f32 0x3727C5AC#32),
    StableHlo.unary main_cst_1 main_v12 (broadcastInDim S2048x1x1 ![] bcast_S_S2048x1x1 : (⟨S_, .f32⟩ : BufTy).Contents (Elt F) → (⟨S2048x1x1, .f32⟩ : BufTy).Contents (Elt F)),
    StableHlo.binary main_v9 main_v12 main_v13 (addf : (⟨S2048x1x1, .f32⟩ : BufTy).Contents (Elt F) → (⟨S2048x1x1, .f32⟩ : BufTy).Contents (Elt F) → (⟨S2048x1x1, .f32⟩ : BufTy).Contents (Elt F)),
    StableHlo.unary main_v13 main_v14 (Host.rsqrt : (⟨S2048x1x1, .f32⟩ : BufTy).Contents (Elt F) → (⟨S2048x1x1, .f32⟩ : BufTy).Contents (Elt F)),
    StableHlo.unary main_v14 main_v15 (broadcastInDim S2048x64x64 ![0, 1, 2] bcast_S2048x1x1_S2048x64x64_0_1_2 : (⟨S2048x1x1, .f32⟩ : BufTy).Contents (Elt F) → (⟨S2048x64x64, .f32⟩ : BufTy).Contents (Elt F)),
    StableHlo.binary main_v11 main_v15 main_v16 (mulf : (⟨S2048x64x64, .f32⟩ : BufTy).Contents (Elt F) → (⟨S2048x64x64, .f32⟩ : BufTy).Contents (Elt F) → (⟨S2048x64x64, .f32⟩ : BufTy).Contents (Elt F)),
    StableHlo.unary main_arg2 main_v17 (broadcastInDim S1x64x64 ![1, 2] bcast_S64x64_S1x64x64_1_2 : (⟨S64x64, .f32⟩ : BufTy).Contents (Elt F) → (⟨S1x64x64, .f32⟩ : BufTy).Contents (Elt F)),
    StableHlo.unary main_v17 main_v18 (broadcastInDim S2048x64x64 ![0, 1, 2] bcast_S1x64x64_S2048x64x64_0_1_2 : (⟨S1x64x64, .f32⟩ : BufTy).Contents (Elt F) → (⟨S2048x64x64, .f32⟩ : BufTy).Contents (Elt F)),
    StableHlo.binary main_v16 main_v18 main_v19 (mulf : (⟨S2048x64x64, .f32⟩ : BufTy).Contents (Elt F) → (⟨S2048x64x64, .f32⟩ : BufTy).Contents (Elt F) → (⟨S2048x64x64, .f32⟩ : BufTy).Contents (Elt F)),
    StableHlo.unary main_arg3 main_v20 (broadcastInDim S1x64x64 ![1, 2] bcast_S64x64_S1x64x64_1_2 : (⟨S64x64, .f32⟩ : BufTy).Contents (Elt F) → (⟨S1x64x64, .f32⟩ : BufTy).Contents (Elt F)),
    StableHlo.unary main_v20 main_v21 (broadcastInDim S2048x64x64 ![0, 1, 2] bcast_S1x64x64_S2048x64x64_0_1_2 : (⟨S1x64x64, .f32⟩ : BufTy).Contents (Elt F) → (⟨S2048x64x64, .f32⟩ : BufTy).Contents (Elt F)),
    StableHlo.binary main_v19 main_v21 main_v22 (addf : (⟨S2048x64x64, .f32⟩ : BufTy).Contents (Elt F) → (⟨S2048x64x64, .f32⟩ : BufTy).Contents (Elt F) → (⟨S2048x64x64, .f32⟩ : BufTy).Contents (Elt F)),
    StableHlo.TRef.nullary main_call1.cst (constant S_ .f32 0x00000000#32),
    StableHlo.TRef.unary main_call1.cst main_call1.v0 (broadcastInDim S2048x64x64 ![] bcast_S_S2048x64x64),
    StableHlo.TRef.binary (.of main_v22) main_call1.v0 main_call1.v1 maximumf ]

/-- Every operation of the list touches TensorCore references only. -/
theorem opsL0_sub : (opsL0 : List (HloOp τ sig (Elt F))).Forall fun op => op.bufs ⊆ tcRefs τ sig :=
  ⟨unary_bufs_sub .., reshape_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- Every operation of the list determines its results. -/
theorem opsL0_fresh : ∀ op ∈ (opsL0 : List (HloOp τ sig (Elt F))), op.fresh = ∅ := by
  intro _ h; (repeat (cases h with | head => rfl | tail _ h => ?_)); exact nomatch h

end Cert.ReferenceIdeal.RefValue

end
-- ==== Proof.RefL0.lean ====
/-
  Layer 0 of the reference read back over any contents of the buffers: after its operations the layer's output buffer
  holds the clamped, normalised product of slice 0 of the layer-major weights with x, and the layer-major weights and the
  four arguments are as they were.
-/
import proofs.«102972_j63007170233017_2_alg».proof.Proof.RefTabL0
import proofs.«102972_j63007170233017_2_alg».proof.Proof.RefDefs

noncomputable section

namespace Cert.ReferenceIdeal.RefValue

open Cert.ReferenceIdeal Idealize.ShloMosaic Idealize.ShloMosaic.TcCoe Idealize.SL.Sem Idealize.ShloMosaic.StableHlo

variable {F : FTy → Type} [FloatOps F] [Facts]
open Facts₀ Facts

set_option maxRecDepth 8192 in
set_option maxHeartbeats 1000000 in
/-- The output of layer 0: unrolling the fold, each operation's result at its own buffer is its function of its
    operands' contents, and the composed term is `refRelu (refNorm γ β (refW0 wt) x)` by unfolding. -/
theorem L0_out (V : Valuation τ sig (Elt F)) :
    after opsL0 V (main_v23 : DevRef τ sig)
      = refRelu (refNorm (V (main_arg2 : DevRef τ sig)) (V (main_arg3 : DevRef τ sig))
          (refW0 (V (main_v1 : DevRef τ sig))) (V (main_arg1 : DevRef τ sig))) := by
  simp only [after_cons, after_nil]
  rfl

set_option maxRecDepth 8192 in
/-- No operation of layer 0 writes the layer-major weights: each leaves a buffer not its own as it was. -/
theorem L0_v1 (V : Valuation τ sig (Elt F)) :
    after opsL0 V (main_v1 : DevRef τ sig) = V (main_v1 : DevRef τ sig) := by
  simp only [after_cons, after_nil]
  rfl

set_option maxRecDepth 8192 in
/-- No operation of layer 0 writes the weights argument. -/
theorem L0_arg0 (V : Valuation τ sig (Elt F)) :
    after opsL0 V (main_arg0 : DevRef τ sig) = V (main_arg0 : DevRef τ sig) := by
  simp only [after_cons, after_nil]
  rfl

set_option maxRecDepth 8192 in
/-- No operation of layer 0 writes the x argument. -/
theorem L0_arg1 (V : Valuation τ sig (Elt F)) :
    after opsL0 V (main_arg1 : DevRef τ sig) = V (main_arg1 : DevRef τ sig) := by
  simp only [after_cons, after_nil]
  rfl

set_option maxRecDepth 8192 in
/-- No operation of layer 0 writes the scale γ. -/
theorem L0_arg2 (V : Valuation τ sig (Elt F)) :
    after opsL0 V (main_arg2 : DevRef τ sig) = V (main_arg2 : DevRef τ sig) := by
  simp only [after_cons, after_nil]
  rfl

set_option maxRecDepth 8192 in
/-- No operation of layer 0 writes the shift β. -/
theorem L0_arg3 (V : Valuation τ sig (Elt F)) :
    after opsL0 V (main_arg3 : DevRef τ sig) = V (main_arg3 : DevRef τ sig) := by
  simp only [after_cons, after_nil]
  rfl

end Cert.ReferenceIdeal.RefValue

end
-- ==== Proof.RefTabL1.lean ====
/-
  The operations of layer 1 of the reference as a list, the helper functions' operations written at their call sites.
-/
import proofs.«102972_j63007170233017_2_alg».proof.ReferenceIdeal
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo

variable {F : FTy → Type} [FloatOps F] [Facts]
open Facts₀ Facts

/-- Layer 1 of the reference, in order: the slice of the layer-major weights at 1 and its reshape to 2048 matrices, the batched product with the running x, the sum over both matrix axes and its quotient by 4096 (the mean), the variance helper's operations (the sum again, the mean, the deviations, their squares, the divisor 4096 − ddof, the quotient kept where the divisor is positive), the deviations from the mean, the variance plus ε, its reciprocal square root, the product, the scale γ and the shift β each repeated over the batch, the sum with the running x. -/
abbrev opsL1 : List (HloOp τ sig (Elt F)) :=
  [ StableHlo.unary main_v1 main_v24 ((extractStridedSlice S1x2048x64x64 ![1, 0, 0, 0] · slices_S8x2048x64x64_S1x2048x64x64_1_0_0_0) : (⟨S8x2048x64x64, .f32⟩ : BufTy).Contents (Elt F) → (⟨S1x2048x64x64, .f32⟩ : BufTy).Contents (Elt F)),
    StableHlo.reshape main_v24 main_v25 rfl shapeCasts_S1x2048x64x64_S2048x64x64,
    StableHlo.binary main_v25 main_v23 main_v26 ((fun l r => Host.dotGeneral dot_S2048x64x64_S2048x64x64_S2048x64x64_2_1_1_2_0_0 none l r) : (⟨S2048x64x64, .f32⟩ : BufTy).Contents (Elt F) → (⟨S2048x64x64, .f32⟩ : BufTy).Contents (Elt F) → (⟨S2048x64x64, .f32⟩ : BufTy).Contents (Elt F)),
    StableHlo.nullary main_cst_2 (constant S_ .f32 0x00000000#32),
    StableHlo.binary main_v26 main_cst_2 main_v27 ((fun x v => Host.reduceAdd x v reducesTo_S2048x64x64_S2048_d1_2 h_S_) : (⟨S2048x64x64, .f32⟩ : BufTy).Contents (Elt F) → (⟨S_, .f32⟩ : BufTy).Contents (Elt F) → (⟨S2048, .f32⟩ : BufTy).Contents (Elt F)),
    StableHlo.unary main_v27 main_v28 (broadcastInDim S2048x1x1 ![0] bcast_S2048_S2048x1x1_0 : (⟨S2048, .f32⟩ : BufTy).Contents (Elt F) → (⟨S2048x1x1, .f32⟩ : BufTy).Contents (Elt F)),
    StableHlo.nullary main_cst_3 (constant S_ .f32 0x45800000#32),
    StableHlo.unary main_cst_3 main_v29 (broadcastInDim S2048x1x1 ![] bcast_S_S2048x1x1 : (⟨S_, .f32⟩ : BufTy).Contents (Elt F) → (⟨S2048x1x1, .f32⟩ : BufTy).Contents (Elt F)),
    StableHlo.binary main_v28 main_v29 main_v30 (Host.divf : (⟨S2048x1x1, .f32⟩ : BufTy).Contents (Elt F) → (⟨S2048x1x1, .f32⟩ : BufTy).Contents (Elt F) → (⟨S2048x1x1, .f32⟩ : BufTy).Contents (Elt F)),
    StableHlo.nullary main_c_4 (constantI S_ 32 0#32),
    StableHlo.TRef.nullary main_call2.cst (constant S_ .f32 0x00000000#32),
    StableHlo.TRef.binary (.of main_v26) main_call2.cst main_call2.v0 (fun x v => Host.reduceAdd x v reducesTo_S2048x64x64_S2048_d1_2 h_S_),
    StableHlo.TRef.unary main_call2.v0 main_call2.v1 (broadcastInDim S2048x1x1 ![0] bcast_S2048_S2048x1x1_0),
    StableHlo.TRef.nullary main_call2.cst_0 (constant S_ .f32 0x45800000#32),
    StableHlo.TRef.unary main_call2.cst_0 main_call2.v2 (broadcastInDim S2048x1x1 ![] bcast_S_S2048x1x1),
    StableHlo.TRef.binary main_call2.v1 main_call2.v2 main_call2.v3 Host.divf,
    StableHlo.TRef.unary main_call2.v3 main_call2.v4 (broadcastInDim S2048x64x64 ![0, 1, 2] bcast_S2048x1x1_S2048x64x64_0_1_2),
    StableHlo.TRef.binary (.of main_v26) main_call2.v4 main_call2.v5 subf,
    StableHlo.TRef.binary main_call2.v5 main_call2.v5 main_call2.v6 mulf,
    StableHlo.TRef.unary (.of main_c_4) main_call2.v7 (sitofp .f32),
    StableHlo.TRef.nullary main_call2.cst_1 (constant S_ .f32 0x45800000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S2048x64x64_S2048_d1_2 h_S_),
    StableHlo.TRef.unary main_call2.v9 main_call2.v10 (broadcastInDim S2048x1x1 ![0] bcast_S2048_S2048x1x1_0),
    StableHlo.TRef.unary main_call2.v8 main_call2.v11 (broadcastInDim S2048x1x1 ![] bcast_S_S2048x1x1),
    StableHlo.TRef.binary main_call2.v10 main_call2.v11 main_call2.v12 Host.divf,
    StableHlo.TRef.nullary main_call2.cst_3 (constant S_ .f32 0x00000000#32),
    StableHlo.TRef.binary main_call2.v8 main_call2.cst_3 main_call2.v13 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S2048x1x1 ![] bcast_S_S2048x1x1),
    StableHlo.TRef.ternary main_call2.v13 main_call2.v12 main_call2.call0.v1 main_call2.call0.v2 (fun p a b => select (broadcastInDim S2048x1x1 ![] bcast_S_S2048x1x1 p) a b),
    StableHlo.unary main_v30 main_v32 (broadcastInDim S2048x64x64 ![0, 1, 2] bcast_S2048x1x1_S2048x64x64_0_1_2 : (⟨S2048x1x1, .f32⟩ : BufTy).Contents (Elt F) → (⟨S2048x64x64, .f32⟩ : BufTy).Contents (Elt F)),
    StableHlo.binary main_v26 main_v32 main_v33 (subf : (⟨S2048x64x64, .f32⟩ : BufTy).Contents (Elt F) → (⟨S2048x64x64, .f32⟩ : BufTy).Contents (Elt F) → (⟨S2048x64x64, .f32⟩ : BufTy).Contents (Elt F)),
    StableHlo.nullary main_cst_5 (constant S_ .f32 0x3727C5AC#32),
    StableHlo.unary main_cst_5 main_v34 (broadcastInDim S2048x1x1 ![] bcast_S_S2048x1x1 : (⟨S_, .f32⟩ : BufTy).Contents (Elt F) → (⟨S2048x1x1, .f32⟩ : BufTy).Contents (Elt F)),
    StableHlo.binary main_v31 main_v34 main_v35 (addf : (⟨S2048x1x1, .f32⟩ : BufTy).Contents (Elt F) → (⟨S2048x1x1, .f32⟩ : BufTy).Contents (Elt F) → (⟨S2048x1x1, .f32⟩ : BufTy).Contents (Elt F)),
    StableHlo.unary main_v35 main_v36 (Host.rsqrt : (⟨S2048x1x1, .f32⟩ : BufTy).Contents (Elt F) → (⟨S2048x1x1, .f32⟩ : BufTy).Contents (Elt F)),
    StableHlo.unary main_v36 main_v37 (broadcastInDim S2048x64x64 ![0, 1, 2] bcast_S2048x1x1_S2048x64x64_0_1_2 : (⟨S2048x1x1, .f32⟩ : BufTy).Contents (Elt F) → (⟨S2048x64x64, .f32⟩ : BufTy).Contents (Elt F)),
    StableHlo.binary main_v33 main_v37 main_v38 (mulf : (⟨S2048x64x64, .f32⟩ : BufTy).Contents (Elt F) → (⟨S2048x64x64, .f32⟩ : BufTy).Contents (Elt F) → (⟨S2048x64x64, .f32⟩ : BufTy).Contents (Elt F)),
    StableHlo.unary main_arg2 main_v39 (broadcastInDim S1x64x64 ![1, 2] bcast_S64x64_S1x64x64_1_2 : (⟨S64x64, .f32⟩ : BufTy).Contents (Elt F) → (⟨S1x64x64, .f32⟩ : BufTy).Contents (Elt F)),
    StableHlo.unary main_v39 main_v40 (broadcastInDim S2048x64x64 ![0, 1, 2] bcast_S1x64x64_S2048x64x64_0_1_2 : (⟨S1x64x64, .f32⟩ : BufTy).Contents (Elt F) → (⟨S2048x64x64, .f32⟩ : BufTy).Contents (Elt F)),
    StableHlo.binary main_v38 main_v40 main_v41 (mulf : (⟨S2048x64x64, .f32⟩ : BufTy).Contents (Elt F) → (⟨S2048x64x64, .f32⟩ : BufTy).Contents (Elt F) → (⟨S2048x64x64, .f32⟩ : BufTy).Contents (Elt F)),
    StableHlo.unary main_arg3 main_v42 (broadcastInDim S1x64x64 ![1, 2] bcast_S64x64_S1x64x64_1_2 : (⟨S64x64, .f32⟩ : BufTy).Contents (Elt F) → (⟨S1x64x64, .f32⟩ : BufTy).Contents (Elt F)),
    StableHlo.unary main_v42 main_v43 (broadcastInDim S2048x64x64 ![0, 1, 2] bcast_S1x64x64_S2048x64x64_0_1_2 : (⟨S1x64x64, .f32⟩ : BufTy).Contents (Elt F) → (⟨S2048x64x64, .f32⟩ : BufTy).Contents (Elt F)),
    StableHlo.binary main_v41 main_v43 main_v44 (addf : (⟨S2048x64x64, .f32⟩ : BufTy).Contents (Elt F) → (⟨S2048x64x64, .f32⟩ : BufTy).Contents (Elt F) → (⟨S2048x64x64, .f32⟩ : BufTy).Contents (Elt F)),
    StableHlo.binary main_v23 main_v44 main_v45 (addf : (⟨S2048x64x64, .f32⟩ : BufTy).Contents (Elt F) → (⟨S2048x64x64, .f32⟩ : BufTy).Contents (Elt F) → (⟨S2048x64x64, .f32⟩ : BufTy).Contents (Elt F)) ]

/-- Every operation of the list touches TensorCore references only. -/
theorem opsL1_sub : (opsL1 : List (HloOp τ sig (Elt F))).Forall fun op => op.bufs ⊆ tcRefs τ sig :=
  ⟨unary_bufs_sub .., reshape_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub ..⟩

/-- Every operation of the list determines its results. -/
theorem opsL1_fresh : ∀ op ∈ (opsL1 : List (HloOp τ sig (Elt F))), op.fresh = ∅ := by
  intro _ h; (repeat (cases h with | head => rfl | tail _ h => ?_)); exact nomatch h

end Cert.ReferenceIdeal.RefValue

end
-- ==== Proof.RefL1.lean ====
/-
  Layer 1 of the reference read back over any contents of the buffers: after its operations the layer's output buffer
  holds the running x plus the normalised product of slice 1 of the layer-major weights with it, and the layer-major
  weights and the four arguments are as they were.
-/
import proofs.«102972_j63007170233017_2_alg».proof.Proof.RefTabL1
import proofs.«102972_j63007170233017_2_alg».proof.Proof.RefDefs

noncomputable section

namespace Cert.ReferenceIdeal.RefValue

open Cert.ReferenceIdeal Idealize.ShloMosaic Idealize.ShloMosaic.TcCoe Idealize.SL.Sem Idealize.ShloMosaic.StableHlo

variable {F : FTy → Type} [FloatOps F] [Facts]
open Facts₀ Facts

set_option maxRecDepth 8192 in
set_option maxHeartbeats 1000000 in
/-- The output of layer 1: unrolling the fold, each operation's result at its own buffer is its function of its
    operands' contents, and the composed term is `addf x (refNorm γ β (refW1 wt) x)` by unfolding, x the contents of the
    buffer layer 0 wrote. -/
theorem L1_out (V : Valuation τ sig (Elt F)) :
    after opsL1 V (main_v45 : DevRef τ sig)
      = addf (V (main_v23 : DevRef τ sig)) (refNorm (V (main_arg2 : DevRef τ sig)) (V (main_arg3 : DevRef τ sig))
          (refW1 (V (main_v1 : DevRef τ sig))) (V (main_v23 : DevRef τ sig))) := by
  simp only [after_cons, after_nil]
  rfl

set_option maxRecDepth 8192 in
/-- No operation of layer 1 writes the layer-major weights: each leaves a buffer not its own as it was. -/
theorem L1_v1 (V : Valuation τ sig (Elt F)) :
    after opsL1 V (main_v1 : DevRef τ sig) = V (main_v1 : DevRef τ sig) := by
  simp only [after_cons, after_nil]
  rfl

set_option maxRecDepth 8192 in
/-- No operation of layer 1 writes the weights argument. -/
theorem L1_arg0 (V : Valuation τ sig (Elt F)) :
    after opsL1 V (main_arg0 : DevRef τ sig) = V (main_arg0 : DevRef τ sig) := by
  simp only [after_cons, after_nil]
  rfl

set_option maxRecDepth 8192 in
/-- No operation of layer 1 writes the x argument. -/
theorem L1_arg1 (V : Valuation τ sig (Elt F)) :
    after opsL1 V (main_arg1 : DevRef τ sig) = V (main_arg1 : DevRef τ sig) := by
  simp only [after_cons, after_nil]
  rfl

set_option maxRecDepth 8192 in
/-- No operation of layer 1 writes the scale γ. -/
theorem L1_arg2 (V : Valuation τ sig (Elt F)) :
    after opsL1 V (main_arg2 : DevRef τ sig) = V (main_arg2 : DevRef τ sig) := by
  simp only [after_cons, after_nil]
  rfl

set_option maxRecDepth 8192 in
/-- No operation of layer 1 writes the shift β. -/
theorem L1_arg3 (V : Valuation τ sig (Elt F)) :
    after opsL1 V (main_arg3 : DevRef τ sig) = V (main_arg3 : DevRef τ sig) := by
  simp only [after_cons, after_nil]
  rfl

end Cert.ReferenceIdeal.RefValue

end
-- ==== Proof.RefTabL2.lean ====
/-
  The operations of layer 2 of the reference as a list, the helper functions' operations written at their call sites.
-/
import proofs.«102972_j63007170233017_2_alg».proof.ReferenceIdeal
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo

variable {F : FTy → Type} [FloatOps F] [Facts]
open Facts₀ Facts

/-- Layer 2 of the reference, in order: the slice of the layer-major weights at 2 and its reshape to 2048 matrices, the batched product with the running x, the sum over both matrix axes and its quotient by 4096 (the mean), the variance helper's operations (the sum again, the mean, the deviations, their squares, the divisor 4096 − ddof, the quotient kept where the divisor is positive), the deviations from the mean, the variance plus ε, its reciprocal square root, the product, the scale γ and the shift β each repeated over the batch, the clamp below at zero, the sum with the running x. -/
abbrev opsL2 : List (HloOp τ sig (Elt F)) :=
  [ StableHlo.unary main_v1 main_v46 ((extractStridedSlice S1x2048x64x64 ![2, 0, 0, 0] · slices_S8x2048x64x64_S1x2048x64x64_2_0_0_0) : (⟨S8x2048x64x64, .f32⟩ : BufTy).Contents (Elt F) → (⟨S1x2048x64x64, .f32⟩ : BufTy).Contents (Elt F)),
    StableHlo.reshape main_v46 main_v47 rfl shapeCasts_S1x2048x64x64_S2048x64x64,
    StableHlo.binary main_v47 main_v45 main_v48 ((fun l r => Host.dotGeneral dot_S2048x64x64_S2048x64x64_S2048x64x64_2_1_1_2_0_0 none l r) : (⟨S2048x64x64, .f32⟩ : BufTy).Contents (Elt F) → (⟨S2048x64x64, .f32⟩ : BufTy).Contents (Elt F) → (⟨S2048x64x64, .f32⟩ : BufTy).Contents (Elt F)),
    StableHlo.nullary main_cst_6 (constant S_ .f32 0x00000000#32),
    StableHlo.binary main_v48 main_cst_6 main_v49 ((fun x v => Host.reduceAdd x v reducesTo_S2048x64x64_S2048_d1_2 h_S_) : (⟨S2048x64x64, .f32⟩ : BufTy).Contents (Elt F) → (⟨S_, .f32⟩ : BufTy).Contents (Elt F) → (⟨S2048, .f32⟩ : BufTy).Contents (Elt F)),
    StableHlo.unary main_v49 main_v50 (broadcastInDim S2048x1x1 ![0] bcast_S2048_S2048x1x1_0 : (⟨S2048, .f32⟩ : BufTy).Contents (Elt F) → (⟨S2048x1x1, .f32⟩ : BufTy).Contents (Elt F)),
    StableHlo.nullary main_cst_7 (constant S_ .f32 0x45800000#32),
    StableHlo.unary main_cst_7 main_v51 (broadcastInDim S2048x1x1 ![] bcast_S_S2048x1x1 : (⟨S_, .f32⟩ : BufTy).Contents (Elt F) → (⟨S2048x1x1, .f32⟩ : BufTy).Contents (Elt F)),
    StableHlo.binary main_v50 main_v51 main_v52 (Host.divf : (⟨S2048x1x1, .f32⟩ : BufTy).Contents (Elt F) → (⟨S2048x1x1, .f32⟩ : BufTy).Contents (Elt F) → (⟨S2048x1x1, .f32⟩ : BufTy).Contents (Elt F)),
    StableHlo.nullary main_c_8 (constantI S_ 32 0#32),
    StableHlo.TRef.nullary main_call3.cst (constant S_ .f32 0x00000000#32),
    StableHlo.TRef.binary (.of main_v48) main_call3.cst main_call3.v0 (fun x v => Host.reduceAdd x v reducesTo_S2048x64x64_S2048_d1_2 h_S_),
    StableHlo.TRef.unary main_call3.v0 main_call3.v1 (broadcastInDim S2048x1x1 ![0] bcast_S2048_S2048x1x1_0),
    StableHlo.TRef.nullary main_call3.cst_0 (constant S_ .f32 0x45800000#32),
    StableHlo.TRef.unary main_call3.cst_0 main_call3.v2 (broadcastInDim S2048x1x1 ![] bcast_S_S2048x1x1),
    StableHlo.TRef.binary main_call3.v1 main_call3.v2 main_call3.v3 Host.divf,
    StableHlo.TRef.unary main_call3.v3 main_call3.v4 (broadcastInDim S2048x64x64 ![0, 1, 2] bcast_S2048x1x1_S2048x64x64_0_1_2),
    StableHlo.TRef.binary (.of main_v48) main_call3.v4 main_call3.v5 subf,
    StableHlo.TRef.binary main_call3.v5 main_call3.v5 main_call3.v6 mulf,
    StableHlo.TRef.unary (.of main_c_8) main_call3.v7 (sitofp .f32),
    StableHlo.TRef.nullary main_call3.cst_1 (constant S_ .f32 0x45800000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S2048x64x64_S2048_d1_2 h_S_),
    StableHlo.TRef.unary main_call3.v9 main_call3.v10 (broadcastInDim S2048x1x1 ![0] bcast_S2048_S2048x1x1_0),
    StableHlo.TRef.unary main_call3.v8 main_call3.v11 (broadcastInDim S2048x1x1 ![] bcast_S_S2048x1x1),
    StableHlo.TRef.binary main_call3.v10 main_call3.v11 main_call3.v12 Host.divf,
    StableHlo.TRef.nullary main_call3.cst_3 (constant S_ .f32 0x00000000#32),
    StableHlo.TRef.binary main_call3.v8 main_call3.cst_3 main_call3.v13 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S2048x1x1 ![] bcast_S_S2048x1x1),
    StableHlo.TRef.ternary main_call3.v13 main_call3.v12 main_call3.call0.v1 main_call3.call0.v2 (fun p a b => select (broadcastInDim S2048x1x1 ![] bcast_S_S2048x1x1 p) a b),
    StableHlo.unary main_v52 main_v54 (broadcastInDim S2048x64x64 ![0, 1, 2] bcast_S2048x1x1_S2048x64x64_0_1_2 : (⟨S2048x1x1, .f32⟩ : BufTy).Contents (Elt F) → (⟨S2048x64x64, .f32⟩ : BufTy).Contents (Elt F)),
    StableHlo.binary main_v48 main_v54 main_v55 (subf : (⟨S2048x64x64, .f32⟩ : BufTy).Contents (Elt F) → (⟨S2048x64x64, .f32⟩ : BufTy).Contents (Elt F) → (⟨S2048x64x64, .f32⟩ : BufTy).Contents (Elt F)),
    StableHlo.nullary main_cst_9 (constant S_ .f32 0x3727C5AC#32),
    StableHlo.unary main_cst_9 main_v56 (broadcastInDim S2048x1x1 ![] bcast_S_S2048x1x1 : (⟨S_, .f32⟩ : BufTy).Contents (Elt F) → (⟨S2048x1x1, .f32⟩ : BufTy).Contents (Elt F)),
    StableHlo.binary main_v53 main_v56 main_v57 (addf : (⟨S2048x1x1, .f32⟩ : BufTy).Contents (Elt F) → (⟨S2048x1x1, .f32⟩ : BufTy).Contents (Elt F) → (⟨S2048x1x1, .f32⟩ : BufTy).Contents (Elt F)),
    StableHlo.unary main_v57 main_v58 (Host.rsqrt : (⟨S2048x1x1, .f32⟩ : BufTy).Contents (Elt F) → (⟨S2048x1x1, .f32⟩ : BufTy).Contents (Elt F)),
    StableHlo.unary main_v58 main_v59 (broadcastInDim S2048x64x64 ![0, 1, 2] bcast_S2048x1x1_S2048x64x64_0_1_2 : (⟨S2048x1x1, .f32⟩ : BufTy).Contents (Elt F) → (⟨S2048x64x64, .f32⟩ : BufTy).Contents (Elt F)),
    StableHlo.binary main_v55 main_v59 main_v60 (mulf : (⟨S2048x64x64, .f32⟩ : BufTy).Contents (Elt F) → (⟨S2048x64x64, .f32⟩ : BufTy).Contents (Elt F) → (⟨S2048x64x64, .f32⟩ : BufTy).Contents (Elt F)),
    StableHlo.unary main_arg2 main_v61 (broadcastInDim S1x64x64 ![1, 2] bcast_S64x64_S1x64x64_1_2 : (⟨S64x64, .f32⟩ : BufTy).Contents (Elt F) → (⟨S1x64x64, .f32⟩ : BufTy).Contents (Elt F)),
    StableHlo.unary main_v61 main_v62 (broadcastInDim S2048x64x64 ![0, 1, 2] bcast_S1x64x64_S2048x64x64_0_1_2 : (⟨S1x64x64, .f32⟩ : BufTy).Contents (Elt F) → (⟨S2048x64x64, .f32⟩ : BufTy).Contents (Elt F)),
    StableHlo.binary main_v60 main_v62 main_v63 (mulf : (⟨S2048x64x64, .f32⟩ : BufTy).Contents (Elt F) → (⟨S2048x64x64, .f32⟩ : BufTy).Contents (Elt F) → (⟨S2048x64x64, .f32⟩ : BufTy).Contents (Elt F)),
    StableHlo.unary main_arg3 main_v64 (broadcastInDim S1x64x64 ![1, 2] bcast_S64x64_S1x64x64_1_2 : (⟨S64x64, .f32⟩ : BufTy).Contents (Elt F) → (⟨S1x64x64, .f32⟩ : BufTy).Contents (Elt F)),
    StableHlo.unary main_v64 main_v65 (broadcastInDim S2048x64x64 ![0, 1, 2] bcast_S1x64x64_S2048x64x64_0_1_2 : (⟨S1x64x64, .f32⟩ : BufTy).Contents (Elt F) → (⟨S2048x64x64, .f32⟩ : BufTy).Contents (Elt F)),
    StableHlo.binary main_v63 main_v65 main_v66 (addf : (⟨S2048x64x64, .f32⟩ : BufTy).Contents (Elt F) → (⟨S2048x64x64, .f32⟩ : BufTy).Contents (Elt F) → (⟨S2048x64x64, .f32⟩ : BufTy).Contents (Elt F)),
    StableHlo.TRef.nullary main_call4.cst (constant S_ .f32 0x00000000#32),
    StableHlo.TRef.unary main_call4.cst main_call4.v0 (broadcastInDim S2048x64x64 ![] bcast_S_S2048x64x64),
    StableHlo.TRef.binary (.of main_v66) main_call4.v0 main_call4.v1 maximumf,
    StableHlo.binary main_v45 main_v67 main_v68 (addf : (⟨S2048x64x64, .f32⟩ : BufTy).Contents (Elt F) → (⟨S2048x64x64, .f32⟩ : BufTy).Contents (Elt F) → (⟨S2048x64x64, .f32⟩ : BufTy).Contents (Elt F)) ]

/-- Every operation of the list touches TensorCore references only. -/
theorem opsL2_sub : (opsL2 : List (HloOp τ sig (Elt F))).Forall fun op => op.bufs ⊆ tcRefs τ sig :=
  ⟨unary_bufs_sub .., reshape_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub ..⟩

/-- Every operation of the list determines its results. -/
theorem opsL2_fresh : ∀ op ∈ (opsL2 : List (HloOp τ sig (Elt F))), op.fresh = ∅ := by
  intro _ h; (repeat (cases h with | head => rfl | tail _ h => ?_)); exact nomatch h

end Cert.ReferenceIdeal.RefValue

end
-- ==== Proof.RefL2.lean ====
/-
  Layer 2 of the reference read back over any contents of the buffers: after its operations the layer's output buffer
  holds the running x plus the clamped, normalised product of slice 2 of the layer-major weights with it, and the
  layer-major weights and the four arguments are as they were.
-/
import proofs.«102972_j63007170233017_2_alg».proof.Proof.RefTabL2
import proofs.«102972_j63007170233017_2_alg».proof.Proof.RefDefs

noncomputable section

namespace Cert.ReferenceIdeal.RefValue

open Cert.ReferenceIdeal Idealize.ShloMosaic Idealize.ShloMosaic.TcCoe Idealize.SL.Sem Idealize.ShloMosaic.StableHlo

variable {F : FTy → Type} [FloatOps F] [Facts]
open Facts₀ Facts

set_option maxRecDepth 8192 in
set_option maxHeartbeats 1000000 in
/-- The output of layer 2: unrolling the fold, each operation's result at its own buffer is its function of its
    operands' contents, and the composed term is `addf x (refRelu (refNorm γ β (refW2 wt) x))` by unfolding, x the
    contents of the buffer layer 1 wrote. -/
theorem L2_out (V : Valuation τ sig (Elt F)) :
    after opsL2 V (main_v68 : DevRef τ sig)
      = addf (V (main_v45 : DevRef τ sig)) (refRelu (refNorm (V (main_arg2 : DevRef τ sig)) (V (main_arg3 : DevRef τ sig))
          (refW2 (V (main_v1 : DevRef τ sig))) (V (main_v45 : DevRef τ sig)))) := by
  simp only [after_cons, after_nil]
  rfl

set_option maxRecDepth 8192 in
/-- No operation of layer 2 writes the layer-major weights: each leaves a buffer not its own as it was. -/
theorem L2_v1 (V : Valuation τ sig (Elt F)) :
    after opsL2 V (main_v1 : DevRef τ sig) = V (main_v1 : DevRef τ sig) := by
  simp only [after_cons, after_nil]
  rfl

set_option maxRecDepth 8192 in
/-- No operation of layer 2 writes the weights argument. -/
theorem L2_arg0 (V : Valuation τ sig (Elt F)) :
    after opsL2 V (main_arg0 : DevRef τ sig) = V (main_arg0 : DevRef τ sig) := by
  simp only [after_cons, after_nil]
  rfl

set_option maxRecDepth 8192 in
/-- No operation of layer 2 writes the x argument. -/
theorem L2_arg1 (V : Valuation τ sig (Elt F)) :
    after opsL2 V (main_arg1 : DevRef τ sig) = V (main_arg1 : DevRef τ sig) := by
  simp only [after_cons, after_nil]
  rfl

set_option maxRecDepth 8192 in
/-- No operation of layer 2 writes the scale γ. -/
theorem L2_arg2 (V : Valuation τ sig (Elt F)) :
    after opsL2 V (main_arg2 : DevRef τ sig) = V (main_arg2 : DevRef τ sig) := by
  simp only [after_cons, after_nil]
  rfl

set_option maxRecDepth 8192 in
/-- No operation of layer 2 writes the shift β. -/
theorem L2_arg3 (V : Valuation τ sig (Elt F)) :
    after opsL2 V (main_arg3 : DevRef τ sig) = V (main_arg3 : DevRef τ sig) := by
  simp only [after_cons, after_nil]
  rfl

end Cert.ReferenceIdeal.RefValue

end
-- ==== Proof.RefTabL3.lean ====
/-
  The operations of layer 3 of the reference as a list, the helper functions' operations written at their call sites.
-/
import proofs.«102972_j63007170233017_2_alg».proof.ReferenceIdeal
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo

variable {F : FTy → Type} [FloatOps F] [Facts]
open Facts₀ Facts

/-- Layer 3 of the reference, in order: the slice of the layer-major weights at 3 and its reshape to 2048 matrices, the batched product with the running x, the sum over both matrix axes and its quotient by 4096 (the mean), the variance helper's operations (the sum again, the mean, the deviations, their squares, the divisor 4096 − ddof, the quotient kept where the divisor is positive), the deviations from the mean, the variance plus ε, its reciprocal square root, the product, the scale γ and the shift β each repeated over the batch, the sum with the running x. -/
abbrev opsL3 : List (HloOp τ sig (Elt F)) :=
  [ StableHlo.unary main_v1 main_v69 ((extractStridedSlice S1x2048x64x64 ![3, 0, 0, 0] · slices_S8x2048x64x64_S1x2048x64x64_3_0_0_0) : (⟨S8x2048x64x64, .f32⟩ : BufTy).Contents (Elt F) → (⟨S1x2048x64x64, .f32⟩ : BufTy).Contents (Elt F)),
    StableHlo.reshape main_v69 main_v70 rfl shapeCasts_S1x2048x64x64_S2048x64x64,
    StableHlo.binary main_v70 main_v68 main_v71 ((fun l r => Host.dotGeneral dot_S2048x64x64_S2048x64x64_S2048x64x64_2_1_1_2_0_0 none l r) : (⟨S2048x64x64, .f32⟩ : BufTy).Contents (Elt F) → (⟨S2048x64x64, .f32⟩ : BufTy).Contents (Elt F) → (⟨S2048x64x64, .f32⟩ : BufTy).Contents (Elt F)),
    StableHlo.nullary main_cst_10 (constant S_ .f32 0x00000000#32),
    StableHlo.binary main_v71 main_cst_10 main_v72 ((fun x v => Host.reduceAdd x v reducesTo_S2048x64x64_S2048_d1_2 h_S_) : (⟨S2048x64x64, .f32⟩ : BufTy).Contents (Elt F) → (⟨S_, .f32⟩ : BufTy).Contents (Elt F) → (⟨S2048, .f32⟩ : BufTy).Contents (Elt F)),
    StableHlo.unary main_v72 main_v73 (broadcastInDim S2048x1x1 ![0] bcast_S2048_S2048x1x1_0 : (⟨S2048, .f32⟩ : BufTy).Contents (Elt F) → (⟨S2048x1x1, .f32⟩ : BufTy).Contents (Elt F)),
    StableHlo.nullary main_cst_11 (constant S_ .f32 0x45800000#32),
    StableHlo.unary main_cst_11 main_v74 (broadcastInDim S2048x1x1 ![] bcast_S_S2048x1x1 : (⟨S_, .f32⟩ : BufTy).Contents (Elt F) → (⟨S2048x1x1, .f32⟩ : BufTy).Contents (Elt F)),
    StableHlo.binary main_v73 main_v74 main_v75 (Host.divf : (⟨S2048x1x1, .f32⟩ : BufTy).Contents (Elt F) → (⟨S2048x1x1, .f32⟩ : BufTy).Contents (Elt F) → (⟨S2048x1x1, .f32⟩ : BufTy).Contents (Elt F)),
    StableHlo.nullary main_c_12 (constantI S_ 32 0#32),
    StableHlo.TRef.nullary main_call5.cst (constant S_ .f32 0x00000000#32),
    StableHlo.TRef.binary (.of main_v71) main_call5.cst main_call5.v0 (fun x v => Host.reduceAdd x v reducesTo_S2048x64x64_S2048_d1_2 h_S_),
    StableHlo.TRef.unary main_call5.v0 main_call5.v1 (broadcastInDim S2048x1x1 ![0] bcast_S2048_S2048x1x1_0),
    StableHlo.TRef.nullary main_call5.cst_0 (constant S_ .f32 0x45800000#32),
    StableHlo.TRef.unary main_call5.cst_0 main_call5.v2 (broadcastInDim S2048x1x1 ![] bcast_S_S2048x1x1),
    StableHlo.TRef.binary main_call5.v1 main_call5.v2 main_call5.v3 Host.divf,
    StableHlo.TRef.unary main_call5.v3 main_call5.v4 (broadcastInDim S2048x64x64 ![0, 1, 2] bcast_S2048x1x1_S2048x64x64_0_1_2),
    StableHlo.TRef.binary (.of main_v71) main_call5.v4 main_call5.v5 subf,
    StableHlo.TRef.binary main_call5.v5 main_call5.v5 main_call5.v6 mulf,
    StableHlo.TRef.unary (.of main_c_12) main_call5.v7 (sitofp .f32),
    StableHlo.TRef.nullary main_call5.cst_1 (constant S_ .f32 0x45800000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S2048x64x64_S2048_d1_2 h_S_),
    StableHlo.TRef.unary main_call5.v9 main_call5.v10 (broadcastInDim S2048x1x1 ![0] bcast_S2048_S2048x1x1_0),
    StableHlo.TRef.unary main_call5.v8 main_call5.v11 (broadcastInDim S2048x1x1 ![] bcast_S_S2048x1x1),
    StableHlo.TRef.binary main_call5.v10 main_call5.v11 main_call5.v12 Host.divf,
    StableHlo.TRef.nullary main_call5.cst_3 (constant S_ .f32 0x00000000#32),
    StableHlo.TRef.binary main_call5.v8 main_call5.cst_3 main_call5.v13 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S2048x1x1 ![] bcast_S_S2048x1x1),
    StableHlo.TRef.ternary main_call5.v13 main_call5.v12 main_call5.call0.v1 main_call5.call0.v2 (fun p a b => select (broadcastInDim S2048x1x1 ![] bcast_S_S2048x1x1 p) a b),
    StableHlo.unary main_v75 main_v77 (broadcastInDim S2048x64x64 ![0, 1, 2] bcast_S2048x1x1_S2048x64x64_0_1_2 : (⟨S2048x1x1, .f32⟩ : BufTy).Contents (Elt F) → (⟨S2048x64x64, .f32⟩ : BufTy).Contents (Elt F)),
    StableHlo.binary main_v71 main_v77 main_v78 (subf : (⟨S2048x64x64, .f32⟩ : BufTy).Contents (Elt F) → (⟨S2048x64x64, .f32⟩ : BufTy).Contents (Elt F) → (⟨S2048x64x64, .f32⟩ : BufTy).Contents (Elt F)),
    StableHlo.nullary main_cst_13 (constant S_ .f32 0x3727C5AC#32),
    StableHlo.unary main_cst_13 main_v79 (broadcastInDim S2048x1x1 ![] bcast_S_S2048x1x1 : (⟨S_, .f32⟩ : BufTy).Contents (Elt F) → (⟨S2048x1x1, .f32⟩ : BufTy).Contents (Elt F)),
    StableHlo.binary main_v76 main_v79 main_v80 (addf : (⟨S2048x1x1, .f32⟩ : BufTy).Contents (Elt F) → (⟨S2048x1x1, .f32⟩ : BufTy).Contents (Elt F) → (⟨S2048x1x1, .f32⟩ : BufTy).Contents (Elt F)),
    StableHlo.unary main_v80 main_v81 (Host.rsqrt : (⟨S2048x1x1, .f32⟩ : BufTy).Contents (Elt F) → (⟨S2048x1x1, .f32⟩ : BufTy).Contents (Elt F)),
    StableHlo.unary main_v81 main_v82 (broadcastInDim S2048x64x64 ![0, 1, 2] bcast_S2048x1x1_S2048x64x64_0_1_2 : (⟨S2048x1x1, .f32⟩ : BufTy).Contents (Elt F) → (⟨S2048x64x64, .f32⟩ : BufTy).Contents (Elt F)),
    StableHlo.binary main_v78 main_v82 main_v83 (mulf : (⟨S2048x64x64, .f32⟩ : BufTy).Contents (Elt F) → (⟨S2048x64x64, .f32⟩ : BufTy).Contents (Elt F) → (⟨S2048x64x64, .f32⟩ : BufTy).Contents (Elt F)),
    StableHlo.unary main_arg2 main_v84 (broadcastInDim S1x64x64 ![1, 2] bcast_S64x64_S1x64x64_1_2 : (⟨S64x64, .f32⟩ : BufTy).Contents (Elt F) → (⟨S1x64x64, .f32⟩ : BufTy).Contents (Elt F)),
    StableHlo.unary main_v84 main_v85 (broadcastInDim S2048x64x64 ![0, 1, 2] bcast_S1x64x64_S2048x64x64_0_1_2 : (⟨S1x64x64, .f32⟩ : BufTy).Contents (Elt F) → (⟨S2048x64x64, .f32⟩ : BufTy).Contents (Elt F)),
    StableHlo.binary main_v83 main_v85 main_v86 (mulf : (⟨S2048x64x64, .f32⟩ : BufTy).Contents (Elt F) → (⟨S2048x64x64, .f32⟩ : BufTy).Contents (Elt F) → (⟨S2048x64x64, .f32⟩ : BufTy).Contents (Elt F)),
    StableHlo.unary main_arg3 main_v87 (broadcastInDim S1x64x64 ![1, 2] bcast_S64x64_S1x64x64_1_2 : (⟨S64x64, .f32⟩ : BufTy).Contents (Elt F) → (⟨S1x64x64, .f32⟩ : BufTy).Contents (Elt F)),
    StableHlo.unary main_v87 main_v88 (broadcastInDim S2048x64x64 ![0, 1, 2] bcast_S1x64x64_S2048x64x64_0_1_2 : (⟨S1x64x64, .f32⟩ : BufTy).Contents (Elt F) → (⟨S2048x64x64, .f32⟩ : BufTy).Contents (Elt F)),
    StableHlo.binary main_v86 main_v88 main_v89 (addf : (⟨S2048x64x64, .f32⟩ : BufTy).Contents (Elt F) → (⟨S2048x64x64, .f32⟩ : BufTy).Contents (Elt F) → (⟨S2048x64x64, .f32⟩ : BufTy).Contents (Elt F)),
    StableHlo.binary main_v68 main_v89 main_v90 (addf : (⟨S2048x64x64, .f32⟩ : BufTy).Contents (Elt F) → (⟨S2048x64x64, .f32⟩ : BufTy).Contents (Elt F) → (⟨S2048x64x64, .f32⟩ : BufTy).Contents (Elt F)) ]

/-- Every operation of the list touches TensorCore references only. -/
theorem opsL3_sub : (opsL3 : List (HloOp τ sig (Elt F))).Forall fun op => op.bufs ⊆ tcRefs τ sig :=
  ⟨unary_bufs_sub .., reshape_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub ..⟩

/-- Every operation of the list determines its results. -/
theorem opsL3_fresh : ∀ op ∈ (opsL3 : List (HloOp τ sig (Elt F))), op.fresh = ∅ := by
  intro _ h; (repeat (cases h with | head => rfl | tail _ h => ?_)); exact nomatch h

end Cert.ReferenceIdeal.RefValue

end
-- ==== Proof.RefL3.lean ====
/-
  Layer 3 of the reference read back over any contents of the buffers: after its operations the layer's output buffer
  holds the running x plus the normalised product of slice 3 of the layer-major weights with it, and the layer-major
  weights and the four arguments are as they were.
-/
import proofs.«102972_j63007170233017_2_alg».proof.Proof.RefTabL3
import proofs.«102972_j63007170233017_2_alg».proof.Proof.RefDefs

noncomputable section

namespace Cert.ReferenceIdeal.RefValue

open Cert.ReferenceIdeal Idealize.ShloMosaic Idealize.ShloMosaic.TcCoe Idealize.SL.Sem Idealize.ShloMosaic.StableHlo

variable {F : FTy → Type} [FloatOps F] [Facts]
open Facts₀ Facts

set_option maxRecDepth 8192 in
set_option maxHeartbeats 1000000 in
/-- The output of layer 3: unrolling the fold, each operation's result at its own buffer is its function of its
    operands' contents, and the composed term is `addf x (refNorm γ β (refW3 wt) x)` by unfolding, x the contents of the
    buffer layer 2 wrote. -/
theorem L3_out (V : Valuation τ sig (Elt F)) :
    after opsL3 V (main_v90 : DevRef τ sig)
      = addf (V (main_v68 : DevRef τ sig)) (refNorm (V (main_arg2 : DevRef τ sig)) (V (main_arg3 : DevRef τ sig))
          (refW3 (V (main_v1 : DevRef τ sig))) (V (main_v68 : DevRef τ sig))) := by
  simp only [after_cons, after_nil]
  rfl

set_option maxRecDepth 8192 in
/-- No operation of layer 3 writes the layer-major weights: each leaves a buffer not its own as it was. -/
theorem L3_v1 (V : Valuation τ sig (Elt F)) :
    after opsL3 V (main_v1 : DevRef τ sig) = V (main_v1 : DevRef τ sig) := by
  simp only [after_cons, after_nil]
  rfl

set_option maxRecDepth 8192 in
/-- No operation of layer 3 writes the weights argument. -/
theorem L3_arg0 (V : Valuation τ sig (Elt F)) :
    after opsL3 V (main_arg0 : DevRef τ sig) = V (main_arg0 : DevRef τ sig) := by
  simp only [after_cons, after_nil]
  rfl

set_option maxRecDepth 8192 in
/-- No operation of layer 3 writes the x argument. -/
theorem L3_arg1 (V : Valuation τ sig (Elt F)) :
    after opsL3 V (main_arg1 : DevRef τ sig) = V (main_arg1 : DevRef τ sig) := by
  simp only [after_cons, after_nil]
  rfl

set_option maxRecDepth 8192 in
/-- No operation of layer 3 writes the scale γ. -/
theorem L3_arg2 (V : Valuation τ sig (Elt F)) :
    after opsL3 V (main_arg2 : DevRef τ sig) = V (main_arg2 : DevRef τ sig) := by
  simp only [after_cons, after_nil]
  rfl

set_option maxRecDepth 8192 in
/-- No operation of layer 3 writes the shift β. -/
theorem L3_arg3 (V : Valuation τ sig (Elt F)) :
    after opsL3 V (main_arg3 : DevRef τ sig) = V (main_arg3 : DevRef τ sig) := by
  simp only [after_cons, after_nil]
  rfl

end Cert.ReferenceIdeal.RefValue

end
-- ==== Proof.RefTabL4.lean ====
/-
  The operations of layer 4 of the reference as a list, the helper functions' operations written at their call sites.
-/
import proofs.«102972_j63007170233017_2_alg».proof.ReferenceIdeal
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo

variable {F : FTy → Type} [FloatOps F] [Facts]
open Facts₀ Facts

/-- Layer 4 of the reference, in order: the slice of the layer-major weights at 4 and its reshape to 2048 matrices, the batched product with the running x, the sum over both matrix axes and its quotient by 4096 (the mean), the variance helper's operations (the sum again, the mean, the deviations, their squares, the divisor 4096 − ddof, the quotient kept where the divisor is positive), the deviations from the mean, the variance plus ε, its reciprocal square root, the product, the scale γ and the shift β each repeated over the batch, the clamp below at zero, the sum with the running x. -/
abbrev opsL4 : List (HloOp τ sig (Elt F)) :=
  [ StableHlo.unary main_v1 main_v91 ((extractStridedSlice S1x2048x64x64 ![4, 0, 0, 0] · slices_S8x2048x64x64_S1x2048x64x64_4_0_0_0) : (⟨S8x2048x64x64, .f32⟩ : BufTy).Contents (Elt F) → (⟨S1x2048x64x64, .f32⟩ : BufTy).Contents (Elt F)),
    StableHlo.reshape main_v91 main_v92 rfl shapeCasts_S1x2048x64x64_S2048x64x64,
    StableHlo.binary main_v92 main_v90 main_v93 ((fun l r => Host.dotGeneral dot_S2048x64x64_S2048x64x64_S2048x64x64_2_1_1_2_0_0 none l r) : (⟨S2048x64x64, .f32⟩ : BufTy).Contents (Elt F) → (⟨S2048x64x64, .f32⟩ : BufTy).Contents (Elt F) → (⟨S2048x64x64, .f32⟩ : BufTy).Contents (Elt F)),
    StableHlo.nullary main_cst_14 (constant S_ .f32 0x00000000#32),
    StableHlo.binary main_v93 main_cst_14 main_v94 ((fun x v => Host.reduceAdd x v reducesTo_S2048x64x64_S2048_d1_2 h_S_) : (⟨S2048x64x64, .f32⟩ : BufTy).Contents (Elt F) → (⟨S_, .f32⟩ : BufTy).Contents (Elt F) → (⟨S2048, .f32⟩ : BufTy).Contents (Elt F)),
    StableHlo.unary main_v94 main_v95 (broadcastInDim S2048x1x1 ![0] bcast_S2048_S2048x1x1_0 : (⟨S2048, .f32⟩ : BufTy).Contents (Elt F) → (⟨S2048x1x1, .f32⟩ : BufTy).Contents (Elt F)),
    StableHlo.nullary main_cst_15 (constant S_ .f32 0x45800000#32),
    StableHlo.unary main_cst_15 main_v96 (broadcastInDim S2048x1x1 ![] bcast_S_S2048x1x1 : (⟨S_, .f32⟩ : BufTy).Contents (Elt F) → (⟨S2048x1x1, .f32⟩ : BufTy).Contents (Elt F)),
    StableHlo.binary main_v95 main_v96 main_v97 (Host.divf : (⟨S2048x1x1, .f32⟩ : BufTy).Contents (Elt F) → (⟨S2048x1x1, .f32⟩ : BufTy).Contents (Elt F) → (⟨S2048x1x1, .f32⟩ : BufTy).Contents (Elt F)),
    StableHlo.nullary main_c_16 (constantI S_ 32 0#32),
    StableHlo.TRef.nullary main_call6.cst (constant S_ .f32 0x00000000#32),
    StableHlo.TRef.binary (.of main_v93) main_call6.cst main_call6.v0 (fun x v => Host.reduceAdd x v reducesTo_S2048x64x64_S2048_d1_2 h_S_),
    StableHlo.TRef.unary main_call6.v0 main_call6.v1 (broadcastInDim S2048x1x1 ![0] bcast_S2048_S2048x1x1_0),
    StableHlo.TRef.nullary main_call6.cst_0 (constant S_ .f32 0x45800000#32),
    StableHlo.TRef.unary main_call6.cst_0 main_call6.v2 (broadcastInDim S2048x1x1 ![] bcast_S_S2048x1x1),
    StableHlo.TRef.binary main_call6.v1 main_call6.v2 main_call6.v3 Host.divf,
    StableHlo.TRef.unary main_call6.v3 main_call6.v4 (broadcastInDim S2048x64x64 ![0, 1, 2] bcast_S2048x1x1_S2048x64x64_0_1_2),
    StableHlo.TRef.binary (.of main_v93) main_call6.v4 main_call6.v5 subf,
    StableHlo.TRef.binary main_call6.v5 main_call6.v5 main_call6.v6 mulf,
    StableHlo.TRef.unary (.of main_c_16) main_call6.v7 (sitofp .f32),
    StableHlo.TRef.nullary main_call6.cst_1 (constant S_ .f32 0x45800000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S2048x64x64_S2048_d1_2 h_S_),
    StableHlo.TRef.unary main_call6.v9 main_call6.v10 (broadcastInDim S2048x1x1 ![0] bcast_S2048_S2048x1x1_0),
    StableHlo.TRef.unary main_call6.v8 main_call6.v11 (broadcastInDim S2048x1x1 ![] bcast_S_S2048x1x1),
    StableHlo.TRef.binary main_call6.v10 main_call6.v11 main_call6.v12 Host.divf,
    StableHlo.TRef.nullary main_call6.cst_3 (constant S_ .f32 0x00000000#32),
    StableHlo.TRef.binary main_call6.v8 main_call6.cst_3 main_call6.v13 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S2048x1x1 ![] bcast_S_S2048x1x1),
    StableHlo.TRef.ternary main_call6.v13 main_call6.v12 main_call6.call0.v1 main_call6.call0.v2 (fun p a b => select (broadcastInDim S2048x1x1 ![] bcast_S_S2048x1x1 p) a b),
    StableHlo.unary main_v97 main_v99 (broadcastInDim S2048x64x64 ![0, 1, 2] bcast_S2048x1x1_S2048x64x64_0_1_2 : (⟨S2048x1x1, .f32⟩ : BufTy).Contents (Elt F) → (⟨S2048x64x64, .f32⟩ : BufTy).Contents (Elt F)),
    StableHlo.binary main_v93 main_v99 main_v100 (subf : (⟨S2048x64x64, .f32⟩ : BufTy).Contents (Elt F) → (⟨S2048x64x64, .f32⟩ : BufTy).Contents (Elt F) → (⟨S2048x64x64, .f32⟩ : BufTy).Contents (Elt F)),
    StableHlo.nullary main_cst_17 (constant S_ .f32 0x3727C5AC#32),
    StableHlo.unary main_cst_17 main_v101 (broadcastInDim S2048x1x1 ![] bcast_S_S2048x1x1 : (⟨S_, .f32⟩ : BufTy).Contents (Elt F) → (⟨S2048x1x1, .f32⟩ : BufTy).Contents (Elt F)),
    StableHlo.binary main_v98 main_v101 main_v102 (addf : (⟨S2048x1x1, .f32⟩ : BufTy).Contents (Elt F) → (⟨S2048x1x1, .f32⟩ : BufTy).Contents (Elt F) → (⟨S2048x1x1, .f32⟩ : BufTy).Contents (Elt F)),
    StableHlo.unary main_v102 main_v103 (Host.rsqrt : (⟨S2048x1x1, .f32⟩ : BufTy).Contents (Elt F) → (⟨S2048x1x1, .f32⟩ : BufTy).Contents (Elt F)),
    StableHlo.unary main_v103 main_v104 (broadcastInDim S2048x64x64 ![0, 1, 2] bcast_S2048x1x1_S2048x64x64_0_1_2 : (⟨S2048x1x1, .f32⟩ : BufTy).Contents (Elt F) → (⟨S2048x64x64, .f32⟩ : BufTy).Contents (Elt F)),
    StableHlo.binary main_v100 main_v104 main_v105 (mulf : (⟨S2048x64x64, .f32⟩ : BufTy).Contents (Elt F) → (⟨S2048x64x64, .f32⟩ : BufTy).Contents (Elt F) → (⟨S2048x64x64, .f32⟩ : BufTy).Contents (Elt F)),
    StableHlo.unary main_arg2 main_v106 (broadcastInDim S1x64x64 ![1, 2] bcast_S64x64_S1x64x64_1_2 : (⟨S64x64, .f32⟩ : BufTy).Contents (Elt F) → (⟨S1x64x64, .f32⟩ : BufTy).Contents (Elt F)),
    StableHlo.unary main_v106 main_v107 (broadcastInDim S2048x64x64 ![0, 1, 2] bcast_S1x64x64_S2048x64x64_0_1_2 : (⟨S1x64x64, .f32⟩ : BufTy).Contents (Elt F) → (⟨S2048x64x64, .f32⟩ : BufTy).Contents (Elt F)),
    StableHlo.binary main_v105 main_v107 main_v108 (mulf : (⟨S2048x64x64, .f32⟩ : BufTy).Contents (Elt F) → (⟨S2048x64x64, .f32⟩ : BufTy).Contents (Elt F) → (⟨S2048x64x64, .f32⟩ : BufTy).Contents (Elt F)),
    StableHlo.unary main_arg3 main_v109 (broadcastInDim S1x64x64 ![1, 2] bcast_S64x64_S1x64x64_1_2 : (⟨S64x64, .f32⟩ : BufTy).Contents (Elt F) → (⟨S1x64x64, .f32⟩ : BufTy).Contents (Elt F)),
    StableHlo.unary main_v109 main_v110 (broadcastInDim S2048x64x64 ![0, 1, 2] bcast_S1x64x64_S2048x64x64_0_1_2 : (⟨S1x64x64, .f32⟩ : BufTy).Contents (Elt F) → (⟨S2048x64x64, .f32⟩ : BufTy).Contents (Elt F)),
    StableHlo.binary main_v108 main_v110 main_v111 (addf : (⟨S2048x64x64, .f32⟩ : BufTy).Contents (Elt F) → (⟨S2048x64x64, .f32⟩ : BufTy).Contents (Elt F) → (⟨S2048x64x64, .f32⟩ : BufTy).Contents (Elt F)),
    StableHlo.TRef.nullary main_call7.cst (constant S_ .f32 0x00000000#32),
    StableHlo.TRef.unary main_call7.cst main_call7.v0 (broadcastInDim S2048x64x64 ![] bcast_S_S2048x64x64),
    StableHlo.TRef.binary (.of main_v111) main_call7.v0 main_call7.v1 maximumf,
    StableHlo.binary main_v90 main_v112 main_v113 (addf : (⟨S2048x64x64, .f32⟩ : BufTy).Contents (Elt F) → (⟨S2048x64x64, .f32⟩ : BufTy).Contents (Elt F) → (⟨S2048x64x64, .f32⟩ : BufTy).Contents (Elt F)) ]

/-- Every operation of the list touches TensorCore references only. -/
theorem opsL4_sub : (opsL4 : List (HloOp τ sig (Elt F))).Forall fun op => op.bufs ⊆ tcRefs τ sig :=
  ⟨unary_bufs_sub .., reshape_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub ..⟩

/-- Every operation of the list determines its results. -/
theorem opsL4_fresh : ∀ op ∈ (opsL4 : List (HloOp τ sig (Elt F))), op.fresh = ∅ := by
  intro _ h; (repeat (cases h with | head => rfl | tail _ h => ?_)); exact nomatch h

end Cert.ReferenceIdeal.RefValue

end
-- ==== Proof.RefL4.lean ====
/-
  Layer 4 of the reference read back over any contents of the buffers: after its operations the layer's output buffer
  holds the running x plus the clamped, normalised product of slice 4 of the layer-major weights with it, and the
  layer-major weights and the four arguments are as they were.
-/
import proofs.«102972_j63007170233017_2_alg».proof.Proof.RefTabL4
import proofs.«102972_j63007170233017_2_alg».proof.Proof.RefDefs

noncomputable section

namespace Cert.ReferenceIdeal.RefValue

open Cert.ReferenceIdeal Idealize.ShloMosaic Idealize.ShloMosaic.TcCoe Idealize.SL.Sem Idealize.ShloMosaic.StableHlo

variable {F : FTy → Type} [FloatOps F] [Facts]
open Facts₀ Facts

set_option maxRecDepth 8192 in
set_option maxHeartbeats 1000000 in
/-- The output of layer 4: unrolling the fold, each operation's result at its own buffer is its function of its
    operands' contents, and the composed term is `addf x (refRelu (refNorm γ β (refW4 wt) x))` by unfolding, x the
    contents of the buffer layer 3 wrote. -/
theorem L4_out (V : Valuation τ sig (Elt F)) :
    after opsL4 V (main_v113 : DevRef τ sig)
      = addf (V (main_v90 : DevRef τ sig)) (refRelu (refNorm (V (main_arg2 : DevRef τ sig)) (V (main_arg3 : DevRef τ sig))
          (refW4 (V (main_v1 : DevRef τ sig))) (V (main_v90 : DevRef τ sig)))) := by
  simp only [after_cons, after_nil]
  rfl

set_option maxRecDepth 8192 in
/-- No operation of layer 4 writes the layer-major weights: each leaves a buffer not its own as it was. -/
theorem L4_v1 (V : Valuation τ sig (Elt F)) :
    after opsL4 V (main_v1 : DevRef τ sig) = V (main_v1 : DevRef τ sig) := by
  simp only [after_cons, after_nil]
  rfl

set_option maxRecDepth 8192 in
/-- No operation of layer 4 writes the weights argument. -/
theorem L4_arg0 (V : Valuation τ sig (Elt F)) :
    after opsL4 V (main_arg0 : DevRef τ sig) = V (main_arg0 : DevRef τ sig) := by
  simp only [after_cons, after_nil]
  rfl

set_option maxRecDepth 8192 in
/-- No operation of layer 4 writes the x argument. -/
theorem L4_arg1 (V : Valuation τ sig (Elt F)) :
    after opsL4 V (main_arg1 : DevRef τ sig) = V (main_arg1 : DevRef τ sig) := by
  simp only [after_cons, after_nil]
  rfl

set_option maxRecDepth 8192 in
/-- No operation of layer 4 writes the scale γ. -/
theorem L4_arg2 (V : Valuation τ sig (Elt F)) :
    after opsL4 V (main_arg2 : DevRef τ sig) = V (main_arg2 : DevRef τ sig) := by
  simp only [after_cons, after_nil]
  rfl

set_option maxRecDepth 8192 in
/-- No operation of layer 4 writes the shift β. -/
theorem L4_arg3 (V : Valuation τ sig (Elt F)) :
    after opsL4 V (main_arg3 : DevRef τ sig) = V (main_arg3 : DevRef τ sig) := by
  simp only [after_cons, after_nil]
  rfl

end Cert.ReferenceIdeal.RefValue

end
-- ==== Proof.RefTabL5.lean ====
/-
  The operations of layer 5 of the reference as a list, the helper functions' operations written at their call sites.
-/
import proofs.«102972_j63007170233017_2_alg».proof.ReferenceIdeal
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo

variable {F : FTy → Type} [FloatOps F] [Facts]
open Facts₀ Facts

/-- Layer 5 of the reference, in order: the slice of the layer-major weights at 5 and its reshape to 2048 matrices, the batched product with the running x, the sum over both matrix axes and its quotient by 4096 (the mean), the variance helper's operations (the sum again, the mean, the deviations, their squares, the divisor 4096 − ddof, the quotient kept where the divisor is positive), the deviations from the mean, the variance plus ε, its reciprocal square root, the product, the scale γ and the shift β each repeated over the batch, the sum with the running x. -/
abbrev opsL5 : List (HloOp τ sig (Elt F)) :=
  [ StableHlo.unary main_v1 main_v114 ((extractStridedSlice S1x2048x64x64 ![5, 0, 0, 0] · slices_S8x2048x64x64_S1x2048x64x64_5_0_0_0) : (⟨S8x2048x64x64, .f32⟩ : BufTy).Contents (Elt F) → (⟨S1x2048x64x64, .f32⟩ : BufTy).Contents (Elt F)),
    StableHlo.reshape main_v114 main_v115 rfl shapeCasts_S1x2048x64x64_S2048x64x64,
    StableHlo.binary main_v115 main_v113 main_v116 ((fun l r => Host.dotGeneral dot_S2048x64x64_S2048x64x64_S2048x64x64_2_1_1_2_0_0 none l r) : (⟨S2048x64x64, .f32⟩ : BufTy).Contents (Elt F) → (⟨S2048x64x64, .f32⟩ : BufTy).Contents (Elt F) → (⟨S2048x64x64, .f32⟩ : BufTy).Contents (Elt F)),
    StableHlo.nullary main_cst_18 (constant S_ .f32 0x00000000#32),
    StableHlo.binary main_v116 main_cst_18 main_v117 ((fun x v => Host.reduceAdd x v reducesTo_S2048x64x64_S2048_d1_2 h_S_) : (⟨S2048x64x64, .f32⟩ : BufTy).Contents (Elt F) → (⟨S_, .f32⟩ : BufTy).Contents (Elt F) → (⟨S2048, .f32⟩ : BufTy).Contents (Elt F)),
    StableHlo.unary main_v117 main_v118 (broadcastInDim S2048x1x1 ![0] bcast_S2048_S2048x1x1_0 : (⟨S2048, .f32⟩ : BufTy).Contents (Elt F) → (⟨S2048x1x1, .f32⟩ : BufTy).Contents (Elt F)),
    StableHlo.nullary main_cst_19 (constant S_ .f32 0x45800000#32),
    StableHlo.unary main_cst_19 main_v119 (broadcastInDim S2048x1x1 ![] bcast_S_S2048x1x1 : (⟨S_, .f32⟩ : BufTy).Contents (Elt F) → (⟨S2048x1x1, .f32⟩ : BufTy).Contents (Elt F)),
    StableHlo.binary main_v118 main_v119 main_v120 (Host.divf : (⟨S2048x1x1, .f32⟩ : BufTy).Contents (Elt F) → (⟨S2048x1x1, .f32⟩ : BufTy).Contents (Elt F) → (⟨S2048x1x1, .f32⟩ : BufTy).Contents (Elt F)),
    StableHlo.nullary main_c_20 (constantI S_ 32 0#32),
    StableHlo.TRef.nullary main_call8.cst (constant S_ .f32 0x00000000#32),
    StableHlo.TRef.binary (.of main_v116) main_call8.cst main_call8.v0 (fun x v => Host.reduceAdd x v reducesTo_S2048x64x64_S2048_d1_2 h_S_),
    StableHlo.TRef.unary main_call8.v0 main_call8.v1 (broadcastInDim S2048x1x1 ![0] bcast_S2048_S2048x1x1_0),
    StableHlo.TRef.nullary main_call8.cst_0 (constant S_ .f32 0x45800000#32),
    StableHlo.TRef.unary main_call8.cst_0 main_call8.v2 (broadcastInDim S2048x1x1 ![] bcast_S_S2048x1x1),
    StableHlo.TRef.binary main_call8.v1 main_call8.v2 main_call8.v3 Host.divf,
    StableHlo.TRef.unary main_call8.v3 main_call8.v4 (broadcastInDim S2048x64x64 ![0, 1, 2] bcast_S2048x1x1_S2048x64x64_0_1_2),
    StableHlo.TRef.binary (.of main_v116) main_call8.v4 main_call8.v5 subf,
    StableHlo.TRef.binary main_call8.v5 main_call8.v5 main_call8.v6 mulf,
    StableHlo.TRef.unary (.of main_c_20) main_call8.v7 (sitofp .f32),
    StableHlo.TRef.nullary main_call8.cst_1 (constant S_ .f32 0x45800000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S2048x64x64_S2048_d1_2 h_S_),
    StableHlo.TRef.unary main_call8.v9 main_call8.v10 (broadcastInDim S2048x1x1 ![0] bcast_S2048_S2048x1x1_0),
    StableHlo.TRef.unary main_call8.v8 main_call8.v11 (broadcastInDim S2048x1x1 ![] bcast_S_S2048x1x1),
    StableHlo.TRef.binary main_call8.v10 main_call8.v11 main_call8.v12 Host.divf,
    StableHlo.TRef.nullary main_call8.cst_3 (constant S_ .f32 0x00000000#32),
    StableHlo.TRef.binary main_call8.v8 main_call8.cst_3 main_call8.v13 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S2048x1x1 ![] bcast_S_S2048x1x1),
    StableHlo.TRef.ternary main_call8.v13 main_call8.v12 main_call8.call0.v1 main_call8.call0.v2 (fun p a b => select (broadcastInDim S2048x1x1 ![] bcast_S_S2048x1x1 p) a b),
    StableHlo.unary main_v120 main_v122 (broadcastInDim S2048x64x64 ![0, 1, 2] bcast_S2048x1x1_S2048x64x64_0_1_2 : (⟨S2048x1x1, .f32⟩ : BufTy).Contents (Elt F) → (⟨S2048x64x64, .f32⟩ : BufTy).Contents (Elt F)),
    StableHlo.binary main_v116 main_v122 main_v123 (subf : (⟨S2048x64x64, .f32⟩ : BufTy).Contents (Elt F) → (⟨S2048x64x64, .f32⟩ : BufTy).Contents (Elt F) → (⟨S2048x64x64, .f32⟩ : BufTy).Contents (Elt F)),
    StableHlo.nullary main_cst_21 (constant S_ .f32 0x3727C5AC#32),
    StableHlo.unary main_cst_21 main_v124 (broadcastInDim S2048x1x1 ![] bcast_S_S2048x1x1 : (⟨S_, .f32⟩ : BufTy).Contents (Elt F) → (⟨S2048x1x1, .f32⟩ : BufTy).Contents (Elt F)),
    StableHlo.binary main_v121 main_v124 main_v125 (addf : (⟨S2048x1x1, .f32⟩ : BufTy).Contents (Elt F) → (⟨S2048x1x1, .f32⟩ : BufTy).Contents (Elt F) → (⟨S2048x1x1, .f32⟩ : BufTy).Contents (Elt F)),
    StableHlo.unary main_v125 main_v126 (Host.rsqrt : (⟨S2048x1x1, .f32⟩ : BufTy).Contents (Elt F) → (⟨S2048x1x1, .f32⟩ : BufTy).Contents (Elt F)),
    StableHlo.unary main_v126 main_v127 (broadcastInDim S2048x64x64 ![0, 1, 2] bcast_S2048x1x1_S2048x64x64_0_1_2 : (⟨S2048x1x1, .f32⟩ : BufTy).Contents (Elt F) → (⟨S2048x64x64, .f32⟩ : BufTy).Contents (Elt F)),
    StableHlo.binary main_v123 main_v127 main_v128 (mulf : (⟨S2048x64x64, .f32⟩ : BufTy).Contents (Elt F) → (⟨S2048x64x64, .f32⟩ : BufTy).Contents (Elt F) → (⟨S2048x64x64, .f32⟩ : BufTy).Contents (Elt F)),
    StableHlo.unary main_arg2 main_v129 (broadcastInDim S1x64x64 ![1, 2] bcast_S64x64_S1x64x64_1_2 : (⟨S64x64, .f32⟩ : BufTy).Contents (Elt F) → (⟨S1x64x64, .f32⟩ : BufTy).Contents (Elt F)),
    StableHlo.unary main_v129 main_v130 (broadcastInDim S2048x64x64 ![0, 1, 2] bcast_S1x64x64_S2048x64x64_0_1_2 : (⟨S1x64x64, .f32⟩ : BufTy).Contents (Elt F) → (⟨S2048x64x64, .f32⟩ : BufTy).Contents (Elt F)),
    StableHlo.binary main_v128 main_v130 main_v131 (mulf : (⟨S2048x64x64, .f32⟩ : BufTy).Contents (Elt F) → (⟨S2048x64x64, .f32⟩ : BufTy).Contents (Elt F) → (⟨S2048x64x64, .f32⟩ : BufTy).Contents (Elt F)),
    StableHlo.unary main_arg3 main_v132 (broadcastInDim S1x64x64 ![1, 2] bcast_S64x64_S1x64x64_1_2 : (⟨S64x64, .f32⟩ : BufTy).Contents (Elt F) → (⟨S1x64x64, .f32⟩ : BufTy).Contents (Elt F)),
    StableHlo.unary main_v132 main_v133 (broadcastInDim S2048x64x64 ![0, 1, 2] bcast_S1x64x64_S2048x64x64_0_1_2 : (⟨S1x64x64, .f32⟩ : BufTy).Contents (Elt F) → (⟨S2048x64x64, .f32⟩ : BufTy).Contents (Elt F)),
    StableHlo.binary main_v131 main_v133 main_v134 (addf : (⟨S2048x64x64, .f32⟩ : BufTy).Contents (Elt F) → (⟨S2048x64x64, .f32⟩ : BufTy).Contents (Elt F) → (⟨S2048x64x64, .f32⟩ : BufTy).Contents (Elt F)),
    StableHlo.binary main_v113 main_v134 main_v135 (addf : (⟨S2048x64x64, .f32⟩ : BufTy).Contents (Elt F) → (⟨S2048x64x64, .f32⟩ : BufTy).Contents (Elt F) → (⟨S2048x64x64, .f32⟩ : BufTy).Contents (Elt F)) ]

/-- Every operation of the list touches TensorCore references only. -/
theorem opsL5_sub : (opsL5 : List (HloOp τ sig (Elt F))).Forall fun op => op.bufs ⊆ tcRefs τ sig :=
  ⟨unary_bufs_sub .., reshape_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub ..⟩

/-- Every operation of the list determines its results. -/
theorem opsL5_fresh : ∀ op ∈ (opsL5 : List (HloOp τ sig (Elt F))), op.fresh = ∅ := by
  intro _ h; (repeat (cases h with | head => rfl | tail _ h => ?_)); exact nomatch h

end Cert.ReferenceIdeal.RefValue

end
-- ==== Proof.RefL5.lean ====
/-
  Layer 5 of the reference read back over any contents of the buffers: after its operations the layer's output buffer
  holds the running x plus the normalised product of slice 5 of the layer-major weights with it, and the layer-major
  weights and the four arguments are as they were.
-/
import proofs.«102972_j63007170233017_2_alg».proof.Proof.RefTabL5
import proofs.«102972_j63007170233017_2_alg».proof.Proof.RefDefs

noncomputable section

namespace Cert.ReferenceIdeal.RefValue

open Cert.ReferenceIdeal Idealize.ShloMosaic Idealize.ShloMosaic.TcCoe Idealize.SL.Sem Idealize.ShloMosaic.StableHlo

variable {F : FTy → Type} [FloatOps F] [Facts]
open Facts₀ Facts

set_option maxRecDepth 8192 in
set_option maxHeartbeats 1000000 in
/-- The output of layer 5: unrolling the fold, each operation's result at its own buffer is its function of its
    operands' contents, and the composed term is `addf x (refNorm γ β (refW5 wt) x)` by unfolding, x the contents of the
    buffer layer 4 wrote. -/
theorem L5_out (V : Valuation τ sig (Elt F)) :
    after opsL5 V (main_v135 : DevRef τ sig)
      = addf (V (main_v113 : DevRef τ sig)) (refNorm (V (main_arg2 : DevRef τ sig)) (V (main_arg3 : DevRef τ sig))
          (refW5 (V (main_v1 : DevRef τ sig))) (V (main_v113 : DevRef τ sig))) := by
  simp only [after_cons, after_nil]
  rfl

set_option maxRecDepth 8192 in
/-- No operation of layer 5 writes the layer-major weights: each leaves a buffer not its own as it was. -/
theorem L5_v1 (V : Valuation τ sig (Elt F)) :
    after opsL5 V (main_v1 : DevRef τ sig) = V (main_v1 : DevRef τ sig) := by
  simp only [after_cons, after_nil]
  rfl

set_option maxRecDepth 8192 in
/-- No operation of layer 5 writes the weights argument. -/
theorem L5_arg0 (V : Valuation τ sig (Elt F)) :
    after opsL5 V (main_arg0 : DevRef τ sig) = V (main_arg0 : DevRef τ sig) := by
  simp only [after_cons, after_nil]
  rfl

set_option maxRecDepth 8192 in
/-- No operation of layer 5 writes the x argument. -/
theorem L5_arg1 (V : Valuation τ sig (Elt F)) :
    after opsL5 V (main_arg1 : DevRef τ sig) = V (main_arg1 : DevRef τ sig) := by
  simp only [after_cons, after_nil]
  rfl

set_option maxRecDepth 8192 in
/-- No operation of layer 5 writes the scale γ. -/
theorem L5_arg2 (V : Valuation τ sig (Elt F)) :
    after opsL5 V (main_arg2 : DevRef τ sig) = V (main_arg2 : DevRef τ sig) := by
  simp only [after_cons, after_nil]
  rfl

set_option maxRecDepth 8192 in
/-- No operation of layer 5 writes the shift β. -/
theorem L5_arg3 (V : Valuation τ sig (Elt F)) :
    after opsL5 V (main_arg3 : DevRef τ sig) = V (main_arg3 : DevRef τ sig) := by
  simp only [after_cons, after_nil]
  rfl

end Cert.ReferenceIdeal.RefValue

end
-- ==== Proof.RefTabL6.lean ====
/-
  The operations of layer 6 of the reference as a list, the helper functions' operations written at their call sites.
-/
import proofs.«102972_j63007170233017_2_alg».proof.ReferenceIdeal
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo

variable {F : FTy → Type} [FloatOps F] [Facts]
open Facts₀ Facts

/-- Layer 6 of the reference, in order: the slice of the layer-major weights at 6 and its reshape to 2048 matrices, the batched product with the running x, the sum over both matrix axes and its quotient by 4096 (the mean), the variance helper's operations (the sum again, the mean, the deviations, their squares, the divisor 4096 − ddof, the quotient kept where the divisor is positive), the deviations from the mean, the variance plus ε, its reciprocal square root, the product, the scale γ and the shift β each repeated over the batch, the clamp below at zero, the sum with the running x. -/
abbrev opsL6 : List (HloOp τ sig (Elt F)) :=
  [ StableHlo.unary main_v1 main_v136 ((extractStridedSlice S1x2048x64x64 ![6, 0, 0, 0] · slices_S8x2048x64x64_S1x2048x64x64_6_0_0_0) : (⟨S8x2048x64x64, .f32⟩ : BufTy).Contents (Elt F) → (⟨S1x2048x64x64, .f32⟩ : BufTy).Contents (Elt F)),
    StableHlo.reshape main_v136 main_v137 rfl shapeCasts_S1x2048x64x64_S2048x64x64,
    StableHlo.binary main_v137 main_v135 main_v138 ((fun l r => Host.dotGeneral dot_S2048x64x64_S2048x64x64_S2048x64x64_2_1_1_2_0_0 none l r) : (⟨S2048x64x64, .f32⟩ : BufTy).Contents (Elt F) → (⟨S2048x64x64, .f32⟩ : BufTy).Contents (Elt F) → (⟨S2048x64x64, .f32⟩ : BufTy).Contents (Elt F)),
    StableHlo.nullary main_cst_22 (constant S_ .f32 0x00000000#32),
    StableHlo.binary main_v138 main_cst_22 main_v139 ((fun x v => Host.reduceAdd x v reducesTo_S2048x64x64_S2048_d1_2 h_S_) : (⟨S2048x64x64, .f32⟩ : BufTy).Contents (Elt F) → (⟨S_, .f32⟩ : BufTy).Contents (Elt F) → (⟨S2048, .f32⟩ : BufTy).Contents (Elt F)),
    StableHlo.unary main_v139 main_v140 (broadcastInDim S2048x1x1 ![0] bcast_S2048_S2048x1x1_0 : (⟨S2048, .f32⟩ : BufTy).Contents (Elt F) → (⟨S2048x1x1, .f32⟩ : BufTy).Contents (Elt F)),
    StableHlo.nullary main_cst_23 (constant S_ .f32 0x45800000#32),
    StableHlo.unary main_cst_23 main_v141 (broadcastInDim S2048x1x1 ![] bcast_S_S2048x1x1 : (⟨S_, .f32⟩ : BufTy).Contents (Elt F) → (⟨S2048x1x1, .f32⟩ : BufTy).Contents (Elt F)),
    StableHlo.binary main_v140 main_v141 main_v142 (Host.divf : (⟨S2048x1x1, .f32⟩ : BufTy).Contents (Elt F) → (⟨S2048x1x1, .f32⟩ : BufTy).Contents (Elt F) → (⟨S2048x1x1, .f32⟩ : BufTy).Contents (Elt F)),
    StableHlo.nullary main_c_24 (constantI S_ 32 0#32),
    StableHlo.TRef.nullary main_call9.cst (constant S_ .f32 0x00000000#32),
    StableHlo.TRef.binary (.of main_v138) main_call9.cst main_call9.v0 (fun x v => Host.reduceAdd x v reducesTo_S2048x64x64_S2048_d1_2 h_S_),
    StableHlo.TRef.unary main_call9.v0 main_call9.v1 (broadcastInDim S2048x1x1 ![0] bcast_S2048_S2048x1x1_0),
    StableHlo.TRef.nullary main_call9.cst_0 (constant S_ .f32 0x45800000#32),
    StableHlo.TRef.unary main_call9.cst_0 main_call9.v2 (broadcastInDim S2048x1x1 ![] bcast_S_S2048x1x1),
    StableHlo.TRef.binary main_call9.v1 main_call9.v2 main_call9.v3 Host.divf,
    StableHlo.TRef.unary main_call9.v3 main_call9.v4 (broadcastInDim S2048x64x64 ![0, 1, 2] bcast_S2048x1x1_S2048x64x64_0_1_2),
    StableHlo.TRef.binary (.of main_v138) main_call9.v4 main_call9.v5 subf,
    StableHlo.TRef.binary main_call9.v5 main_call9.v5 main_call9.v6 mulf,
    StableHlo.TRef.unary (.of main_c_24) main_call9.v7 (sitofp .f32),
    StableHlo.TRef.nullary main_call9.cst_1 (constant S_ .f32 0x45800000#32),
    StableHlo.TRef.binary main_call9.cst_1 main_call9.v7 main_call9.v8 subf,
    StableHlo.TRef.nullary main_call9.cst_2 (constant S_ .f32 0x00000000#32),
    StableHlo.TRef.binary main_call9.v6 main_call9.cst_2 main_call9.v9 (fun x v => Host.reduceAdd x v reducesTo_S2048x64x64_S2048_d1_2 h_S_),
    StableHlo.TRef.unary main_call9.v9 main_call9.v10 (broadcastInDim S2048x1x1 ![0] bcast_S2048_S2048x1x1_0),
    StableHlo.TRef.unary main_call9.v8 main_call9.v11 (broadcastInDim S2048x1x1 ![] bcast_S_S2048x1x1),
    StableHlo.TRef.binary main_call9.v10 main_call9.v11 main_call9.v12 Host.divf,
    StableHlo.TRef.nullary main_call9.cst_3 (constant S_ .f32 0x00000000#32),
    StableHlo.TRef.binary main_call9.v8 main_call9.cst_3 main_call9.v13 (cmpf .ogt),
    StableHlo.TRef.nullary main_call9.cst_4 (constant S_ .f32 0x7FC00000#32),
    StableHlo.TRef.unary main_call9.cst_4 main_call9.call0.v0 id,
    StableHlo.TRef.unary main_call9.call0.v0 main_call9.call0.v1 (broadcastInDim S2048x1x1 ![] bcast_S_S2048x1x1),
    StableHlo.TRef.ternary main_call9.v13 main_call9.v12 main_call9.call0.v1 main_call9.call0.v2 (fun p a b => select (broadcastInDim S2048x1x1 ![] bcast_S_S2048x1x1 p) a b),
    StableHlo.unary main_v142 main_v144 (broadcastInDim S2048x64x64 ![0, 1, 2] bcast_S2048x1x1_S2048x64x64_0_1_2 : (⟨S2048x1x1, .f32⟩ : BufTy).Contents (Elt F) → (⟨S2048x64x64, .f32⟩ : BufTy).Contents (Elt F)),
    StableHlo.binary main_v138 main_v144 main_v145 (subf : (⟨S2048x64x64, .f32⟩ : BufTy).Contents (Elt F) → (⟨S2048x64x64, .f32⟩ : BufTy).Contents (Elt F) → (⟨S2048x64x64, .f32⟩ : BufTy).Contents (Elt F)),
    StableHlo.nullary main_cst_25 (constant S_ .f32 0x3727C5AC#32),
    StableHlo.unary main_cst_25 main_v146 (broadcastInDim S2048x1x1 ![] bcast_S_S2048x1x1 : (⟨S_, .f32⟩ : BufTy).Contents (Elt F) → (⟨S2048x1x1, .f32⟩ : BufTy).Contents (Elt F)),
    StableHlo.binary main_v143 main_v146 main_v147 (addf : (⟨S2048x1x1, .f32⟩ : BufTy).Contents (Elt F) → (⟨S2048x1x1, .f32⟩ : BufTy).Contents (Elt F) → (⟨S2048x1x1, .f32⟩ : BufTy).Contents (Elt F)),
    StableHlo.unary main_v147 main_v148 (Host.rsqrt : (⟨S2048x1x1, .f32⟩ : BufTy).Contents (Elt F) → (⟨S2048x1x1, .f32⟩ : BufTy).Contents (Elt F)),
    StableHlo.unary main_v148 main_v149 (broadcastInDim S2048x64x64 ![0, 1, 2] bcast_S2048x1x1_S2048x64x64_0_1_2 : (⟨S2048x1x1, .f32⟩ : BufTy).Contents (Elt F) → (⟨S2048x64x64, .f32⟩ : BufTy).Contents (Elt F)),
    StableHlo.binary main_v145 main_v149 main_v150 (mulf : (⟨S2048x64x64, .f32⟩ : BufTy).Contents (Elt F) → (⟨S2048x64x64, .f32⟩ : BufTy).Contents (Elt F) → (⟨S2048x64x64, .f32⟩ : BufTy).Contents (Elt F)),
    StableHlo.unary main_arg2 main_v151 (broadcastInDim S1x64x64 ![1, 2] bcast_S64x64_S1x64x64_1_2 : (⟨S64x64, .f32⟩ : BufTy).Contents (Elt F) → (⟨S1x64x64, .f32⟩ : BufTy).Contents (Elt F)),
    StableHlo.unary main_v151 main_v152 (broadcastInDim S2048x64x64 ![0, 1, 2] bcast_S1x64x64_S2048x64x64_0_1_2 : (⟨S1x64x64, .f32⟩ : BufTy).Contents (Elt F) → (⟨S2048x64x64, .f32⟩ : BufTy).Contents (Elt F)),
    StableHlo.binary main_v150 main_v152 main_v153 (mulf : (⟨S2048x64x64, .f32⟩ : BufTy).Contents (Elt F) → (⟨S2048x64x64, .f32⟩ : BufTy).Contents (Elt F) → (⟨S2048x64x64, .f32⟩ : BufTy).Contents (Elt F)),
    StableHlo.unary main_arg3 main_v154 (broadcastInDim S1x64x64 ![1, 2] bcast_S64x64_S1x64x64_1_2 : (⟨S64x64, .f32⟩ : BufTy).Contents (Elt F) → (⟨S1x64x64, .f32⟩ : BufTy).Contents (Elt F)),
    StableHlo.unary main_v154 main_v155 (broadcastInDim S2048x64x64 ![0, 1, 2] bcast_S1x64x64_S2048x64x64_0_1_2 : (⟨S1x64x64, .f32⟩ : BufTy).Contents (Elt F) → (⟨S2048x64x64, .f32⟩ : BufTy).Contents (Elt F)),
    StableHlo.binary main_v153 main_v155 main_v156 (addf : (⟨S2048x64x64, .f32⟩ : BufTy).Contents (Elt F) → (⟨S2048x64x64, .f32⟩ : BufTy).Contents (Elt F) → (⟨S2048x64x64, .f32⟩ : BufTy).Contents (Elt F)),
    StableHlo.TRef.nullary main_call10.cst (constant S_ .f32 0x00000000#32),
    StableHlo.TRef.unary main_call10.cst main_call10.v0 (broadcastInDim S2048x64x64 ![] bcast_S_S2048x64x64),
    StableHlo.TRef.binary (.of main_v156) main_call10.v0 main_call10.v1 maximumf,
    StableHlo.binary main_v135 main_v157 main_v158 (addf : (⟨S2048x64x64, .f32⟩ : BufTy).Contents (Elt F) → (⟨S2048x64x64, .f32⟩ : BufTy).Contents (Elt F) → (⟨S2048x64x64, .f32⟩ : BufTy).Contents (Elt F)) ]

/-- Every operation of the list touches TensorCore references only. -/
theorem opsL6_sub : (opsL6 : List (HloOp τ sig (Elt F))).Forall fun op => op.bufs ⊆ tcRefs τ sig :=
  ⟨unary_bufs_sub .., reshape_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub ..⟩

/-- Every operation of the list determines its results. -/
theorem opsL6_fresh : ∀ op ∈ (opsL6 : List (HloOp τ sig (Elt F))), op.fresh = ∅ := by
  intro _ h; (repeat (cases h with | head => rfl | tail _ h => ?_)); exact nomatch h

end Cert.ReferenceIdeal.RefValue

end
-- ==== Proof.RefL6.lean ====
/-
  Layer 6 of the reference read back over any contents of the buffers: after its operations the layer's output buffer
  holds the running x plus the clamped, normalised product of slice 6 of the layer-major weights with it, and the
  layer-major weights and the four arguments are as they were.
-/
import proofs.«102972_j63007170233017_2_alg».proof.Proof.RefTabL6
import proofs.«102972_j63007170233017_2_alg».proof.Proof.RefDefs

noncomputable section

namespace Cert.ReferenceIdeal.RefValue

open Cert.ReferenceIdeal Idealize.ShloMosaic Idealize.ShloMosaic.TcCoe Idealize.SL.Sem Idealize.ShloMosaic.StableHlo

variable {F : FTy → Type} [FloatOps F] [Facts]
open Facts₀ Facts

set_option maxRecDepth 8192 in
set_option maxHeartbeats 1000000 in
/-- The output of layer 6: unrolling the fold, each operation's result at its own buffer is its function of its
    operands' contents, and the composed term is `addf x (refRelu (refNorm γ β (refW6 wt) x))` by unfolding, x the
    contents of the buffer layer 5 wrote. -/
theorem L6_out (V : Valuation τ sig (Elt F)) :
    after opsL6 V (main_v158 : DevRef τ sig)
      = addf (V (main_v135 : DevRef τ sig)) (refRelu (refNorm (V (main_arg2 : DevRef τ sig)) (V (main_arg3 : DevRef τ sig))
          (refW6 (V (main_v1 : DevRef τ sig))) (V (main_v135 : DevRef τ sig)))) := by
  simp only [after_cons, after_nil]
  rfl

set_option maxRecDepth 8192 in
/-- No operation of layer 6 writes the layer-major weights: each leaves a buffer not its own as it was. -/
theorem L6_v1 (V : Valuation τ sig (Elt F)) :
    after opsL6 V (main_v1 : DevRef τ sig) = V (main_v1 : DevRef τ sig) := by
  simp only [after_cons, after_nil]
  rfl

set_option maxRecDepth 8192 in
/-- No operation of layer 6 writes the weights argument. -/
theorem L6_arg0 (V : Valuation τ sig (Elt F)) :
    after opsL6 V (main_arg0 : DevRef τ sig) = V (main_arg0 : DevRef τ sig) := by
  simp only [after_cons, after_nil]
  rfl

set_option maxRecDepth 8192 in
/-- No operation of layer 6 writes the x argument. -/
theorem L6_arg1 (V : Valuation τ sig (Elt F)) :
    after opsL6 V (main_arg1 : DevRef τ sig) = V (main_arg1 : DevRef τ sig) := by
  simp only [after_cons, after_nil]
  rfl

set_option maxRecDepth 8192 in
/-- No operation of layer 6 writes the scale γ. -/
theorem L6_arg2 (V : Valuation τ sig (Elt F)) :
    after opsL6 V (main_arg2 : DevRef τ sig) = V (main_arg2 : DevRef τ sig) := by
  simp only [after_cons, after_nil]
  rfl

set_option maxRecDepth 8192 in
/-- No operation of layer 6 writes the shift β. -/
theorem L6_arg3 (V : Valuation τ sig (Elt F)) :
    after opsL6 V (main_arg3 : DevRef τ sig) = V (main_arg3 : DevRef τ sig) := by
  simp only [after_cons, after_nil]
  rfl

end Cert.ReferenceIdeal.RefValue

end
-- ==== Proof.RefTabL7.lean ====
/-
  The operations of layer 7 of the reference as a list, the helper functions' operations written at their call sites.
-/
import proofs.«102972_j63007170233017_2_alg».proof.ReferenceIdeal
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo

variable {F : FTy → Type} [FloatOps F] [Facts]
open Facts₀ Facts

/-- Layer 7 of the reference, in order: the slice of the layer-major weights at 7 and its reshape to 2048 matrices, the batched product with the running x, the sum over both matrix axes and its quotient by 4096 (the mean), the variance helper's operations (the sum again, the mean, the deviations, their squares, the divisor 4096 − ddof, the quotient kept where the divisor is positive), the deviations from the mean, the variance plus ε, its reciprocal square root, the product, the scale γ and the shift β each repeated over the batch, the sum with the running x. -/
abbrev opsL7 : List (HloOp τ sig (Elt F)) :=
  [ StableHlo.unary main_v1 main_v159 ((extractStridedSlice S1x2048x64x64 ![7, 0, 0, 0] · slices_S8x2048x64x64_S1x2048x64x64_7_0_0_0) : (⟨S8x2048x64x64, .f32⟩ : BufTy).Contents (Elt F) → (⟨S1x2048x64x64, .f32⟩ : BufTy).Contents (Elt F)),
    StableHlo.reshape main_v159 main_v160 rfl shapeCasts_S1x2048x64x64_S2048x64x64,
    StableHlo.binary main_v160 main_v158 main_v161 ((fun l r => Host.dotGeneral dot_S2048x64x64_S2048x64x64_S2048x64x64_2_1_1_2_0_0 none l r) : (⟨S2048x64x64, .f32⟩ : BufTy).Contents (Elt F) → (⟨S2048x64x64, .f32⟩ : BufTy).Contents (Elt F) → (⟨S2048x64x64, .f32⟩ : BufTy).Contents (Elt F)),
    StableHlo.nullary main_cst_26 (constant S_ .f32 0x00000000#32),
    StableHlo.binary main_v161 main_cst_26 main_v162 ((fun x v => Host.reduceAdd x v reducesTo_S2048x64x64_S2048_d1_2 h_S_) : (⟨S2048x64x64, .f32⟩ : BufTy).Contents (Elt F) → (⟨S_, .f32⟩ : BufTy).Contents (Elt F) → (⟨S2048, .f32⟩ : BufTy).Contents (Elt F)),
    StableHlo.unary main_v162 main_v163 (broadcastInDim S2048x1x1 ![0] bcast_S2048_S2048x1x1_0 : (⟨S2048, .f32⟩ : BufTy).Contents (Elt F) → (⟨S2048x1x1, .f32⟩ : BufTy).Contents (Elt F)),
    StableHlo.nullary main_cst_27 (constant S_ .f32 0x45800000#32),
    StableHlo.unary main_cst_27 main_v164 (broadcastInDim S2048x1x1 ![] bcast_S_S2048x1x1 : (⟨S_, .f32⟩ : BufTy).Contents (Elt F) → (⟨S2048x1x1, .f32⟩ : BufTy).Contents (Elt F)),
    StableHlo.binary main_v163 main_v164 main_v165 (Host.divf : (⟨S2048x1x1, .f32⟩ : BufTy).Contents (Elt F) → (⟨S2048x1x1, .f32⟩ : BufTy).Contents (Elt F) → (⟨S2048x1x1, .f32⟩ : BufTy).Contents (Elt F)),
    StableHlo.nullary main_c_28 (constantI S_ 32 0#32),
    StableHlo.TRef.nullary main_call11.cst (constant S_ .f32 0x00000000#32),
    StableHlo.TRef.binary (.of main_v161) main_call11.cst main_call11.v0 (fun x v => Host.reduceAdd x v reducesTo_S2048x64x64_S2048_d1_2 h_S_),
    StableHlo.TRef.unary main_call11.v0 main_call11.v1 (broadcastInDim S2048x1x1 ![0] bcast_S2048_S2048x1x1_0),
    StableHlo.TRef.nullary main_call11.cst_0 (constant S_ .f32 0x45800000#32),
    StableHlo.TRef.unary main_call11.cst_0 main_call11.v2 (broadcastInDim S2048x1x1 ![] bcast_S_S2048x1x1),
    StableHlo.TRef.binary main_call11.v1 main_call11.v2 main_call11.v3 Host.divf,
    StableHlo.TRef.unary main_call11.v3 main_call11.v4 (broadcastInDim S2048x64x64 ![0, 1, 2] bcast_S2048x1x1_S2048x64x64_0_1_2),
    StableHlo.TRef.binary (.of main_v161) main_call11.v4 main_call11.v5 subf,
    StableHlo.TRef.binary main_call11.v5 main_call11.v5 main_call11.v6 mulf,
    StableHlo.TRef.unary (.of main_c_28) main_call11.v7 (sitofp .f32),
    StableHlo.TRef.nullary main_call11.cst_1 (constant S_ .f32 0x45800000#32),
    StableHlo.TRef.binary main_call11.cst_1 main_call11.v7 main_call11.v8 subf,
    StableHlo.TRef.nullary main_call11.cst_2 (constant S_ .f32 0x00000000#32),
    StableHlo.TRef.binary main_call11.v6 main_call11.cst_2 main_call11.v9 (fun x v => Host.reduceAdd x v reducesTo_S2048x64x64_S2048_d1_2 h_S_),
    StableHlo.TRef.unary main_call11.v9 main_call11.v10 (broadcastInDim S2048x1x1 ![0] bcast_S2048_S2048x1x1_0),
    StableHlo.TRef.unary main_call11.v8 main_call11.v11 (broadcastInDim S2048x1x1 ![] bcast_S_S2048x1x1),
    StableHlo.TRef.binary main_call11.v10 main_call11.v11 main_call11.v12 Host.divf,
    StableHlo.TRef.nullary main_call11.cst_3 (constant S_ .f32 0x00000000#32),
    StableHlo.TRef.binary main_call11.v8 main_call11.cst_3 main_call11.v13 (cmpf .ogt),
    StableHlo.TRef.nullary main_call11.cst_4 (constant S_ .f32 0x7FC00000#32),
    StableHlo.TRef.unary main_call11.cst_4 main_call11.call0.v0 id,
    StableHlo.TRef.unary main_call11.call0.v0 main_call11.call0.v1 (broadcastInDim S2048x1x1 ![] bcast_S_S2048x1x1),
    StableHlo.TRef.ternary main_call11.v13 main_call11.v12 main_call11.call0.v1 main_call11.call0.v2 (fun p a b => select (broadcastInDim S2048x1x1 ![] bcast_S_S2048x1x1 p) a b),
    StableHlo.unary main_v165 main_v167 (broadcastInDim S2048x64x64 ![0, 1, 2] bcast_S2048x1x1_S2048x64x64_0_1_2 : (⟨S2048x1x1, .f32⟩ : BufTy).Contents (Elt F) → (⟨S2048x64x64, .f32⟩ : BufTy).Contents (Elt F)),
    StableHlo.binary main_v161 main_v167 main_v168 (subf : (⟨S2048x64x64, .f32⟩ : BufTy).Contents (Elt F) → (⟨S2048x64x64, .f32⟩ : BufTy).Contents (Elt F) → (⟨S2048x64x64, .f32⟩ : BufTy).Contents (Elt F)),
    StableHlo.nullary main_cst_29 (constant S_ .f32 0x3727C5AC#32),
    StableHlo.unary main_cst_29 main_v169 (broadcastInDim S2048x1x1 ![] bcast_S_S2048x1x1 : (⟨S_, .f32⟩ : BufTy).Contents (Elt F) → (⟨S2048x1x1, .f32⟩ : BufTy).Contents (Elt F)),
    StableHlo.binary main_v166 main_v169 main_v170 (addf : (⟨S2048x1x1, .f32⟩ : BufTy).Contents (Elt F) → (⟨S2048x1x1, .f32⟩ : BufTy).Contents (Elt F) → (⟨S2048x1x1, .f32⟩ : BufTy).Contents (Elt F)),
    StableHlo.unary main_v170 main_v171 (Host.rsqrt : (⟨S2048x1x1, .f32⟩ : BufTy).Contents (Elt F) → (⟨S2048x1x1, .f32⟩ : BufTy).Contents (Elt F)),
    StableHlo.unary main_v171 main_v172 (broadcastInDim S2048x64x64 ![0, 1, 2] bcast_S2048x1x1_S2048x64x64_0_1_2 : (⟨S2048x1x1, .f32⟩ : BufTy).Contents (Elt F) → (⟨S2048x64x64, .f32⟩ : BufTy).Contents (Elt F)),
    StableHlo.binary main_v168 main_v172 main_v173 (mulf : (⟨S2048x64x64, .f32⟩ : BufTy).Contents (Elt F) → (⟨S2048x64x64, .f32⟩ : BufTy).Contents (Elt F) → (⟨S2048x64x64, .f32⟩ : BufTy).Contents (Elt F)),
    StableHlo.unary main_arg2 main_v174 (broadcastInDim S1x64x64 ![1, 2] bcast_S64x64_S1x64x64_1_2 : (⟨S64x64, .f32⟩ : BufTy).Contents (Elt F) → (⟨S1x64x64, .f32⟩ : BufTy).Contents (Elt F)),
    StableHlo.unary main_v174 main_v175 (broadcastInDim S2048x64x64 ![0, 1, 2] bcast_S1x64x64_S2048x64x64_0_1_2 : (⟨S1x64x64, .f32⟩ : BufTy).Contents (Elt F) → (⟨S2048x64x64, .f32⟩ : BufTy).Contents (Elt F)),
    StableHlo.binary main_v173 main_v175 main_v176 (mulf : (⟨S2048x64x64, .f32⟩ : BufTy).Contents (Elt F) → (⟨S2048x64x64, .f32⟩ : BufTy).Contents (Elt F) → (⟨S2048x64x64, .f32⟩ : BufTy).Contents (Elt F)),
    StableHlo.unary main_arg3 main_v177 (broadcastInDim S1x64x64 ![1, 2] bcast_S64x64_S1x64x64_1_2 : (⟨S64x64, .f32⟩ : BufTy).Contents (Elt F) → (⟨S1x64x64, .f32⟩ : BufTy).Contents (Elt F)),
    StableHlo.unary main_v177 main_v178 (broadcastInDim S2048x64x64 ![0, 1, 2] bcast_S1x64x64_S2048x64x64_0_1_2 : (⟨S1x64x64, .f32⟩ : BufTy).Contents (Elt F) → (⟨S2048x64x64, .f32⟩ : BufTy).Contents (Elt F)),
    StableHlo.binary main_v176 main_v178 main_v179 (addf : (⟨S2048x64x64, .f32⟩ : BufTy).Contents (Elt F) → (⟨S2048x64x64, .f32⟩ : BufTy).Contents (Elt F) → (⟨S2048x64x64, .f32⟩ : BufTy).Contents (Elt F)),
    StableHlo.binary main_v158 main_v179 main_v180 (addf : (⟨S2048x64x64, .f32⟩ : BufTy).Contents (Elt F) → (⟨S2048x64x64, .f32⟩ : BufTy).Contents (Elt F) → (⟨S2048x64x64, .f32⟩ : BufTy).Contents (Elt F)) ]

/-- Every operation of the list touches TensorCore references only. -/
theorem opsL7_sub : (opsL7 : List (HloOp τ sig (Elt F))).Forall fun op => op.bufs ⊆ tcRefs τ sig :=
  ⟨unary_bufs_sub .., reshape_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub ..⟩

/-- Every operation of the list determines its results. -/
theorem opsL7_fresh : ∀ op ∈ (opsL7 : List (HloOp τ sig (Elt F))), op.fresh = ∅ := by
  intro _ h; (repeat (cases h with | head => rfl | tail _ h => ?_)); exact nomatch h

end Cert.ReferenceIdeal.RefValue

end
-- ==== Proof.RefL7.lean ====
/-
  Layer 7 of the reference read back over any contents of the buffers: after its operations the result buffer holds the
  running x plus the normalised product of slice 7 of the layer-major weights with it, and the layer-major weights and the
  four arguments are as they were.
-/
import proofs.«102972_j63007170233017_2_alg».proof.Proof.RefTabL7
import proofs.«102972_j63007170233017_2_alg».proof.Proof.RefDefs

noncomputable section

namespace Cert.ReferenceIdeal.RefValue

open Cert.ReferenceIdeal Idealize.ShloMosaic Idealize.ShloMosaic.TcCoe Idealize.SL.Sem Idealize.ShloMosaic.StableHlo

variable {F : FTy → Type} [FloatOps F] [Facts]
open Facts₀ Facts

set_option maxRecDepth 8192 in
set_option maxHeartbeats 1000000 in
/-- The output of layer 7, the program's result: unrolling the fold, each operation's result at its own buffer is its
    function of its operands' contents, and the composed term is `addf x (refNorm γ β (refW7 wt) x)` by unfolding, x the
    contents of the buffer layer 6 wrote. -/
theorem L7_out (V : Valuation τ sig (Elt F)) :
    after opsL7 V (main_v180 : DevRef τ sig)
      = addf (V (main_v158 : DevRef τ sig)) (refNorm (V (main_arg2 : DevRef τ sig)) (V (main_arg3 : DevRef τ sig))
          (refW7 (V (main_v1 : DevRef τ sig))) (V (main_v158 : DevRef τ sig))) := by
  simp only [after_cons, after_nil]
  rfl

set_option maxRecDepth 8192 in
/-- No operation of layer 7 writes the layer-major weights: each leaves a buffer not its own as it was. -/
theorem L7_v1 (V : Valuation τ sig (Elt F)) :
    after opsL7 V (main_v1 : DevRef τ sig) = V (main_v1 : DevRef τ sig) := by
  simp only [after_cons, after_nil]
  rfl

set_option maxRecDepth 8192 in
/-- No operation of layer 7 writes the weights argument. -/
theorem L7_arg0 (V : Valuation τ sig (Elt F)) :
    after opsL7 V (main_arg0 : DevRef τ sig) = V (main_arg0 : DevRef τ sig) := by
  simp only [after_cons, after_nil]
  rfl

set_option maxRecDepth 8192 in
/-- No operation of layer 7 writes the x argument. -/
theorem L7_arg1 (V : Valuation τ sig (Elt F)) :
    after opsL7 V (main_arg1 : DevRef τ sig) = V (main_arg1 : DevRef τ sig) := by
  simp only [after_cons, after_nil]
  rfl

set_option maxRecDepth 8192 in
/-- No operation of layer 7 writes the scale γ. -/
theorem L7_arg2 (V : Valuation τ sig (Elt F)) :
    after opsL7 V (main_arg2 : DevRef τ sig) = V (main_arg2 : DevRef τ sig) := by
  simp only [after_cons, after_nil]
  rfl

set_option maxRecDepth 8192 in
/-- No operation of layer 7 writes the shift β. -/
theorem L7_arg3 (V : Valuation τ sig (Elt F)) :
    after opsL7 V (main_arg3 : DevRef τ sig) = V (main_arg3 : DevRef τ sig) := by
  simp only [after_cons, after_nil]
  rfl

end Cert.ReferenceIdeal.RefValue

end
-- ==== Proof.RefTabW0.lean ====
/-
  The operations of the reference's window 0 (as the program is printed, in consecutive windows) as a list, the helper functions' operations written at their call sites.
-/
import proofs.«102972_j63007170233017_2_alg».proof.ReferenceIdeal
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo

variable {F : FTy → Type} [FloatOps F] [Facts]
open Facts₀ Facts

/-- Window 0's operations, in order. -/
abbrev opsW0 : List (HloOp τ sig (Elt F)) :=
  [ StableHlo.reshape main_arg0 main_v0 rfl shapeCasts_S2048x32768_S2048x8x64x64,
    StableHlo.unary main_v0 main_v1 ((transpose S8x2048x64x64 [1, 0, 2, 3] · transposes_S2048x8x64x64_S8x2048x64x64_1_0_2_3) : (⟨S2048x8x64x64, .f32⟩ : BufTy).Contents (Elt F) → (⟨S8x2048x64x64, .f32⟩ : BufTy).Contents (Elt F)),
    StableHlo.unary main_v1 main_v2 ((extractStridedSlice S1x2048x64x64 ![0, 0, 0, 0] · slices_S8x2048x64x64_S1x2048x64x64_0_0_0_0) : (⟨S8x2048x64x64, .f32⟩ : BufTy).Contents (Elt F) → (⟨S1x2048x64x64, .f32⟩ : BufTy).Contents (Elt F)),
    StableHlo.reshape main_v2 main_v3 rfl shapeCasts_S1x2048x64x64_S2048x64x64,
    StableHlo.binary main_v3 main_arg1 main_v4 ((fun l r => Host.dotGeneral dot_S2048x64x64_S2048x64x64_S2048x64x64_2_1_1_2_0_0 none l r) : (⟨S2048x64x64, .f32⟩ : BufTy).Contents (Elt F) → (⟨S2048x64x64, .f32⟩ : BufTy).Contents (Elt F) → (⟨S2048x64x64, .f32⟩ : BufTy).Contents (Elt F)),
    StableHlo.nullary main_cst (constant S_ .f32 0x00000000#32),
    StableHlo.binary main_v4 main_cst main_v5 ((fun x v => Host.reduceAdd x v reducesTo_S2048x64x64_S2048_d1_2 h_S_) : (⟨S2048x64x64, .f32⟩ : BufTy).Contents (Elt F) → (⟨S_, .f32⟩ : BufTy).Contents (Elt F) → (⟨S2048, .f32⟩ : BufTy).Contents (Elt F)),
    StableHlo.unary main_v5 main_v6 (broadcastInDim S2048x1x1 ![0] bcast_S2048_S2048x1x1_0 : (⟨S2048, .f32⟩ : BufTy).Contents (Elt F) → (⟨S2048x1x1, .f32⟩ : BufTy).Contents (Elt F)),
    StableHlo.nullary main_cst_0 (constant S_ .f32 0x45800000#32),
    StableHlo.unary main_cst_0 main_v7 (broadcastInDim S2048x1x1 ![] bcast_S_S2048x1x1 : (⟨S_, .f32⟩ : BufTy).Contents (Elt F) → (⟨S2048x1x1, .f32⟩ : BufTy).Contents (Elt F)),
    StableHlo.binary main_v6 main_v7 main_v8 (Host.divf : (⟨S2048x1x1, .f32⟩ : BufTy).Contents (Elt F) → (⟨S2048x1x1, .f32⟩ : BufTy).Contents (Elt F) → (⟨S2048x1x1, .f32⟩ : BufTy).Contents (Elt F)),
    StableHlo.nullary main_c (constantI S_ 32 0#32),
    StableHlo.TRef.nullary main_call0.cst (constant S_ .f32 0x00000000#32),
    StableHlo.TRef.binary (.of main_v4) main_call0.cst main_call0.v0 (fun x v => Host.reduceAdd x v reducesTo_S2048x64x64_S2048_d1_2 h_S_),
    StableHlo.TRef.unary main_call0.v0 main_call0.v1 (broadcastInDim S2048x1x1 ![0] bcast_S2048_S2048x1x1_0),
    StableHlo.TRef.nullary main_call0.cst_0 (constant S_ .f32 0x45800000#32),
    StableHlo.TRef.unary main_call0.cst_0 main_call0.v2 (broadcastInDim S2048x1x1 ![] bcast_S_S2048x1x1),
    StableHlo.TRef.binary main_call0.v1 main_call0.v2 main_call0.v3 Host.divf,
    StableHlo.TRef.unary main_call0.v3 main_call0.v4 (broadcastInDim S2048x64x64 ![0, 1, 2] bcast_S2048x1x1_S2048x64x64_0_1_2),
    StableHlo.TRef.binary (.of main_v4) main_call0.v4 main_call0.v5 subf,
    StableHlo.TRef.binary main_call0.v5 main_call0.v5 main_call0.v6 mulf,
    StableHlo.TRef.unary (.of main_c) main_call0.v7 (sitofp .f32),
    StableHlo.TRef.nullary main_call0.cst_1 (constant S_ .f32 0x45800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S2048x64x64_S2048_d1_2 h_S_),
    StableHlo.TRef.unary main_call0.v9 main_call0.v10 (broadcastInDim S2048x1x1 ![0] bcast_S2048_S2048x1x1_0),
    StableHlo.TRef.unary main_call0.v8 main_call0.v11 (broadcastInDim S2048x1x1 ![] bcast_S_S2048x1x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S2048x1x1 ![] bcast_S_S2048x1x1),
    StableHlo.TRef.ternary main_call0.v13 main_call0.v12 main_call0.call0.v1 main_call0.call0.v2 (fun p a b => select (broadcastInDim S2048x1x1 ![] bcast_S_S2048x1x1 p) a b),
    StableHlo.unary main_v8 main_v10 (broadcastInDim S2048x64x64 ![0, 1, 2] bcast_S2048x1x1_S2048x64x64_0_1_2 : (⟨S2048x1x1, .f32⟩ : BufTy).Contents (Elt F) → (⟨S2048x64x64, .f32⟩ : BufTy).Contents (Elt F)),
    StableHlo.binary main_v4 main_v10 main_v11 (subf : (⟨S2048x64x64, .f32⟩ : BufTy).Contents (Elt F) → (⟨S2048x64x64, .f32⟩ : BufTy).Contents (Elt F) → (⟨S2048x64x64, .f32⟩ : BufTy).Contents (Elt F)),
    StableHlo.nullary main_cst_1 (constant S_ .f32 0x3727C5AC#32),
    StableHlo.unary main_cst_1 main_v12 (broadcastInDim S2048x1x1 ![] bcast_S_S2048x1x1 : (⟨S_, .f32⟩ : BufTy).Contents (Elt F) → (⟨S2048x1x1, .f32⟩ : BufTy).Contents (Elt F)),
    StableHlo.binary main_v9 main_v12 main_v13 (addf : (⟨S2048x1x1, .f32⟩ : BufTy).Contents (Elt F) → (⟨S2048x1x1, .f32⟩ : BufTy).Contents (Elt F) → (⟨S2048x1x1, .f32⟩ : BufTy).Contents (Elt F)),
    StableHlo.unary main_v13 main_v14 (Host.rsqrt : (⟨S2048x1x1, .f32⟩ : BufTy).Contents (Elt F) → (⟨S2048x1x1, .f32⟩ : BufTy).Contents (Elt F)),
    StableHlo.unary main_v14 main_v15 (broadcastInDim S2048x64x64 ![0, 1, 2] bcast_S2048x1x1_S2048x64x64_0_1_2 : (⟨S2048x1x1, .f32⟩ : BufTy).Contents (Elt F) → (⟨S2048x64x64, .f32⟩ : BufTy).Contents (Elt F)),
    StableHlo.binary main_v11 main_v15 main_v16 (mulf : (⟨S2048x64x64, .f32⟩ : BufTy).Contents (Elt F) → (⟨S2048x64x64, .f32⟩ : BufTy).Contents (Elt F) → (⟨S2048x64x64, .f32⟩ : BufTy).Contents (Elt F)),
    StableHlo.unary main_arg2 main_v17 (broadcastInDim S1x64x64 ![1, 2] bcast_S64x64_S1x64x64_1_2 : (⟨S64x64, .f32⟩ : BufTy).Contents (Elt F) → (⟨S1x64x64, .f32⟩ : BufTy).Contents (Elt F)),
    StableHlo.unary main_v17 main_v18 (broadcastInDim S2048x64x64 ![0, 1, 2] bcast_S1x64x64_S2048x64x64_0_1_2 : (⟨S1x64x64, .f32⟩ : BufTy).Contents (Elt F) → (⟨S2048x64x64, .f32⟩ : BufTy).Contents (Elt F)),
    StableHlo.binary main_v16 main_v18 main_v19 (mulf : (⟨S2048x64x64, .f32⟩ : BufTy).Contents (Elt F) → (⟨S2048x64x64, .f32⟩ : BufTy).Contents (Elt F) → (⟨S2048x64x64, .f32⟩ : BufTy).Contents (Elt F)),
    StableHlo.unary main_arg3 main_v20 (broadcastInDim S1x64x64 ![1, 2] bcast_S64x64_S1x64x64_1_2 : (⟨S64x64, .f32⟩ : BufTy).Contents (Elt F) → (⟨S1x64x64, .f32⟩ : BufTy).Contents (Elt F)),
    StableHlo.unary main_v20 main_v21 (broadcastInDim S2048x64x64 ![0, 1, 2] bcast_S1x64x64_S2048x64x64_0_1_2 : (⟨S1x64x64, .f32⟩ : BufTy).Contents (Elt F) → (⟨S2048x64x64, .f32⟩ : BufTy).Contents (Elt F)),
    StableHlo.binary main_v19 main_v21 main_v22 (addf : (⟨S2048x64x64, .f32⟩ : BufTy).Contents (Elt F) → (⟨S2048x64x64, .f32⟩ : BufTy).Contents (Elt F) → (⟨S2048x64x64, .f32⟩ : BufTy).Contents (Elt F)),
    StableHlo.TRef.nullary main_call1.cst (constant S_ .f32 0x00000000#32),
    StableHlo.TRef.unary main_call1.cst main_call1.v0 (broadcastInDim S2048x64x64 ![] bcast_S_S2048x64x64),
    StableHlo.TRef.binary (.of main_v22) main_call1.v0 main_call1.v1 maximumf,
    StableHlo.unary main_v1 main_v24 ((extractStridedSlice S1x2048x64x64 ![1, 0, 0, 0] · slices_S8x2048x64x64_S1x2048x64x64_1_0_0_0) : (⟨S8x2048x64x64, .f32⟩ : BufTy).Contents (Elt F) → (⟨S1x2048x64x64, .f32⟩ : BufTy).Contents (Elt F)),
    StableHlo.reshape main_v24 main_v25 rfl shapeCasts_S1x2048x64x64_S2048x64x64,
    StableHlo.binary main_v25 main_v23 main_v26 ((fun l r => Host.dotGeneral dot_S2048x64x64_S2048x64x64_S2048x64x64_2_1_1_2_0_0 none l r) : (⟨S2048x64x64, .f32⟩ : BufTy).Contents (Elt F) → (⟨S2048x64x64, .f32⟩ : BufTy).Contents (Elt F) → (⟨S2048x64x64, .f32⟩ : BufTy).Contents (Elt F)),
    StableHlo.nullary main_cst_2 (constant S_ .f32 0x00000000#32),
    StableHlo.binary main_v26 main_cst_2 main_v27 ((fun x v => Host.reduceAdd x v reducesTo_S2048x64x64_S2048_d1_2 h_S_) : (⟨S2048x64x64, .f32⟩ : BufTy).Contents (Elt F) → (⟨S_, .f32⟩ : BufTy).Contents (Elt F) → (⟨S2048, .f32⟩ : BufTy).Contents (Elt F)),
    StableHlo.unary main_v27 main_v28 (broadcastInDim S2048x1x1 ![0] bcast_S2048_S2048x1x1_0 : (⟨S2048, .f32⟩ : BufTy).Contents (Elt F) → (⟨S2048x1x1, .f32⟩ : BufTy).Contents (Elt F)),
    StableHlo.nullary main_cst_3 (constant S_ .f32 0x45800000#32),
    StableHlo.unary main_cst_3 main_v29 (broadcastInDim S2048x1x1 ![] bcast_S_S2048x1x1 : (⟨S_, .f32⟩ : BufTy).Contents (Elt F) → (⟨S2048x1x1, .f32⟩ : BufTy).Contents (Elt F)),
    StableHlo.binary main_v28 main_v29 main_v30 (Host.divf : (⟨S2048x1x1, .f32⟩ : BufTy).Contents (Elt F) → (⟨S2048x1x1, .f32⟩ : BufTy).Contents (Elt F) → (⟨S2048x1x1, .f32⟩ : BufTy).Contents (Elt F)),
    StableHlo.nullary main_c_4 (constantI S_ 32 0#32),
    StableHlo.TRef.nullary main_call2.cst (constant S_ .f32 0x00000000#32),
    StableHlo.TRef.binary (.of main_v26) main_call2.cst main_call2.v0 (fun x v => Host.reduceAdd x v reducesTo_S2048x64x64_S2048_d1_2 h_S_),
    StableHlo.TRef.unary main_call2.v0 main_call2.v1 (broadcastInDim S2048x1x1 ![0] bcast_S2048_S2048x1x1_0),
    StableHlo.TRef.nullary main_call2.cst_0 (constant S_ .f32 0x45800000#32),
    StableHlo.TRef.unary main_call2.cst_0 main_call2.v2 (broadcastInDim S2048x1x1 ![] bcast_S_S2048x1x1),
    StableHlo.TRef.binary main_call2.v1 main_call2.v2 main_call2.v3 Host.divf,
    StableHlo.TRef.unary main_call2.v3 main_call2.v4 (broadcastInDim S2048x64x64 ![0, 1, 2] bcast_S2048x1x1_S2048x64x64_0_1_2),
    StableHlo.TRef.binary (.of main_v26) main_call2.v4 main_call2.v5 subf,
    StableHlo.TRef.binary main_call2.v5 main_call2.v5 main_call2.v6 mulf,
    StableHlo.TRef.unary (.of main_c_4) main_call2.v7 (sitofp .f32),
    StableHlo.TRef.nullary main_call2.cst_1 (constant S_ .f32 0x45800000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S2048x64x64_S2048_d1_2 h_S_),
    StableHlo.TRef.unary main_call2.v9 main_call2.v10 (broadcastInDim S2048x1x1 ![0] bcast_S2048_S2048x1x1_0),
    StableHlo.TRef.unary main_call2.v8 main_call2.v11 (broadcastInDim S2048x1x1 ![] bcast_S_S2048x1x1),
    StableHlo.TRef.binary main_call2.v10 main_call2.v11 main_call2.v12 Host.divf,
    StableHlo.TRef.nullary main_call2.cst_3 (constant S_ .f32 0x00000000#32),
    StableHlo.TRef.binary main_call2.v8 main_call2.cst_3 main_call2.v13 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S2048x1x1 ![] bcast_S_S2048x1x1),
    StableHlo.TRef.ternary main_call2.v13 main_call2.v12 main_call2.call0.v1 main_call2.call0.v2 (fun p a b => select (broadcastInDim S2048x1x1 ![] bcast_S_S2048x1x1 p) a b),
    StableHlo.unary main_v30 main_v32 (broadcastInDim S2048x64x64 ![0, 1, 2] bcast_S2048x1x1_S2048x64x64_0_1_2 : (⟨S2048x1x1, .f32⟩ : BufTy).Contents (Elt F) → (⟨S2048x64x64, .f32⟩ : BufTy).Contents (Elt F)),
    StableHlo.binary main_v26 main_v32 main_v33 (subf : (⟨S2048x64x64, .f32⟩ : BufTy).Contents (Elt F) → (⟨S2048x64x64, .f32⟩ : BufTy).Contents (Elt F) → (⟨S2048x64x64, .f32⟩ : BufTy).Contents (Elt F)),
    StableHlo.nullary main_cst_5 (constant S_ .f32 0x3727C5AC#32),
    StableHlo.unary main_cst_5 main_v34 (broadcastInDim S2048x1x1 ![] bcast_S_S2048x1x1 : (⟨S_, .f32⟩ : BufTy).Contents (Elt F) → (⟨S2048x1x1, .f32⟩ : BufTy).Contents (Elt F)),
    StableHlo.binary main_v31 main_v34 main_v35 (addf : (⟨S2048x1x1, .f32⟩ : BufTy).Contents (Elt F) → (⟨S2048x1x1, .f32⟩ : BufTy).Contents (Elt F) → (⟨S2048x1x1, .f32⟩ : BufTy).Contents (Elt F)),
    StableHlo.unary main_v35 main_v36 (Host.rsqrt : (⟨S2048x1x1, .f32⟩ : BufTy).Contents (Elt F) → (⟨S2048x1x1, .f32⟩ : BufTy).Contents (Elt F)),
    StableHlo.unary main_v36 main_v37 (broadcastInDim S2048x64x64 ![0, 1, 2] bcast_S2048x1x1_S2048x64x64_0_1_2 : (⟨S2048x1x1, .f32⟩ : BufTy).Contents (Elt F) → (⟨S2048x64x64, .f32⟩ : BufTy).Contents (Elt F)),
    StableHlo.binary main_v33 main_v37 main_v38 (mulf : (⟨S2048x64x64, .f32⟩ : BufTy).Contents (Elt F) → (⟨S2048x64x64, .f32⟩ : BufTy).Contents (Elt F) → (⟨S2048x64x64, .f32⟩ : BufTy).Contents (Elt F)),
    StableHlo.unary main_arg2 main_v39 (broadcastInDim S1x64x64 ![1, 2] bcast_S64x64_S1x64x64_1_2 : (⟨S64x64, .f32⟩ : BufTy).Contents (Elt F) → (⟨S1x64x64, .f32⟩ : BufTy).Contents (Elt F)),
    StableHlo.unary main_v39 main_v40 (broadcastInDim S2048x64x64 ![0, 1, 2] bcast_S1x64x64_S2048x64x64_0_1_2 : (⟨S1x64x64, .f32⟩ : BufTy).Contents (Elt F) → (⟨S2048x64x64, .f32⟩ : BufTy).Contents (Elt F)),
    StableHlo.binary main_v38 main_v40 main_v41 (mulf : (⟨S2048x64x64, .f32⟩ : BufTy).Contents (Elt F) → (⟨S2048x64x64, .f32⟩ : BufTy).Contents (Elt F) → (⟨S2048x64x64, .f32⟩ : BufTy).Contents (Elt F)),
    StableHlo.unary main_arg3 main_v42 (broadcastInDim S1x64x64 ![1, 2] bcast_S64x64_S1x64x64_1_2 : (⟨S64x64, .f32⟩ : BufTy).Contents (Elt F) → (⟨S1x64x64, .f32⟩ : BufTy).Contents (Elt F)),
    StableHlo.unary main_v42 main_v43 (broadcastInDim S2048x64x64 ![0, 1, 2] bcast_S1x64x64_S2048x64x64_0_1_2 : (⟨S1x64x64, .f32⟩ : BufTy).Contents (Elt F) → (⟨S2048x64x64, .f32⟩ : BufTy).Contents (Elt F)),
    StableHlo.binary main_v41 main_v43 main_v44 (addf : (⟨S2048x64x64, .f32⟩ : BufTy).Contents (Elt F) → (⟨S2048x64x64, .f32⟩ : BufTy).Contents (Elt F) → (⟨S2048x64x64, .f32⟩ : BufTy).Contents (Elt F)),
    StableHlo.binary main_v23 main_v44 main_v45 (addf : (⟨S2048x64x64, .f32⟩ : BufTy).Contents (Elt F) → (⟨S2048x64x64, .f32⟩ : BufTy).Contents (Elt F) → (⟨S2048x64x64, .f32⟩ : BufTy).Contents (Elt F)),
    StableHlo.unary main_v1 main_v46 ((extractStridedSlice S1x2048x64x64 ![2, 0, 0, 0] · slices_S8x2048x64x64_S1x2048x64x64_2_0_0_0) : (⟨S8x2048x64x64, .f32⟩ : BufTy).Contents (Elt F) → (⟨S1x2048x64x64, .f32⟩ : BufTy).Contents (Elt F)),
    StableHlo.reshape main_v46 main_v47 rfl shapeCasts_S1x2048x64x64_S2048x64x64,
    StableHlo.binary main_v47 main_v45 main_v48 ((fun l r => Host.dotGeneral dot_S2048x64x64_S2048x64x64_S2048x64x64_2_1_1_2_0_0 none l r) : (⟨S2048x64x64, .f32⟩ : BufTy).Contents (Elt F) → (⟨S2048x64x64, .f32⟩ : BufTy).Contents (Elt F) → (⟨S2048x64x64, .f32⟩ : BufTy).Contents (Elt F)),
    StableHlo.nullary main_cst_6 (constant S_ .f32 0x00000000#32),
    StableHlo.binary main_v48 main_cst_6 main_v49 ((fun x v => Host.reduceAdd x v reducesTo_S2048x64x64_S2048_d1_2 h_S_) : (⟨S2048x64x64, .f32⟩ : BufTy).Contents (Elt F) → (⟨S_, .f32⟩ : BufTy).Contents (Elt F) → (⟨S2048, .f32⟩ : BufTy).Contents (Elt F)),
    StableHlo.unary main_v49 main_v50 (broadcastInDim S2048x1x1 ![0] bcast_S2048_S2048x1x1_0 : (⟨S2048, .f32⟩ : BufTy).Contents (Elt F) → (⟨S2048x1x1, .f32⟩ : BufTy).Contents (Elt F)) ]

/-- Every operation of the list touches TensorCore references only. -/
theorem opsW0_sub : (opsW0 : List (HloOp τ sig (Elt F))).Forall fun op => op.bufs ⊆ tcRefs τ sig :=
  ⟨reshape_bufs_sub .., unary_bufs_sub .., unary_bufs_sub .., reshape_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., reshape_bufs_sub .., binary_bufs_sub .., nullary_bufs_sub .., binary_bufs_sub .., unary_bufs_sub ..⟩

/-- Every operation of the list determines its results. -/
theorem opsW0_fresh : ∀ op ∈ (opsW0 : List (HloOp τ sig (Elt F))), op.fresh = ∅ := by
  intro _ h; (repeat (cases h with | head => rfl | tail _ h => ?_)); exact nomatch h

end Cert.ReferenceIdeal.RefValue

end
-- ==== Proof.RefWin0.lean ====
/-
  The reference's window 0, as printed, is the straight line of its operations: the helper functions unfolded at their
  calls and the records at their fields, both sides are one chain of single steps once sequencing is reassociated.
-/
import proofs.«102972_j63007170233017_2_alg».proof.Proof.RefTabW0

noncomputable section

namespace Cert.ReferenceIdeal.RefValue

open Cert.ReferenceIdeal Idealize.ShloMosaic Idealize.ShloMosaic.TcCoe Idealize.SL.Sem Idealize.ShloMosaic.StableHlo

variable {F : FTy → Type} [FloatOps F] [Facts]
open Facts₀ Facts

-- one bind per operation is reassociated: the rewrite under the chain recurses once per statement
set_option maxRecDepth 8192 in
set_option maxHeartbeats 4000000 in
/-- Window 0 is the straight line of `opsW0`. -/
theorem win0_eq (c : Dev nD) : main_part0 (F := F) c = seq opsW0 := by
  simp only [main_part0, fn_var.body, fn_where.body, fn_relu.body, seq, bind_assoc, pure_bind]
  rfl

end Cert.ReferenceIdeal.RefValue

end
-- ==== Proof.RefTabW1.lean ====
/-
  The operations of the reference's window 1 (as the program is printed, in consecutive windows) as a list, the helper functions' operations written at their call sites.
-/
import proofs.«102972_j63007170233017_2_alg».proof.ReferenceIdeal
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo

variable {F : FTy → Type} [FloatOps F] [Facts]
open Facts₀ Facts

/-- Window 1's operations, in order. -/
abbrev opsW1 : List (HloOp τ sig (Elt F)) :=
  [ StableHlo.nullary main_cst_7 (constant S_ .f32 0x45800000#32),
    StableHlo.unary main_cst_7 main_v51 (broadcastInDim S2048x1x1 ![] bcast_S_S2048x1x1 : (⟨S_, .f32⟩ : BufTy).Contents (Elt F) → (⟨S2048x1x1, .f32⟩ : BufTy).Contents (Elt F)),
    StableHlo.binary main_v50 main_v51 main_v52 (Host.divf : (⟨S2048x1x1, .f32⟩ : BufTy).Contents (Elt F) → (⟨S2048x1x1, .f32⟩ : BufTy).Contents (Elt F) → (⟨S2048x1x1, .f32⟩ : BufTy).Contents (Elt F)),
    StableHlo.nullary main_c_8 (constantI S_ 32 0#32),
    StableHlo.TRef.nullary main_call3.cst (constant S_ .f32 0x00000000#32),
    StableHlo.TRef.binary (.of main_v48) main_call3.cst main_call3.v0 (fun x v => Host.reduceAdd x v reducesTo_S2048x64x64_S2048_d1_2 h_S_),
    StableHlo.TRef.unary main_call3.v0 main_call3.v1 (broadcastInDim S2048x1x1 ![0] bcast_S2048_S2048x1x1_0),
    StableHlo.TRef.nullary main_call3.cst_0 (constant S_ .f32 0x45800000#32),
    StableHlo.TRef.unary main_call3.cst_0 main_call3.v2 (broadcastInDim S2048x1x1 ![] bcast_S_S2048x1x1),
    StableHlo.TRef.binary main_call3.v1 main_call3.v2 main_call3.v3 Host.divf,
    StableHlo.TRef.unary main_call3.v3 main_call3.v4 (broadcastInDim S2048x64x64 ![0, 1, 2] bcast_S2048x1x1_S2048x64x64_0_1_2),
    StableHlo.TRef.binary (.of main_v48) main_call3.v4 main_call3.v5 subf,
    StableHlo.TRef.binary main_call3.v5 main_call3.v5 main_call3.v6 mulf,
    StableHlo.TRef.unary (.of main_c_8) main_call3.v7 (sitofp .f32),
    StableHlo.TRef.nullary main_call3.cst_1 (constant S_ .f32 0x45800000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S2048x64x64_S2048_d1_2 h_S_),
    StableHlo.TRef.unary main_call3.v9 main_call3.v10 (broadcastInDim S2048x1x1 ![0] bcast_S2048_S2048x1x1_0),
    StableHlo.TRef.unary main_call3.v8 main_call3.v11 (broadcastInDim S2048x1x1 ![] bcast_S_S2048x1x1),
    StableHlo.TRef.binary main_call3.v10 main_call3.v11 main_call3.v12 Host.divf,
    StableHlo.TRef.nullary main_call3.cst_3 (constant S_ .f32 0x00000000#32),
    StableHlo.TRef.binary main_call3.v8 main_call3.cst_3 main_call3.v13 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S2048x1x1 ![] bcast_S_S2048x1x1),
    StableHlo.TRef.ternary main_call3.v13 main_call3.v12 main_call3.call0.v1 main_call3.call0.v2 (fun p a b => select (broadcastInDim S2048x1x1 ![] bcast_S_S2048x1x1 p) a b),
    StableHlo.unary main_v52 main_v54 (broadcastInDim S2048x64x64 ![0, 1, 2] bcast_S2048x1x1_S2048x64x64_0_1_2 : (⟨S2048x1x1, .f32⟩ : BufTy).Contents (Elt F) → (⟨S2048x64x64, .f32⟩ : BufTy).Contents (Elt F)),
    StableHlo.binary main_v48 main_v54 main_v55 (subf : (⟨S2048x64x64, .f32⟩ : BufTy).Contents (Elt F) → (⟨S2048x64x64, .f32⟩ : BufTy).Contents (Elt F) → (⟨S2048x64x64, .f32⟩ : BufTy).Contents (Elt F)),
    StableHlo.nullary main_cst_9 (constant S_ .f32 0x3727C5AC#32),
    StableHlo.unary main_cst_9 main_v56 (broadcastInDim S2048x1x1 ![] bcast_S_S2048x1x1 : (⟨S_, .f32⟩ : BufTy).Contents (Elt F) → (⟨S2048x1x1, .f32⟩ : BufTy).Contents (Elt F)),
    StableHlo.binary main_v53 main_v56 main_v57 (addf : (⟨S2048x1x1, .f32⟩ : BufTy).Contents (Elt F) → (⟨S2048x1x1, .f32⟩ : BufTy).Contents (Elt F) → (⟨S2048x1x1, .f32⟩ : BufTy).Contents (Elt F)),
    StableHlo.unary main_v57 main_v58 (Host.rsqrt : (⟨S2048x1x1, .f32⟩ : BufTy).Contents (Elt F) → (⟨S2048x1x1, .f32⟩ : BufTy).Contents (Elt F)),
    StableHlo.unary main_v58 main_v59 (broadcastInDim S2048x64x64 ![0, 1, 2] bcast_S2048x1x1_S2048x64x64_0_1_2 : (⟨S2048x1x1, .f32⟩ : BufTy).Contents (Elt F) → (⟨S2048x64x64, .f32⟩ : BufTy).Contents (Elt F)),
    StableHlo.binary main_v55 main_v59 main_v60 (mulf : (⟨S2048x64x64, .f32⟩ : BufTy).Contents (Elt F) → (⟨S2048x64x64, .f32⟩ : BufTy).Contents (Elt F) → (⟨S2048x64x64, .f32⟩ : BufTy).Contents (Elt F)),
    StableHlo.unary main_arg2 main_v61 (broadcastInDim S1x64x64 ![1, 2] bcast_S64x64_S1x64x64_1_2 : (⟨S64x64, .f32⟩ : BufTy).Contents (Elt F) → (⟨S1x64x64, .f32⟩ : BufTy).Contents (Elt F)),
    StableHlo.unary main_v61 main_v62 (broadcastInDim S2048x64x64 ![0, 1, 2] bcast_S1x64x64_S2048x64x64_0_1_2 : (⟨S1x64x64, .f32⟩ : BufTy).Contents (Elt F) → (⟨S2048x64x64, .f32⟩ : BufTy).Contents (Elt F)),
    StableHlo.binary main_v60 main_v62 main_v63 (mulf : (⟨S2048x64x64, .f32⟩ : BufTy).Contents (Elt F) → (⟨S2048x64x64, .f32⟩ : BufTy).Contents (Elt F) → (⟨S2048x64x64, .f32⟩ : BufTy).Contents (Elt F)),
    StableHlo.unary main_arg3 main_v64 (broadcastInDim S1x64x64 ![1, 2] bcast_S64x64_S1x64x64_1_2 : (⟨S64x64, .f32⟩ : BufTy).Contents (Elt F) → (⟨S1x64x64, .f32⟩ : BufTy).Contents (Elt F)),
    StableHlo.unary main_v64 main_v65 (broadcastInDim S2048x64x64 ![0, 1, 2] bcast_S1x64x64_S2048x64x64_0_1_2 : (⟨S1x64x64, .f32⟩ : BufTy).Contents (Elt F) → (⟨S2048x64x64, .f32⟩ : BufTy).Contents (Elt F)),
    StableHlo.binary main_v63 main_v65 main_v66 (addf : (⟨S2048x64x64, .f32⟩ : BufTy).Contents (Elt F) → (⟨S2048x64x64, .f32⟩ : BufTy).Contents (Elt F) → (⟨S2048x64x64, .f32⟩ : BufTy).Contents (Elt F)),
    StableHlo.TRef.nullary main_call4.cst (constant S_ .f32 0x00000000#32),
    StableHlo.TRef.unary main_call4.cst main_call4.v0 (broadcastInDim S2048x64x64 ![] bcast_S_S2048x64x64),
    StableHlo.TRef.binary (.of main_v66) main_call4.v0 main_call4.v1 maximumf,
    StableHlo.binary main_v45 main_v67 main_v68 (addf : (⟨S2048x64x64, .f32⟩ : BufTy).Contents (Elt F) → (⟨S2048x64x64, .f32⟩ : BufTy).Contents (Elt F) → (⟨S2048x64x64, .f32⟩ : BufTy).Contents (Elt F)),
    StableHlo.unary main_v1 main_v69 ((extractStridedSlice S1x2048x64x64 ![3, 0, 0, 0] · slices_S8x2048x64x64_S1x2048x64x64_3_0_0_0) : (⟨S8x2048x64x64, .f32⟩ : BufTy).Contents (Elt F) → (⟨S1x2048x64x64, .f32⟩ : BufTy).Contents (Elt F)),
    StableHlo.reshape main_v69 main_v70 rfl shapeCasts_S1x2048x64x64_S2048x64x64,
    StableHlo.binary main_v70 main_v68 main_v71 ((fun l r => Host.dotGeneral dot_S2048x64x64_S2048x64x64_S2048x64x64_2_1_1_2_0_0 none l r) : (⟨S2048x64x64, .f32⟩ : BufTy).Contents (Elt F) → (⟨S2048x64x64, .f32⟩ : BufTy).Contents (Elt F) → (⟨S2048x64x64, .f32⟩ : BufTy).Contents (Elt F)),
    StableHlo.nullary main_cst_10 (constant S_ .f32 0x00000000#32),
    StableHlo.binary main_v71 main_cst_10 main_v72 ((fun x v => Host.reduceAdd x v reducesTo_S2048x64x64_S2048_d1_2 h_S_) : (⟨S2048x64x64, .f32⟩ : BufTy).Contents (Elt F) → (⟨S_, .f32⟩ : BufTy).Contents (Elt F) → (⟨S2048, .f32⟩ : BufTy).Contents (Elt F)),
    StableHlo.unary main_v72 main_v73 (broadcastInDim S2048x1x1 ![0] bcast_S2048_S2048x1x1_0 : (⟨S2048, .f32⟩ : BufTy).Contents (Elt F) → (⟨S2048x1x1, .f32⟩ : BufTy).Contents (Elt F)),
    StableHlo.nullary main_cst_11 (constant S_ .f32 0x45800000#32),
    StableHlo.unary main_cst_11 main_v74 (broadcastInDim S2048x1x1 ![] bcast_S_S2048x1x1 : (⟨S_, .f32⟩ : BufTy).Contents (Elt F) → (⟨S2048x1x1, .f32⟩ : BufTy).Contents (Elt F)),
    StableHlo.binary main_v73 main_v74 main_v75 (Host.divf : (⟨S2048x1x1, .f32⟩ : BufTy).Contents (Elt F) → (⟨S2048x1x1, .f32⟩ : BufTy).Contents (Elt F) → (⟨S2048x1x1, .f32⟩ : BufTy).Contents (Elt F)),
    StableHlo.nullary main_c_12 (constantI S_ 32 0#32),
    StableHlo.TRef.nullary main_call5.cst (constant S_ .f32 0x00000000#32),
    StableHlo.TRef.binary (.of main_v71) main_call5.cst main_call5.v0 (fun x v => Host.reduceAdd x v reducesTo_S2048x64x64_S2048_d1_2 h_S_),
    StableHlo.TRef.unary main_call5.v0 main_call5.v1 (broadcastInDim S2048x1x1 ![0] bcast_S2048_S2048x1x1_0),
    StableHlo.TRef.nullary main_call5.cst_0 (constant S_ .f32 0x45800000#32),
    StableHlo.TRef.unary main_call5.cst_0 main_call5.v2 (broadcastInDim S2048x1x1 ![] bcast_S_S2048x1x1),
    StableHlo.TRef.binary main_call5.v1 main_call5.v2 main_call5.v3 Host.divf,
    StableHlo.TRef.unary main_call5.v3 main_call5.v4 (broadcastInDim S2048x64x64 ![0, 1, 2] bcast_S2048x1x1_S2048x64x64_0_1_2),
    StableHlo.TRef.binary (.of main_v71) main_call5.v4 main_call5.v5 subf,
    StableHlo.TRef.binary main_call5.v5 main_call5.v5 main_call5.v6 mulf,
    StableHlo.TRef.unary (.of main_c_12) main_call5.v7 (sitofp .f32),
    StableHlo.TRef.nullary main_call5.cst_1 (constant S_ .f32 0x45800000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S2048x64x64_S2048_d1_2 h_S_),
    StableHlo.TRef.unary main_call5.v9 main_call5.v10 (broadcastInDim S2048x1x1 ![0] bcast_S2048_S2048x1x1_0),
    StableHlo.TRef.unary main_call5.v8 main_call5.v11 (broadcastInDim S2048x1x1 ![] bcast_S_S2048x1x1),
    StableHlo.TRef.binary main_call5.v10 main_call5.v11 main_call5.v12 Host.divf,
    StableHlo.TRef.nullary main_call5.cst_3 (constant S_ .f32 0x00000000#32),
    StableHlo.TRef.binary main_call5.v8 main_call5.cst_3 main_call5.v13 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S2048x1x1 ![] bcast_S_S2048x1x1),
    StableHlo.TRef.ternary main_call5.v13 main_call5.v12 main_call5.call0.v1 main_call5.call0.v2 (fun p a b => select (broadcastInDim S2048x1x1 ![] bcast_S_S2048x1x1 p) a b),
    StableHlo.unary main_v75 main_v77 (broadcastInDim S2048x64x64 ![0, 1, 2] bcast_S2048x1x1_S2048x64x64_0_1_2 : (⟨S2048x1x1, .f32⟩ : BufTy).Contents (Elt F) → (⟨S2048x64x64, .f32⟩ : BufTy).Contents (Elt F)),
    StableHlo.binary main_v71 main_v77 main_v78 (subf : (⟨S2048x64x64, .f32⟩ : BufTy).Contents (Elt F) → (⟨S2048x64x64, .f32⟩ : BufTy).Contents (Elt F) → (⟨S2048x64x64, .f32⟩ : BufTy).Contents (Elt F)),
    StableHlo.nullary main_cst_13 (constant S_ .f32 0x3727C5AC#32),
    StableHlo.unary main_cst_13 main_v79 (broadcastInDim S2048x1x1 ![] bcast_S_S2048x1x1 : (⟨S_, .f32⟩ : BufTy).Contents (Elt F) → (⟨S2048x1x1, .f32⟩ : BufTy).Contents (Elt F)),
    StableHlo.binary main_v76 main_v79 main_v80 (addf : (⟨S2048x1x1, .f32⟩ : BufTy).Contents (Elt F) → (⟨S2048x1x1, .f32⟩ : BufTy).Contents (Elt F) → (⟨S2048x1x1, .f32⟩ : BufTy).Contents (Elt F)),
    StableHlo.unary main_v80 main_v81 (Host.rsqrt : (⟨S2048x1x1, .f32⟩ : BufTy).Contents (Elt F) → (⟨S2048x1x1, .f32⟩ : BufTy).Contents (Elt F)),
    StableHlo.unary main_v81 main_v82 (broadcastInDim S2048x64x64 ![0, 1, 2] bcast_S2048x1x1_S2048x64x64_0_1_2 : (⟨S2048x1x1, .f32⟩ : BufTy).Contents (Elt F) → (⟨S2048x64x64, .f32⟩ : BufTy).Contents (Elt F)),
    StableHlo.binary main_v78 main_v82 main_v83 (mulf : (⟨S2048x64x64, .f32⟩ : BufTy).Contents (Elt F) → (⟨S2048x64x64, .f32⟩ : BufTy).Contents (Elt F) → (⟨S2048x64x64, .f32⟩ : BufTy).Contents (Elt F)),
    StableHlo.unary main_arg2 main_v84 (broadcastInDim S1x64x64 ![1, 2] bcast_S64x64_S1x64x64_1_2 : (⟨S64x64, .f32⟩ : BufTy).Contents (Elt F) → (⟨S1x64x64, .f32⟩ : BufTy).Contents (Elt F)),
    StableHlo.unary main_v84 main_v85 (broadcastInDim S2048x64x64 ![0, 1, 2] bcast_S1x64x64_S2048x64x64_0_1_2 : (⟨S1x64x64, .f32⟩ : BufTy).Contents (Elt F) → (⟨S2048x64x64, .f32⟩ : BufTy).Contents (Elt F)),
    StableHlo.binary main_v83 main_v85 main_v86 (mulf : (⟨S2048x64x64, .f32⟩ : BufTy).Contents (Elt F) → (⟨S2048x64x64, .f32⟩ : BufTy).Contents (Elt F) → (⟨S2048x64x64, .f32⟩ : BufTy).Contents (Elt F)),
    StableHlo.unary main_arg3 main_v87 (broadcastInDim S1x64x64 ![1, 2] bcast_S64x64_S1x64x64_1_2 : (⟨S64x64, .f32⟩ : BufTy).Contents (Elt F) → (⟨S1x64x64, .f32⟩ : BufTy).Contents (Elt F)),
    StableHlo.unary main_v87 main_v88 (broadcastInDim S2048x64x64 ![0, 1, 2] bcast_S1x64x64_S2048x64x64_0_1_2 : (⟨S1x64x64, .f32⟩ : BufTy).Contents (Elt F) → (⟨S2048x64x64, .f32⟩ : BufTy).Contents (Elt F)),
    StableHlo.binary main_v86 main_v88 main_v89 (addf : (⟨S2048x64x64, .f32⟩ : BufTy).Contents (Elt F) → (⟨S2048x64x64, .f32⟩ : BufTy).Contents (Elt F) → (⟨S2048x64x64, .f32⟩ : BufTy).Contents (Elt F)),
    StableHlo.binary main_v68 main_v89 main_v90 (addf : (⟨S2048x64x64, .f32⟩ : BufTy).Contents (Elt F) → (⟨S2048x64x64, .f32⟩ : BufTy).Contents (Elt F) → (⟨S2048x64x64, .f32⟩ : BufTy).Contents (Elt F)),
    StableHlo.unary main_v1 main_v91 ((extractStridedSlice S1x2048x64x64 ![4, 0, 0, 0] · slices_S8x2048x64x64_S1x2048x64x64_4_0_0_0) : (⟨S8x2048x64x64, .f32⟩ : BufTy).Contents (Elt F) → (⟨S1x2048x64x64, .f32⟩ : BufTy).Contents (Elt F)),
    StableHlo.reshape main_v91 main_v92 rfl shapeCasts_S1x2048x64x64_S2048x64x64,
    StableHlo.binary main_v92 main_v90 main_v93 ((fun l r => Host.dotGeneral dot_S2048x64x64_S2048x64x64_S2048x64x64_2_1_1_2_0_0 none l r) : (⟨S2048x64x64, .f32⟩ : BufTy).Contents (Elt F) → (⟨S2048x64x64, .f32⟩ : BufTy).Contents (Elt F) → (⟨S2048x64x64, .f32⟩ : BufTy).Contents (Elt F)),
    StableHlo.nullary main_cst_14 (constant S_ .f32 0x00000000#32),
    StableHlo.binary main_v93 main_cst_14 main_v94 ((fun x v => Host.reduceAdd x v reducesTo_S2048x64x64_S2048_d1_2 h_S_) : (⟨S2048x64x64, .f32⟩ : BufTy).Contents (Elt F) → (⟨S_, .f32⟩ : BufTy).Contents (Elt F) → (⟨S2048, .f32⟩ : BufTy).Contents (Elt F)),
    StableHlo.unary main_v94 main_v95 (broadcastInDim S2048x1x1 ![0] bcast_S2048_S2048x1x1_0 : (⟨S2048, .f32⟩ : BufTy).Contents (Elt F) → (⟨S2048x1x1, .f32⟩ : BufTy).Contents (Elt F)),
    StableHlo.nullary main_cst_15 (constant S_ .f32 0x45800000#32),
    StableHlo.unary main_cst_15 main_v96 (broadcastInDim S2048x1x1 ![] bcast_S_S2048x1x1 : (⟨S_, .f32⟩ : BufTy).Contents (Elt F) → (⟨S2048x1x1, .f32⟩ : BufTy).Contents (Elt F)),
    StableHlo.binary main_v95 main_v96 main_v97 (Host.divf : (⟨S2048x1x1, .f32⟩ : BufTy).Contents (Elt F) → (⟨S2048x1x1, .f32⟩ : BufTy).Contents (Elt F) → (⟨S2048x1x1, .f32⟩ : BufTy).Contents (Elt F)),
    StableHlo.nullary main_c_16 (constantI S_ 32 0#32),
    StableHlo.TRef.nullary main_call6.cst (constant S_ .f32 0x00000000#32),
    StableHlo.TRef.binary (.of main_v93) main_call6.cst main_call6.v0 (fun x v => Host.reduceAdd x v reducesTo_S2048x64x64_S2048_d1_2 h_S_),
    StableHlo.TRef.unary main_call6.v0 main_call6.v1 (broadcastInDim S2048x1x1 ![0] bcast_S2048_S2048x1x1_0),
    StableHlo.TRef.nullary main_call6.cst_0 (constant S_ .f32 0x45800000#32),
    StableHlo.TRef.unary main_call6.cst_0 main_call6.v2 (broadcastInDim S2048x1x1 ![] bcast_S_S2048x1x1),
    StableHlo.TRef.binary main_call6.v1 main_call6.v2 main_call6.v3 Host.divf,
    StableHlo.TRef.unary main_call6.v3 main_call6.v4 (broadcastInDim S2048x64x64 ![0, 1, 2] bcast_S2048x1x1_S2048x64x64_0_1_2),
    StableHlo.TRef.binary (.of main_v93) main_call6.v4 main_call6.v5 subf,
    StableHlo.TRef.binary main_call6.v5 main_call6.v5 main_call6.v6 mulf,
    StableHlo.TRef.unary (.of main_c_16) main_call6.v7 (sitofp .f32),
    StableHlo.TRef.nullary main_call6.cst_1 (constant S_ .f32 0x45800000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S2048x64x64_S2048_d1_2 h_S_),
    StableHlo.TRef.unary main_call6.v9 main_call6.v10 (broadcastInDim S2048x1x1 ![0] bcast_S2048_S2048x1x1_0),
    StableHlo.TRef.unary main_call6.v8 main_call6.v11 (broadcastInDim S2048x1x1 ![] bcast_S_S2048x1x1),
    StableHlo.TRef.binary main_call6.v10 main_call6.v11 main_call6.v12 Host.divf,
    StableHlo.TRef.nullary main_call6.cst_3 (constant S_ .f32 0x00000000#32),
    StableHlo.TRef.binary main_call6.v8 main_call6.cst_3 main_call6.v13 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S2048x1x1 ![] bcast_S_S2048x1x1),
    StableHlo.TRef.ternary main_call6.v13 main_call6.v12 main_call6.call0.v1 main_call6.call0.v2 (fun p a b => select (broadcastInDim S2048x1x1 ![] bcast_S_S2048x1x1 p) a b),
    StableHlo.unary main_v97 main_v99 (broadcastInDim S2048x64x64 ![0, 1, 2] bcast_S2048x1x1_S2048x64x64_0_1_2 : (⟨S2048x1x1, .f32⟩ : BufTy).Contents (Elt F) → (⟨S2048x64x64, .f32⟩ : BufTy).Contents (Elt F)),
    StableHlo.binary main_v93 main_v99 main_v100 (subf : (⟨S2048x64x64, .f32⟩ : BufTy).Contents (Elt F) → (⟨S2048x64x64, .f32⟩ : BufTy).Contents (Elt F) → (⟨S2048x64x64, .f32⟩ : BufTy).Contents (Elt F)) ]

/-- Every operation of the list touches TensorCore references only. -/
theorem opsW1_sub : (opsW1 : List (HloOp τ sig (Elt F))).Forall fun op => op.bufs ⊆ tcRefs τ sig :=
  ⟨nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., reshape_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., reshape_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub ..⟩

/-- Every operation of the list determines its results. -/
theorem opsW1_fresh : ∀ op ∈ (opsW1 : List (HloOp τ sig (Elt F))), op.fresh = ∅ := by
  intro _ h; (repeat (cases h with | head => rfl | tail _ h => ?_)); exact nomatch h

end Cert.ReferenceIdeal.RefValue

end
-- ==== Proof.RefWin1.lean ====
/-
  The reference's window 1, as printed, is the straight line of its operations: the helper functions unfolded at their
  calls and the records at their fields, both sides are one chain of single steps once sequencing is reassociated.
-/
import proofs.«102972_j63007170233017_2_alg».proof.Proof.RefTabW1

noncomputable section

namespace Cert.ReferenceIdeal.RefValue

open Cert.ReferenceIdeal Idealize.ShloMosaic Idealize.ShloMosaic.TcCoe Idealize.SL.Sem Idealize.ShloMosaic.StableHlo

variable {F : FTy → Type} [FloatOps F] [Facts]
open Facts₀ Facts

-- one bind per operation is reassociated: the rewrite under the chain recurses once per statement
set_option maxRecDepth 8192 in
set_option maxHeartbeats 4000000 in
/-- Window 1 is the straight line of `opsW1`. -/
theorem win1_eq (c : Dev nD) : main_part1 (F := F) c = seq opsW1 := by
  simp only [main_part1, fn_var.body, fn_where.body, fn_relu.body, seq, bind_assoc, pure_bind]
  rfl

end Cert.ReferenceIdeal.RefValue

end
-- ==== Proof.RefTabW2.lean ====
/-
  The operations of the reference's window 2 (as the program is printed, in consecutive windows) as a list, the helper functions' operations written at their call sites.
-/
import proofs.«102972_j63007170233017_2_alg».proof.ReferenceIdeal
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo

variable {F : FTy → Type} [FloatOps F] [Facts]
open Facts₀ Facts

/-- Window 2's operations, in order. -/
abbrev opsW2 : List (HloOp τ sig (Elt F)) :=
  [ StableHlo.nullary main_cst_17 (constant S_ .f32 0x3727C5AC#32),
    StableHlo.unary main_cst_17 main_v101 (broadcastInDim S2048x1x1 ![] bcast_S_S2048x1x1 : (⟨S_, .f32⟩ : BufTy).Contents (Elt F) → (⟨S2048x1x1, .f32⟩ : BufTy).Contents (Elt F)),
    StableHlo.binary main_v98 main_v101 main_v102 (addf : (⟨S2048x1x1, .f32⟩ : BufTy).Contents (Elt F) → (⟨S2048x1x1, .f32⟩ : BufTy).Contents (Elt F) → (⟨S2048x1x1, .f32⟩ : BufTy).Contents (Elt F)),
    StableHlo.unary main_v102 main_v103 (Host.rsqrt : (⟨S2048x1x1, .f32⟩ : BufTy).Contents (Elt F) → (⟨S2048x1x1, .f32⟩ : BufTy).Contents (Elt F)),
    StableHlo.unary main_v103 main_v104 (broadcastInDim S2048x64x64 ![0, 1, 2] bcast_S2048x1x1_S2048x64x64_0_1_2 : (⟨S2048x1x1, .f32⟩ : BufTy).Contents (Elt F) → (⟨S2048x64x64, .f32⟩ : BufTy).Contents (Elt F)),
    StableHlo.binary main_v100 main_v104 main_v105 (mulf : (⟨S2048x64x64, .f32⟩ : BufTy).Contents (Elt F) → (⟨S2048x64x64, .f32⟩ : BufTy).Contents (Elt F) → (⟨S2048x64x64, .f32⟩ : BufTy).Contents (Elt F)),
    StableHlo.unary main_arg2 main_v106 (broadcastInDim S1x64x64 ![1, 2] bcast_S64x64_S1x64x64_1_2 : (⟨S64x64, .f32⟩ : BufTy).Contents (Elt F) → (⟨S1x64x64, .f32⟩ : BufTy).Contents (Elt F)),
    StableHlo.unary main_v106 main_v107 (broadcastInDim S2048x64x64 ![0, 1, 2] bcast_S1x64x64_S2048x64x64_0_1_2 : (⟨S1x64x64, .f32⟩ : BufTy).Contents (Elt F) → (⟨S2048x64x64, .f32⟩ : BufTy).Contents (Elt F)),
    StableHlo.binary main_v105 main_v107 main_v108 (mulf : (⟨S2048x64x64, .f32⟩ : BufTy).Contents (Elt F) → (⟨S2048x64x64, .f32⟩ : BufTy).Contents (Elt F) → (⟨S2048x64x64, .f32⟩ : BufTy).Contents (Elt F)),
    StableHlo.unary main_arg3 main_v109 (broadcastInDim S1x64x64 ![1, 2] bcast_S64x64_S1x64x64_1_2 : (⟨S64x64, .f32⟩ : BufTy).Contents (Elt F) → (⟨S1x64x64, .f32⟩ : BufTy).Contents (Elt F)),
    StableHlo.unary main_v109 main_v110 (broadcastInDim S2048x64x64 ![0, 1, 2] bcast_S1x64x64_S2048x64x64_0_1_2 : (⟨S1x64x64, .f32⟩ : BufTy).Contents (Elt F) → (⟨S2048x64x64, .f32⟩ : BufTy).Contents (Elt F)),
    StableHlo.binary main_v108 main_v110 main_v111 (addf : (⟨S2048x64x64, .f32⟩ : BufTy).Contents (Elt F) → (⟨S2048x64x64, .f32⟩ : BufTy).Contents (Elt F) → (⟨S2048x64x64, .f32⟩ : BufTy).Contents (Elt F)),
    StableHlo.TRef.nullary main_call7.cst (constant S_ .f32 0x00000000#32),
    StableHlo.TRef.unary main_call7.cst main_call7.v0 (broadcastInDim S2048x64x64 ![] bcast_S_S2048x64x64),
    StableHlo.TRef.binary (.of main_v111) main_call7.v0 main_call7.v1 maximumf,
    StableHlo.binary main_v90 main_v112 main_v113 (addf : (⟨S2048x64x64, .f32⟩ : BufTy).Contents (Elt F) → (⟨S2048x64x64, .f32⟩ : BufTy).Contents (Elt F) → (⟨S2048x64x64, .f32⟩ : BufTy).Contents (Elt F)),
    StableHlo.unary main_v1 main_v114 ((extractStridedSlice S1x2048x64x64 ![5, 0, 0, 0] · slices_S8x2048x64x64_S1x2048x64x64_5_0_0_0) : (⟨S8x2048x64x64, .f32⟩ : BufTy).Contents (Elt F) → (⟨S1x2048x64x64, .f32⟩ : BufTy).Contents (Elt F)),
    StableHlo.reshape main_v114 main_v115 rfl shapeCasts_S1x2048x64x64_S2048x64x64,
    StableHlo.binary main_v115 main_v113 main_v116 ((fun l r => Host.dotGeneral dot_S2048x64x64_S2048x64x64_S2048x64x64_2_1_1_2_0_0 none l r) : (⟨S2048x64x64, .f32⟩ : BufTy).Contents (Elt F) → (⟨S2048x64x64, .f32⟩ : BufTy).Contents (Elt F) → (⟨S2048x64x64, .f32⟩ : BufTy).Contents (Elt F)),
    StableHlo.nullary main_cst_18 (constant S_ .f32 0x00000000#32),
    StableHlo.binary main_v116 main_cst_18 main_v117 ((fun x v => Host.reduceAdd x v reducesTo_S2048x64x64_S2048_d1_2 h_S_) : (⟨S2048x64x64, .f32⟩ : BufTy).Contents (Elt F) → (⟨S_, .f32⟩ : BufTy).Contents (Elt F) → (⟨S2048, .f32⟩ : BufTy).Contents (Elt F)),
    StableHlo.unary main_v117 main_v118 (broadcastInDim S2048x1x1 ![0] bcast_S2048_S2048x1x1_0 : (⟨S2048, .f32⟩ : BufTy).Contents (Elt F) → (⟨S2048x1x1, .f32⟩ : BufTy).Contents (Elt F)),
    StableHlo.nullary main_cst_19 (constant S_ .f32 0x45800000#32),
    StableHlo.unary main_cst_19 main_v119 (broadcastInDim S2048x1x1 ![] bcast_S_S2048x1x1 : (⟨S_, .f32⟩ : BufTy).Contents (Elt F) → (⟨S2048x1x1, .f32⟩ : BufTy).Contents (Elt F)),
    StableHlo.binary main_v118 main_v119 main_v120 (Host.divf : (⟨S2048x1x1, .f32⟩ : BufTy).Contents (Elt F) → (⟨S2048x1x1, .f32⟩ : BufTy).Contents (Elt F) → (⟨S2048x1x1, .f32⟩ : BufTy).Contents (Elt F)),
    StableHlo.nullary main_c_20 (constantI S_ 32 0#32),
    StableHlo.TRef.nullary main_call8.cst (constant S_ .f32 0x00000000#32),
    StableHlo.TRef.binary (.of main_v116) main_call8.cst main_call8.v0 (fun x v => Host.reduceAdd x v reducesTo_S2048x64x64_S2048_d1_2 h_S_),
    StableHlo.TRef.unary main_call8.v0 main_call8.v1 (broadcastInDim S2048x1x1 ![0] bcast_S2048_S2048x1x1_0),
    StableHlo.TRef.nullary main_call8.cst_0 (constant S_ .f32 0x45800000#32),
    StableHlo.TRef.unary main_call8.cst_0 main_call8.v2 (broadcastInDim S2048x1x1 ![] bcast_S_S2048x1x1),
    StableHlo.TRef.binary main_call8.v1 main_call8.v2 main_call8.v3 Host.divf,
    StableHlo.TRef.unary main_call8.v3 main_call8.v4 (broadcastInDim S2048x64x64 ![0, 1, 2] bcast_S2048x1x1_S2048x64x64_0_1_2),
    StableHlo.TRef.binary (.of main_v116) main_call8.v4 main_call8.v5 subf,
    StableHlo.TRef.binary main_call8.v5 main_call8.v5 main_call8.v6 mulf,
    StableHlo.TRef.unary (.of main_c_20) main_call8.v7 (sitofp .f32),
    StableHlo.TRef.nullary main_call8.cst_1 (constant S_ .f32 0x45800000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S2048x64x64_S2048_d1_2 h_S_),
    StableHlo.TRef.unary main_call8.v9 main_call8.v10 (broadcastInDim S2048x1x1 ![0] bcast_S2048_S2048x1x1_0),
    StableHlo.TRef.unary main_call8.v8 main_call8.v11 (broadcastInDim S2048x1x1 ![] bcast_S_S2048x1x1),
    StableHlo.TRef.binary main_call8.v10 main_call8.v11 main_call8.v12 Host.divf,
    StableHlo.TRef.nullary main_call8.cst_3 (constant S_ .f32 0x00000000#32),
    StableHlo.TRef.binary main_call8.v8 main_call8.cst_3 main_call8.v13 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S2048x1x1 ![] bcast_S_S2048x1x1),
    StableHlo.TRef.ternary main_call8.v13 main_call8.v12 main_call8.call0.v1 main_call8.call0.v2 (fun p a b => select (broadcastInDim S2048x1x1 ![] bcast_S_S2048x1x1 p) a b),
    StableHlo.unary main_v120 main_v122 (broadcastInDim S2048x64x64 ![0, 1, 2] bcast_S2048x1x1_S2048x64x64_0_1_2 : (⟨S2048x1x1, .f32⟩ : BufTy).Contents (Elt F) → (⟨S2048x64x64, .f32⟩ : BufTy).Contents (Elt F)),
    StableHlo.binary main_v116 main_v122 main_v123 (subf : (⟨S2048x64x64, .f32⟩ : BufTy).Contents (Elt F) → (⟨S2048x64x64, .f32⟩ : BufTy).Contents (Elt F) → (⟨S2048x64x64, .f32⟩ : BufTy).Contents (Elt F)),
    StableHlo.nullary main_cst_21 (constant S_ .f32 0x3727C5AC#32),
    StableHlo.unary main_cst_21 main_v124 (broadcastInDim S2048x1x1 ![] bcast_S_S2048x1x1 : (⟨S_, .f32⟩ : BufTy).Contents (Elt F) → (⟨S2048x1x1, .f32⟩ : BufTy).Contents (Elt F)),
    StableHlo.binary main_v121 main_v124 main_v125 (addf : (⟨S2048x1x1, .f32⟩ : BufTy).Contents (Elt F) → (⟨S2048x1x1, .f32⟩ : BufTy).Contents (Elt F) → (⟨S2048x1x1, .f32⟩ : BufTy).Contents (Elt F)),
    StableHlo.unary main_v125 main_v126 (Host.rsqrt : (⟨S2048x1x1, .f32⟩ : BufTy).Contents (Elt F) → (⟨S2048x1x1, .f32⟩ : BufTy).Contents (Elt F)),
    StableHlo.unary main_v126 main_v127 (broadcastInDim S2048x64x64 ![0, 1, 2] bcast_S2048x1x1_S2048x64x64_0_1_2 : (⟨S2048x1x1, .f32⟩ : BufTy).Contents (Elt F) → (⟨S2048x64x64, .f32⟩ : BufTy).Contents (Elt F)),
    StableHlo.binary main_v123 main_v127 main_v128 (mulf : (⟨S2048x64x64, .f32⟩ : BufTy).Contents (Elt F) → (⟨S2048x64x64, .f32⟩ : BufTy).Contents (Elt F) → (⟨S2048x64x64, .f32⟩ : BufTy).Contents (Elt F)),
    StableHlo.unary main_arg2 main_v129 (broadcastInDim S1x64x64 ![1, 2] bcast_S64x64_S1x64x64_1_2 : (⟨S64x64, .f32⟩ : BufTy).Contents (Elt F) → (⟨S1x64x64, .f32⟩ : BufTy).Contents (Elt F)),
    StableHlo.unary main_v129 main_v130 (broadcastInDim S2048x64x64 ![0, 1, 2] bcast_S1x64x64_S2048x64x64_0_1_2 : (⟨S1x64x64, .f32⟩ : BufTy).Contents (Elt F) → (⟨S2048x64x64, .f32⟩ : BufTy).Contents (Elt F)),
    StableHlo.binary main_v128 main_v130 main_v131 (mulf : (⟨S2048x64x64, .f32⟩ : BufTy).Contents (Elt F) → (⟨S2048x64x64, .f32⟩ : BufTy).Contents (Elt F) → (⟨S2048x64x64, .f32⟩ : BufTy).Contents (Elt F)),
    StableHlo.unary main_arg3 main_v132 (broadcastInDim S1x64x64 ![1, 2] bcast_S64x64_S1x64x64_1_2 : (⟨S64x64, .f32⟩ : BufTy).Contents (Elt F) → (⟨S1x64x64, .f32⟩ : BufTy).Contents (Elt F)),
    StableHlo.unary main_v132 main_v133 (broadcastInDim S2048x64x64 ![0, 1, 2] bcast_S1x64x64_S2048x64x64_0_1_2 : (⟨S1x64x64, .f32⟩ : BufTy).Contents (Elt F) → (⟨S2048x64x64, .f32⟩ : BufTy).Contents (Elt F)),
    StableHlo.binary main_v131 main_v133 main_v134 (addf : (⟨S2048x64x64, .f32⟩ : BufTy).Contents (Elt F) → (⟨S2048x64x64, .f32⟩ : BufTy).Contents (Elt F) → (⟨S2048x64x64, .f32⟩ : BufTy).Contents (Elt F)),
    StableHlo.binary main_v113 main_v134 main_v135 (addf : (⟨S2048x64x64, .f32⟩ : BufTy).Contents (Elt F) → (⟨S2048x64x64, .f32⟩ : BufTy).Contents (Elt F) → (⟨S2048x64x64, .f32⟩ : BufTy).Contents (Elt F)),
    StableHlo.unary main_v1 main_v136 ((extractStridedSlice S1x2048x64x64 ![6, 0, 0, 0] · slices_S8x2048x64x64_S1x2048x64x64_6_0_0_0) : (⟨S8x2048x64x64, .f32⟩ : BufTy).Contents (Elt F) → (⟨S1x2048x64x64, .f32⟩ : BufTy).Contents (Elt F)),
    StableHlo.reshape main_v136 main_v137 rfl shapeCasts_S1x2048x64x64_S2048x64x64,
    StableHlo.binary main_v137 main_v135 main_v138 ((fun l r => Host.dotGeneral dot_S2048x64x64_S2048x64x64_S2048x64x64_2_1_1_2_0_0 none l r) : (⟨S2048x64x64, .f32⟩ : BufTy).Contents (Elt F) → (⟨S2048x64x64, .f32⟩ : BufTy).Contents (Elt F) → (⟨S2048x64x64, .f32⟩ : BufTy).Contents (Elt F)),
    StableHlo.nullary main_cst_22 (constant S_ .f32 0x00000000#32),
    StableHlo.binary main_v138 main_cst_22 main_v139 ((fun x v => Host.reduceAdd x v reducesTo_S2048x64x64_S2048_d1_2 h_S_) : (⟨S2048x64x64, .f32⟩ : BufTy).Contents (Elt F) → (⟨S_, .f32⟩ : BufTy).Contents (Elt F) → (⟨S2048, .f32⟩ : BufTy).Contents (Elt F)),
    StableHlo.unary main_v139 main_v140 (broadcastInDim S2048x1x1 ![0] bcast_S2048_S2048x1x1_0 : (⟨S2048, .f32⟩ : BufTy).Contents (Elt F) → (⟨S2048x1x1, .f32⟩ : BufTy).Contents (Elt F)),
    StableHlo.nullary main_cst_23 (constant S_ .f32 0x45800000#32),
    StableHlo.unary main_cst_23 main_v141 (broadcastInDim S2048x1x1 ![] bcast_S_S2048x1x1 : (⟨S_, .f32⟩ : BufTy).Contents (Elt F) → (⟨S2048x1x1, .f32⟩ : BufTy).Contents (Elt F)),
    StableHlo.binary main_v140 main_v141 main_v142 (Host.divf : (⟨S2048x1x1, .f32⟩ : BufTy).Contents (Elt F) → (⟨S2048x1x1, .f32⟩ : BufTy).Contents (Elt F) → (⟨S2048x1x1, .f32⟩ : BufTy).Contents (Elt F)),
    StableHlo.nullary main_c_24 (constantI S_ 32 0#32),
    StableHlo.TRef.nullary main_call9.cst (constant S_ .f32 0x00000000#32),
    StableHlo.TRef.binary (.of main_v138) main_call9.cst main_call9.v0 (fun x v => Host.reduceAdd x v reducesTo_S2048x64x64_S2048_d1_2 h_S_),
    StableHlo.TRef.unary main_call9.v0 main_call9.v1 (broadcastInDim S2048x1x1 ![0] bcast_S2048_S2048x1x1_0),
    StableHlo.TRef.nullary main_call9.cst_0 (constant S_ .f32 0x45800000#32),
    StableHlo.TRef.unary main_call9.cst_0 main_call9.v2 (broadcastInDim S2048x1x1 ![] bcast_S_S2048x1x1),
    StableHlo.TRef.binary main_call9.v1 main_call9.v2 main_call9.v3 Host.divf,
    StableHlo.TRef.unary main_call9.v3 main_call9.v4 (broadcastInDim S2048x64x64 ![0, 1, 2] bcast_S2048x1x1_S2048x64x64_0_1_2),
    StableHlo.TRef.binary (.of main_v138) main_call9.v4 main_call9.v5 subf,
    StableHlo.TRef.binary main_call9.v5 main_call9.v5 main_call9.v6 mulf,
    StableHlo.TRef.unary (.of main_c_24) main_call9.v7 (sitofp .f32),
    StableHlo.TRef.nullary main_call9.cst_1 (constant S_ .f32 0x45800000#32),
    StableHlo.TRef.binary main_call9.cst_1 main_call9.v7 main_call9.v8 subf,
    StableHlo.TRef.nullary main_call9.cst_2 (constant S_ .f32 0x00000000#32),
    StableHlo.TRef.binary main_call9.v6 main_call9.cst_2 main_call9.v9 (fun x v => Host.reduceAdd x v reducesTo_S2048x64x64_S2048_d1_2 h_S_),
    StableHlo.TRef.unary main_call9.v9 main_call9.v10 (broadcastInDim S2048x1x1 ![0] bcast_S2048_S2048x1x1_0),
    StableHlo.TRef.unary main_call9.v8 main_call9.v11 (broadcastInDim S2048x1x1 ![] bcast_S_S2048x1x1),
    StableHlo.TRef.binary main_call9.v10 main_call9.v11 main_call9.v12 Host.divf,
    StableHlo.TRef.nullary main_call9.cst_3 (constant S_ .f32 0x00000000#32),
    StableHlo.TRef.binary main_call9.v8 main_call9.cst_3 main_call9.v13 (cmpf .ogt),
    StableHlo.TRef.nullary main_call9.cst_4 (constant S_ .f32 0x7FC00000#32),
    StableHlo.TRef.unary main_call9.cst_4 main_call9.call0.v0 id,
    StableHlo.TRef.unary main_call9.call0.v0 main_call9.call0.v1 (broadcastInDim S2048x1x1 ![] bcast_S_S2048x1x1),
    StableHlo.TRef.ternary main_call9.v13 main_call9.v12 main_call9.call0.v1 main_call9.call0.v2 (fun p a b => select (broadcastInDim S2048x1x1 ![] bcast_S_S2048x1x1 p) a b),
    StableHlo.unary main_v142 main_v144 (broadcastInDim S2048x64x64 ![0, 1, 2] bcast_S2048x1x1_S2048x64x64_0_1_2 : (⟨S2048x1x1, .f32⟩ : BufTy).Contents (Elt F) → (⟨S2048x64x64, .f32⟩ : BufTy).Contents (Elt F)),
    StableHlo.binary main_v138 main_v144 main_v145 (subf : (⟨S2048x64x64, .f32⟩ : BufTy).Contents (Elt F) → (⟨S2048x64x64, .f32⟩ : BufTy).Contents (Elt F) → (⟨S2048x64x64, .f32⟩ : BufTy).Contents (Elt F)),
    StableHlo.nullary main_cst_25 (constant S_ .f32 0x3727C5AC#32),
    StableHlo.unary main_cst_25 main_v146 (broadcastInDim S2048x1x1 ![] bcast_S_S2048x1x1 : (⟨S_, .f32⟩ : BufTy).Contents (Elt F) → (⟨S2048x1x1, .f32⟩ : BufTy).Contents (Elt F)),
    StableHlo.binary main_v143 main_v146 main_v147 (addf : (⟨S2048x1x1, .f32⟩ : BufTy).Contents (Elt F) → (⟨S2048x1x1, .f32⟩ : BufTy).Contents (Elt F) → (⟨S2048x1x1, .f32⟩ : BufTy).Contents (Elt F)),
    StableHlo.unary main_v147 main_v148 (Host.rsqrt : (⟨S2048x1x1, .f32⟩ : BufTy).Contents (Elt F) → (⟨S2048x1x1, .f32⟩ : BufTy).Contents (Elt F)),
    StableHlo.unary main_v148 main_v149 (broadcastInDim S2048x64x64 ![0, 1, 2] bcast_S2048x1x1_S2048x64x64_0_1_2 : (⟨S2048x1x1, .f32⟩ : BufTy).Contents (Elt F) → (⟨S2048x64x64, .f32⟩ : BufTy).Contents (Elt F)),
    StableHlo.binary main_v145 main_v149 main_v150 (mulf : (⟨S2048x64x64, .f32⟩ : BufTy).Contents (Elt F) → (⟨S2048x64x64, .f32⟩ : BufTy).Contents (Elt F) → (⟨S2048x64x64, .f32⟩ : BufTy).Contents (Elt F)),
    StableHlo.unary main_arg2 main_v151 (broadcastInDim S1x64x64 ![1, 2] bcast_S64x64_S1x64x64_1_2 : (⟨S64x64, .f32⟩ : BufTy).Contents (Elt F) → (⟨S1x64x64, .f32⟩ : BufTy).Contents (Elt F)) ]

/-- Every operation of the list touches TensorCore references only. -/
theorem opsW2_sub : (opsW2 : List (HloOp τ sig (Elt F))).Forall fun op => op.bufs ⊆ tcRefs τ sig :=
  ⟨nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., reshape_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., reshape_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub ..⟩

/-- Every operation of the list determines its results. -/
theorem opsW2_fresh : ∀ op ∈ (opsW2 : List (HloOp τ sig (Elt F))), op.fresh = ∅ := by
  intro _ h; (repeat (cases h with | head => rfl | tail _ h => ?_)); exact nomatch h

end Cert.ReferenceIdeal.RefValue

end
-- ==== Proof.RefWin2.lean ====
/-
  The reference's window 2, as printed, is the straight line of its operations: the helper functions unfolded at their
  calls and the records at their fields, both sides are one chain of single steps once sequencing is reassociated.
-/
import proofs.«102972_j63007170233017_2_alg».proof.Proof.RefTabW2

noncomputable section

namespace Cert.ReferenceIdeal.RefValue

open Cert.ReferenceIdeal Idealize.ShloMosaic Idealize.ShloMosaic.TcCoe Idealize.SL.Sem Idealize.ShloMosaic.StableHlo

variable {F : FTy → Type} [FloatOps F] [Facts]
open Facts₀ Facts

-- one bind per operation is reassociated: the rewrite under the chain recurses once per statement
set_option maxRecDepth 8192 in
set_option maxHeartbeats 4000000 in
/-- Window 2 is the straight line of `opsW2`. -/
theorem win2_eq (c : Dev nD) : main_part2 (F := F) c = seq opsW2 := by
  simp only [main_part2, fn_var.body, fn_where.body, fn_relu.body, seq, bind_assoc, pure_bind]
  rfl

end Cert.ReferenceIdeal.RefValue

end
-- ==== Proof.RefTabW3.lean ====
/-
  The operations of the reference's window 3 (as the program is printed, in consecutive windows) as a list, the helper functions' operations written at their call sites.
-/
import proofs.«102972_j63007170233017_2_alg».proof.ReferenceIdeal
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo

variable {F : FTy → Type} [FloatOps F] [Facts]
open Facts₀ Facts

/-- Window 3's operations, in order. -/
abbrev opsW3 : List (HloOp τ sig (Elt F)) :=
  [ StableHlo.unary main_v151 main_v152 (broadcastInDim S2048x64x64 ![0, 1, 2] bcast_S1x64x64_S2048x64x64_0_1_2 : (⟨S1x64x64, .f32⟩ : BufTy).Contents (Elt F) → (⟨S2048x64x64, .f32⟩ : BufTy).Contents (Elt F)),
    StableHlo.binary main_v150 main_v152 main_v153 (mulf : (⟨S2048x64x64, .f32⟩ : BufTy).Contents (Elt F) → (⟨S2048x64x64, .f32⟩ : BufTy).Contents (Elt F) → (⟨S2048x64x64, .f32⟩ : BufTy).Contents (Elt F)),
    StableHlo.unary main_arg3 main_v154 (broadcastInDim S1x64x64 ![1, 2] bcast_S64x64_S1x64x64_1_2 : (⟨S64x64, .f32⟩ : BufTy).Contents (Elt F) → (⟨S1x64x64, .f32⟩ : BufTy).Contents (Elt F)),
    StableHlo.unary main_v154 main_v155 (broadcastInDim S2048x64x64 ![0, 1, 2] bcast_S1x64x64_S2048x64x64_0_1_2 : (⟨S1x64x64, .f32⟩ : BufTy).Contents (Elt F) → (⟨S2048x64x64, .f32⟩ : BufTy).Contents (Elt F)),
    StableHlo.binary main_v153 main_v155 main_v156 (addf : (⟨S2048x64x64, .f32⟩ : BufTy).Contents (Elt F) → (⟨S2048x64x64, .f32⟩ : BufTy).Contents (Elt F) → (⟨S2048x64x64, .f32⟩ : BufTy).Contents (Elt F)),
    StableHlo.TRef.nullary main_call10.cst (constant S_ .f32 0x00000000#32),
    StableHlo.TRef.unary main_call10.cst main_call10.v0 (broadcastInDim S2048x64x64 ![] bcast_S_S2048x64x64),
    StableHlo.TRef.binary (.of main_v156) main_call10.v0 main_call10.v1 maximumf,
    StableHlo.binary main_v135 main_v157 main_v158 (addf : (⟨S2048x64x64, .f32⟩ : BufTy).Contents (Elt F) → (⟨S2048x64x64, .f32⟩ : BufTy).Contents (Elt F) → (⟨S2048x64x64, .f32⟩ : BufTy).Contents (Elt F)),
    StableHlo.unary main_v1 main_v159 ((extractStridedSlice S1x2048x64x64 ![7, 0, 0, 0] · slices_S8x2048x64x64_S1x2048x64x64_7_0_0_0) : (⟨S8x2048x64x64, .f32⟩ : BufTy).Contents (Elt F) → (⟨S1x2048x64x64, .f32⟩ : BufTy).Contents (Elt F)),
    StableHlo.reshape main_v159 main_v160 rfl shapeCasts_S1x2048x64x64_S2048x64x64,
    StableHlo.binary main_v160 main_v158 main_v161 ((fun l r => Host.dotGeneral dot_S2048x64x64_S2048x64x64_S2048x64x64_2_1_1_2_0_0 none l r) : (⟨S2048x64x64, .f32⟩ : BufTy).Contents (Elt F) → (⟨S2048x64x64, .f32⟩ : BufTy).Contents (Elt F) → (⟨S2048x64x64, .f32⟩ : BufTy).Contents (Elt F)),
    StableHlo.nullary main_cst_26 (constant S_ .f32 0x00000000#32),
    StableHlo.binary main_v161 main_cst_26 main_v162 ((fun x v => Host.reduceAdd x v reducesTo_S2048x64x64_S2048_d1_2 h_S_) : (⟨S2048x64x64, .f32⟩ : BufTy).Contents (Elt F) → (⟨S_, .f32⟩ : BufTy).Contents (Elt F) → (⟨S2048, .f32⟩ : BufTy).Contents (Elt F)),
    StableHlo.unary main_v162 main_v163 (broadcastInDim S2048x1x1 ![0] bcast_S2048_S2048x1x1_0 : (⟨S2048, .f32⟩ : BufTy).Contents (Elt F) → (⟨S2048x1x1, .f32⟩ : BufTy).Contents (Elt F)),
    StableHlo.nullary main_cst_27 (constant S_ .f32 0x45800000#32),
    StableHlo.unary main_cst_27 main_v164 (broadcastInDim S2048x1x1 ![] bcast_S_S2048x1x1 : (⟨S_, .f32⟩ : BufTy).Contents (Elt F) → (⟨S2048x1x1, .f32⟩ : BufTy).Contents (Elt F)),
    StableHlo.binary main_v163 main_v164 main_v165 (Host.divf : (⟨S2048x1x1, .f32⟩ : BufTy).Contents (Elt F) → (⟨S2048x1x1, .f32⟩ : BufTy).Contents (Elt F) → (⟨S2048x1x1, .f32⟩ : BufTy).Contents (Elt F)),
    StableHlo.nullary main_c_28 (constantI S_ 32 0#32),
    StableHlo.TRef.nullary main_call11.cst (constant S_ .f32 0x00000000#32),
    StableHlo.TRef.binary (.of main_v161) main_call11.cst main_call11.v0 (fun x v => Host.reduceAdd x v reducesTo_S2048x64x64_S2048_d1_2 h_S_),
    StableHlo.TRef.unary main_call11.v0 main_call11.v1 (broadcastInDim S2048x1x1 ![0] bcast_S2048_S2048x1x1_0),
    StableHlo.TRef.nullary main_call11.cst_0 (constant S_ .f32 0x45800000#32),
    StableHlo.TRef.unary main_call11.cst_0 main_call11.v2 (broadcastInDim S2048x1x1 ![] bcast_S_S2048x1x1),
    StableHlo.TRef.binary main_call11.v1 main_call11.v2 main_call11.v3 Host.divf,
    StableHlo.TRef.unary main_call11.v3 main_call11.v4 (broadcastInDim S2048x64x64 ![0, 1, 2] bcast_S2048x1x1_S2048x64x64_0_1_2),
    StableHlo.TRef.binary (.of main_v161) main_call11.v4 main_call11.v5 subf,
    StableHlo.TRef.binary main_call11.v5 main_call11.v5 main_call11.v6 mulf,
    StableHlo.TRef.unary (.of main_c_28) main_call11.v7 (sitofp .f32),
    StableHlo.TRef.nullary main_call11.cst_1 (constant S_ .f32 0x45800000#32),
    StableHlo.TRef.binary main_call11.cst_1 main_call11.v7 main_call11.v8 subf,
    StableHlo.TRef.nullary main_call11.cst_2 (constant S_ .f32 0x00000000#32),
    StableHlo.TRef.binary main_call11.v6 main_call11.cst_2 main_call11.v9 (fun x v => Host.reduceAdd x v reducesTo_S2048x64x64_S2048_d1_2 h_S_),
    StableHlo.TRef.unary main_call11.v9 main_call11.v10 (broadcastInDim S2048x1x1 ![0] bcast_S2048_S2048x1x1_0),
    StableHlo.TRef.unary main_call11.v8 main_call11.v11 (broadcastInDim S2048x1x1 ![] bcast_S_S2048x1x1),
    StableHlo.TRef.binary main_call11.v10 main_call11.v11 main_call11.v12 Host.divf,
    StableHlo.TRef.nullary main_call11.cst_3 (constant S_ .f32 0x00000000#32),
    StableHlo.TRef.binary main_call11.v8 main_call11.cst_3 main_call11.v13 (cmpf .ogt),
    StableHlo.TRef.nullary main_call11.cst_4 (constant S_ .f32 0x7FC00000#32),
    StableHlo.TRef.unary main_call11.cst_4 main_call11.call0.v0 id,
    StableHlo.TRef.unary main_call11.call0.v0 main_call11.call0.v1 (broadcastInDim S2048x1x1 ![] bcast_S_S2048x1x1),
    StableHlo.TRef.ternary main_call11.v13 main_call11.v12 main_call11.call0.v1 main_call11.call0.v2 (fun p a b => select (broadcastInDim S2048x1x1 ![] bcast_S_S2048x1x1 p) a b),
    StableHlo.unary main_v165 main_v167 (broadcastInDim S2048x64x64 ![0, 1, 2] bcast_S2048x1x1_S2048x64x64_0_1_2 : (⟨S2048x1x1, .f32⟩ : BufTy).Contents (Elt F) → (⟨S2048x64x64, .f32⟩ : BufTy).Contents (Elt F)),
    StableHlo.binary main_v161 main_v167 main_v168 (subf : (⟨S2048x64x64, .f32⟩ : BufTy).Contents (Elt F) → (⟨S2048x64x64, .f32⟩ : BufTy).Contents (Elt F) → (⟨S2048x64x64, .f32⟩ : BufTy).Contents (Elt F)),
    StableHlo.nullary main_cst_29 (constant S_ .f32 0x3727C5AC#32),
    StableHlo.unary main_cst_29 main_v169 (broadcastInDim S2048x1x1 ![] bcast_S_S2048x1x1 : (⟨S_, .f32⟩ : BufTy).Contents (Elt F) → (⟨S2048x1x1, .f32⟩ : BufTy).Contents (Elt F)),
    StableHlo.binary main_v166 main_v169 main_v170 (addf : (⟨S2048x1x1, .f32⟩ : BufTy).Contents (Elt F) → (⟨S2048x1x1, .f32⟩ : BufTy).Contents (Elt F) → (⟨S2048x1x1, .f32⟩ : BufTy).Contents (Elt F)),
    StableHlo.unary main_v170 main_v171 (Host.rsqrt : (⟨S2048x1x1, .f32⟩ : BufTy).Contents (Elt F) → (⟨S2048x1x1, .f32⟩ : BufTy).Contents (Elt F)),
    StableHlo.unary main_v171 main_v172 (broadcastInDim S2048x64x64 ![0, 1, 2] bcast_S2048x1x1_S2048x64x64_0_1_2 : (⟨S2048x1x1, .f32⟩ : BufTy).Contents (Elt F) → (⟨S2048x64x64, .f32⟩ : BufTy).Contents (Elt F)),
    StableHlo.binary main_v168 main_v172 main_v173 (mulf : (⟨S2048x64x64, .f32⟩ : BufTy).Contents (Elt F) → (⟨S2048x64x64, .f32⟩ : BufTy).Contents (Elt F) → (⟨S2048x64x64, .f32⟩ : BufTy).Contents (Elt F)),
    StableHlo.unary main_arg2 main_v174 (broadcastInDim S1x64x64 ![1, 2] bcast_S64x64_S1x64x64_1_2 : (⟨S64x64, .f32⟩ : BufTy).Contents (Elt F) → (⟨S1x64x64, .f32⟩ : BufTy).Contents (Elt F)),
    StableHlo.unary main_v174 main_v175 (broadcastInDim S2048x64x64 ![0, 1, 2] bcast_S1x64x64_S2048x64x64_0_1_2 : (⟨S1x64x64, .f32⟩ : BufTy).Contents (Elt F) → (⟨S2048x64x64, .f32⟩ : BufTy).Contents (Elt F)),
    StableHlo.binary main_v173 main_v175 main_v176 (mulf : (⟨S2048x64x64, .f32⟩ : BufTy).Contents (Elt F) → (⟨S2048x64x64, .f32⟩ : BufTy).Contents (Elt F) → (⟨S2048x64x64, .f32⟩ : BufTy).Contents (Elt F)),
    StableHlo.unary main_arg3 main_v177 (broadcastInDim S1x64x64 ![1, 2] bcast_S64x64_S1x64x64_1_2 : (⟨S64x64, .f32⟩ : BufTy).Contents (Elt F) → (⟨S1x64x64, .f32⟩ : BufTy).Contents (Elt F)),
    StableHlo.unary main_v177 main_v178 (broadcastInDim S2048x64x64 ![0, 1, 2] bcast_S1x64x64_S2048x64x64_0_1_2 : (⟨S1x64x64, .f32⟩ : BufTy).Contents (Elt F) → (⟨S2048x64x64, .f32⟩ : BufTy).Contents (Elt F)),
    StableHlo.binary main_v176 main_v178 main_v179 (addf : (⟨S2048x64x64, .f32⟩ : BufTy).Contents (Elt F) → (⟨S2048x64x64, .f32⟩ : BufTy).Contents (Elt F) → (⟨S2048x64x64, .f32⟩ : BufTy).Contents (Elt F)),
    StableHlo.binary main_v158 main_v179 main_v180 (addf : (⟨S2048x64x64, .f32⟩ : BufTy).Contents (Elt F) → (⟨S2048x64x64, .f32⟩ : BufTy).Contents (Elt F) → (⟨S2048x64x64, .f32⟩ : BufTy).Contents (Elt F)) ]

/-- Every operation of the list touches TensorCore references only. -/
theorem opsW3_sub : (opsW3 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., binary_bufs_sub .., unary_bufs_sub .., reshape_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub ..⟩

/-- Every operation of the list determines its results. -/
theorem opsW3_fresh : ∀ op ∈ (opsW3 : List (HloOp τ sig (Elt F))), op.fresh = ∅ := by
  intro _ h; (repeat (cases h with | head => rfl | tail _ h => ?_)); exact nomatch h

end Cert.ReferenceIdeal.RefValue

end
-- ==== Proof.RefWin3.lean ====
/-
  The reference's window 3, as printed, is the straight line of its operations: the helper functions unfolded at their
  calls and the records at their fields, both sides are one chain of single steps once sequencing is reassociated. This
  window ends in the program's return, as the straight line does, so nothing is left after the rewriting.
-/
import proofs.«102972_j63007170233017_2_alg».proof.Proof.RefTabW3

noncomputable section

namespace Cert.ReferenceIdeal.RefValue

open Cert.ReferenceIdeal Idealize.ShloMosaic Idealize.ShloMosaic.TcCoe Idealize.SL.Sem Idealize.ShloMosaic.StableHlo

variable {F : FTy → Type} [FloatOps F] [Facts]
open Facts₀ Facts

-- one bind per operation is reassociated: the rewrite under the chain recurses once per statement
set_option maxRecDepth 8192 in
set_option maxHeartbeats 4000000 in
/-- Window 3 is the straight line of `opsW3`. -/
theorem win3_eq (c : Dev nD) : main_part3 (F := F) c = seq opsW3 := by
  simp only [main_part3, fn_var.body, fn_where.body, fn_relu.body, seq, bind_assoc, pure_bind]

end Cert.ReferenceIdeal.RefValue

end
-- ==== Proof.RefRun.lean ====
/-
  The reference program's run read back: every weakly fair execution of it terminates with the result buffer at
  `refNet` of the four arguments' launch contents and the arguments unchanged.

  The program's operations are the two that lay the weights out layer-major followed by the eight layers; the program
  is printed in four consecutive windows, each the straight line of its own list, and the two cuts of the one list
  agree. What the result buffer holds after the whole line is then read layer by layer: the fold over a concatenation
  is the fold over the second list from the fold over the first, each layer's output is the layer's function of the
  layer-major weights, the running x, γ and β, and no layer writes the layer-major weights or an argument.
-/
import proofs.«102972_j63007170233017_2_alg».proof.Proof.RefPre
import proofs.«102972_j63007170233017_2_alg».proof.Proof.RefL0
import proofs.«102972_j63007170233017_2_alg».proof.Proof.RefL1
import proofs.«102972_j63007170233017_2_alg».proof.Proof.RefL2
import proofs.«102972_j63007170233017_2_alg».proof.Proof.RefL3
import proofs.«102972_j63007170233017_2_alg».proof.Proof.RefL4
import proofs.«102972_j63007170233017_2_alg».proof.Proof.RefL5
import proofs.«102972_j63007170233017_2_alg».proof.Proof.RefL6
import proofs.«102972_j63007170233017_2_alg».proof.Proof.RefL7
import proofs.«102972_j63007170233017_2_alg».proof.Proof.RefWin0
import proofs.«102972_j63007170233017_2_alg».proof.Proof.RefWin1
import proofs.«102972_j63007170233017_2_alg».proof.Proof.RefWin2
import proofs.«102972_j63007170233017_2_alg».proof.Proof.RefWin3

noncomputable section

namespace Cert.ReferenceIdeal.RefValue

open Cert.ReferenceIdeal Idealize.ShloMosaic Idealize.ShloMosaic.TcCoe Idealize.SL.Sem Idealize.ShloMosaic.StableHlo

variable {F : FTy → Type} [FloatOps F] [Facts]
open Facts₀ Facts

/-- The reference's operations, in order: the reshape and transpose of the weights, then layers 0 to 7. -/
abbrev ops : List (HloOp τ sig (Elt F)) :=
  opsPre ++ (opsL0 ++ (opsL1 ++ (opsL2 ++ (opsL3 ++ (opsL4 ++ (opsL5 ++ (opsL6 ++ opsL7)))))))

set_option maxRecDepth 8192 in
/-- The same operations cut where the program is printed in windows: both are the one list of 397 operations. -/
theorem ops_eq_windows : (opsW0 ++ (opsW1 ++ (opsW2 ++ opsW3)) : List (HloOp τ sig (Elt F))) = ops := rfl

/-- The program is the straight line of its operations: it runs its four windows in order, each the straight line of
    its list, and straight lines run one after the other are the straight line of the concatenation. -/
theorem main_eq (c : Dev nD) : main (F := F) c = seq ops := by
  have h : (main_part0 (F := F) c >>= fun _ => main_part1 (F := F) c >>= fun _ => main_part2 (F := F) c >>= fun _ => main_part3 (F := F) c)
      = seq ops := by
    rw [← ops_eq_windows, seq_append, seq_append, seq_append, win0_eq c, win1_eq c, win2_eq c, win3_eq c]
  exact h

/-- Every operation touches TensorCore references only. -/
theorem ops_sub : (ops : List (HloOp τ sig (Elt F))).Forall fun op => op.bufs ⊆ tcRefs τ sig :=
  List.forall_append.mpr ⟨opsPre_sub, List.forall_append.mpr ⟨opsL0_sub, List.forall_append.mpr ⟨opsL1_sub,
    List.forall_append.mpr ⟨opsL2_sub, List.forall_append.mpr ⟨opsL3_sub, List.forall_append.mpr ⟨opsL4_sub,
    List.forall_append.mpr ⟨opsL5_sub, List.forall_append.mpr ⟨opsL6_sub, opsL7_sub⟩⟩⟩⟩⟩⟩⟩⟩

/-- Every operation determines its results. -/
theorem ops_fresh : ∀ op ∈ (ops : List (HloOp τ sig (Elt F))), op.fresh = ∅ := by
  intro op h
  rcases List.mem_append.mp h with h | h
  · exact opsPre_fresh op h
  rcases List.mem_append.mp h with h | h
  · exact opsL0_fresh op h
  rcases List.mem_append.mp h with h | h
  · exact opsL1_fresh op h
  rcases List.mem_append.mp h with h | h
  · exact opsL2_fresh op h
  rcases List.mem_append.mp h with h | h
  · exact opsL3_fresh op h
  rcases List.mem_append.mp h with h | h
  · exact opsL4_fresh op h
  rcases List.mem_append.mp h with h | h
  · exact opsL5_fresh op h
  rcases List.mem_append.mp h with h | h
  · exact opsL6_fresh op h
  exact opsL7_fresh op h

/-- The fold over two lists in a row is the fold over the second from the fold over the first. -/
theorem after_append_lists : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append_lists l₁ l₂]

/-- The result buffer after the whole line is `refNet` of the arguments' contents before it. Layer by layer, over the
    contents the earlier operations leave: the layer-major buffer holds `refWT` of the weights from the second operation
    on, γ and β are never written, and the buffer of the running x holds the previous layer's output; each layer's
    output lemma, rewritten with these, is the next line of `refNet`'s definition. -/
theorem out_eq (V : Valuation τ sig (Elt F)) :
    after ops V (main_v180 : DevRef τ sig)
      = refNet (V (main_arg0 : DevRef τ sig)) (V (main_arg1 : DevRef τ sig)) (V (main_arg2 : DevRef τ sig)) (V (main_arg3 : DevRef τ sig)) := by
  simp only [after_append_lists]
  have hw := pre_v1 V
  have hx := pre_arg1 V
  have hg := pre_arg2 V
  have hb := pre_arg3 V
  generalize after opsPre V = W0 at hw hx hg hb ⊢
  -- layer 0: x is the x argument
  have hy := L0_out W0
  rw [hx, hw, hg, hb] at hy
  have hw' := (L0_v1 W0).trans hw
  have hg' := (L0_arg2 W0).trans hg
  have hb' := (L0_arg3 W0).trans hb
  clear hx hw hg hb
  generalize after opsL0 W0 = W1 at hy hw' hg' hb' ⊢
  have hx := hy; have hw := hw'; have hg := hg'; have hb := hb'
  clear hy hw' hg' hb'
  -- layer 1
  have hy := L1_out W1
  rw [hx, hw, hg, hb] at hy
  have hw' := (L1_v1 W1).trans hw
  have hg' := (L1_arg2 W1).trans hg
  have hb' := (L1_arg3 W1).trans hb
  clear hx hw hg hb
  generalize after opsL1 W1 = W2 at hy hw' hg' hb' ⊢
  have hx := hy; have hw := hw'; have hg := hg'; have hb := hb'
  clear hy hw' hg' hb'
  -- layer 2
  have hy := L2_out W2
  rw [hx, hw, hg, hb] at hy
  have hw' := (L2_v1 W2).trans hw
  have hg' := (L2_arg2 W2).trans hg
  have hb' := (L2_arg3 W2).trans hb
  clear hx hw hg hb
  generalize after opsL2 W2 = W3 at hy hw' hg' hb' ⊢
  have hx := hy; have hw := hw'; have hg := hg'; have hb := hb'
  clear hy hw' hg' hb'
  -- layer 3
  have hy := L3_out W3
  rw [hx, hw, hg, hb] at hy
  have hw' := (L3_v1 W3).trans hw
  have hg' := (L3_arg2 W3).trans hg
  have hb' := (L3_arg3 W3).trans hb
  clear hx hw hg hb
  generalize after opsL3 W3 = W4 at hy hw' hg' hb' ⊢
  have hx := hy; have hw := hw'; have hg := hg'; have hb := hb'
  clear hy hw' hg' hb'
  -- layer 4
  have hy := L4_out W4
  rw [hx, hw, hg, hb] at hy
  have hw' := (L4_v1 W4).trans hw
  have hg' := (L4_arg2 W4).trans hg
  have hb' := (L4_arg3 W4).trans hb
  clear hx hw hg hb
  generalize after opsL4 W4 = W5 at hy hw' hg' hb' ⊢
  have hx := hy; have hw := hw'; have hg := hg'; have hb := hb'
  clear hy hw' hg' hb'
  -- layer 5
  have hy := L5_out W5
  rw [hx, hw, hg, hb] at hy
  have hw' := (L5_v1 W5).trans hw
  have hg' := (L5_arg2 W5).trans hg
  have hb' := (L5_arg3 W5).trans hb
  clear hx hw hg hb
  generalize after opsL5 W5 = W6 at hy hw' hg' hb' ⊢
  have hx := hy; have hw := hw'; have hg := hg'; have hb := hb'
  clear hy hw' hg' hb'
  -- layer 6
  have hy := L6_out W6
  rw [hx, hw, hg, hb] at hy
  have hw' := (L6_v1 W6).trans hw
  have hg' := (L6_arg2 W6).trans hg
  have hb' := (L6_arg3 W6).trans hb
  clear hx hw hg hb
  generalize after opsL6 W6 = W7 at hy hw' hg' hb' ⊢
  have hx := hy; have hw := hw'; have hg := hg'; have hb := hb'
  clear hy hw' hg' hb'
  -- layer 7: its output is the result, and the rewritten lemma is the last line of `refNet`
  have hy := L7_out W7
  rw [hx, hw, hg, hb] at hy
  exact hy

/-- The weights argument is written by no operation of the reference. -/
theorem arg0_eq (V : Valuation τ sig (Elt F)) :
    after ops V (main_arg0 : DevRef τ sig) = V (main_arg0 : DevRef τ sig) := by
  simp only [after_append_lists]
  rw [L7_arg0, L6_arg0, L5_arg0, L4_arg0, L3_arg0, L2_arg0, L1_arg0, L0_arg0, pre_arg0]

/-- The x argument is written by no operation of the reference. -/
theorem arg1_eq (V : Valuation τ sig (Elt F)) :
    after ops V (main_arg1 : DevRef τ sig) = V (main_arg1 : DevRef τ sig) := by
  simp only [after_append_lists]
  rw [L7_arg1, L6_arg1, L5_arg1, L4_arg1, L3_arg1, L2_arg1, L1_arg1, L0_arg1, pre_arg1]

/-- The scale γ is written by no operation of the reference. -/
theorem arg2_eq (V : Valuation τ sig (Elt F)) :
    after ops V (main_arg2 : DevRef τ sig) = V (main_arg2 : DevRef τ sig) := by
  simp only [after_append_lists]
  rw [L7_arg2, L6_arg2, L5_arg2, L4_arg2, L3_arg2, L2_arg2, L1_arg2, L0_arg2, pre_arg2]

/-- The shift β is written by no operation of the reference. -/
theorem arg3_eq (V : Valuation τ sig (Elt F)) :
    after ops V (main_arg3 : DevRef τ sig) = V (main_arg3 : DevRef τ sig) := by
  simp only [after_append_lists]
  rw [L7_arg3, L6_arg3, L5_arg3, L4_arg3, L3_arg3, L2_arg3, L1_arg3, L0_arg3, pre_arg3]

/-- The signature scopes no TensorCore buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- On every device, for any float values, from any memory with zero counters: every weakly fair execution of the
    reference terminates with the result buffer at `refNet` of the four arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v180)
          = refNet (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v180).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c))⟩)
    (run_seq scopedRefs_eq scopedSems_eq defs main (fun _ => ops) main_eq (fun _ => ops_sub) m ρ (fun _ => ops_fresh))

end Cert.ReferenceIdeal.RefValue

end
-- ==== Proof.RefIndex.lean ====
/-
  The reference's whole-array functions read one batch element at a time, at the extended reals.

  The arrays hold 2048 batch elements. Every operation of a layer acts on each of them separately: the batched product multiplies
  the B-th weight matrix with the B-th state matrix, the sums over both matrix axes total the B-th matrix, the broadcasts hand
  matrix B its own mean and its own reciprocal deviation, and γ, β are the same for every B. So the B-th matrix of each
  function's value is the specification's matrix function of the B-th matrices of its arguments; the B-th matrix of slice l of
  the layer-major weights is row B of the weights at positions 4096·l + 64·p + k; and the eight layers are, matrix by matrix,
  the specification's eight layers.
-/
import proofs.«102972_j63007170233017_2_alg».proof.Proof.RefDefs
import proofs.«102972_j63007170233017_2_alg».proof.Proof.Spec
import proofs.«102972_j63007170233017_2_alg».proof.Proof.LibBatchedProduct
import proofs.«102972_j63007170233017_2_alg».proof.Proof.LibTrailingSums

noncomputable section

open scoped BigOperators

namespace Cert.ReferenceIdeal.RefValue

open Cert.ReferenceIdeal Idealize.ShloMosaic Idealize.ShloMosaic.ValueIdx

variable [Facts]

/-- Matrix B of a stack of 2048 matrices. -/
def slice (V : FVec Ideal S2048x64x64 .f32) (B : Fin 2048) : Cert.Spec.Mat := fun p q => V (ix3 B p q)

/-- The host's division is entrywise the extended reals' division. -/
theorem hostDivf_apply {s : Shape} (a b : FVec Ideal s .f32) (i : s.Idx) : Host.divf a b i = Ideal.div (a i) (b i) := rfl

/-- The sum over both matrix axes, read at batch element B: the column's entry is the vector's, the host sum is the initial
    value plus the total of matrix B, and the initial value is zero. -/
theorem refSum_apply (T : FVec Ideal S2048x64x64 .f32) (B : Fin 2048) :
    refSum T (ix3 B 0 0) = Cert.Spec.total (slice T B) := by
  unfold refSum
  refine (Cert.LibTrailingSums.broadcastInDim_vector_column_apply (B := 2048) _ _ B 0 0).trans ?_
  unfold Host.reduceAdd
  rw [Ideal.hostReduceAdd_def]
  refine (Cert.LibTrailingSums.host_total_apply (B := 2048) (M := 64) (N := 64) T _ _ B).trans ?_
  rw [constant_apply, Ideal.ofBits_zero_f32, zero_add]
  rfl

/-- The mean read at batch element B: the total divided by 4096, which is the total times 2⁻¹². -/
theorem refMean_apply (T : FVec Ideal S2048x64x64 .f32) (B : Fin 2048) :
    refMean T (ix3 B 0 0) = Cert.Spec.total (slice T B) * Cert.Spec.cInv := by
  unfold refMean
  show Ideal.div (refSum T (ix3 B 0 0))
      (broadcastInDim S2048x1x1 ![] Facts₀.bcast_S_S2048x1x1 (constant (F := Ideal) S_ .f32 0x45800000#32) (ix3 B 0 0)) = _
  rw [refSum_apply, Cert.LibTrailingSums.broadcastInDim_scalar_apply]
  exact Cert.Spec.div_4096 _

/-- Matrix B of the deviations from the mean is matrix B centred. -/
theorem centre_slice (T : FVec Ideal S2048x64x64 .f32) (B : Fin 2048) :
    slice (subf T (broadcastInDim S2048x64x64 ![0, 1, 2] Facts₀.bcast_S2048x1x1_S2048x64x64_0_1_2 (refMean T))) B
      = Cert.Spec.centre (slice T B) := by
  funext p q
  show T (ix3 B p q)
      - broadcastInDim S2048x64x64 ![0, 1, 2] Facts₀.bcast_S2048x1x1_S2048x64x64_0_1_2 (refMean T) (ix3 B p q) = _
  rw [Cert.LibTrailingSums.broadcastInDim_column_apply (B := 2048) (M := 64) (N := 64), refMean_apply]
  rfl

/-- The divisor 4096 − ddof at the integer ddof = 0 is 4096. -/
theorem divisor_apply :
    (subf (constant (F := Ideal) S_ .f32 0x45800000#32) (sitofp .f32 (constantI S_ 32 0#32)) : FVec Ideal S_ .f32) ix0
      = Cert.Spec.c4096 :=
  Cert.Spec.divisor_eq

/-- The variance helper read at batch element B: its divisor is 4096 and positive, so the quotient is kept, and it is the
    total of the squared deviations of matrix B times 2⁻¹². -/
theorem refVar_apply (T : FVec Ideal S2048x64x64 .f32) (B : Fin 2048) :
    refVar T (constantI S_ 32 0#32) (ix3 B 0 0)
      = Cert.Spec.total (fun p q => Cert.Spec.centre (slice T B) p q * Cert.Spec.centre (slice T B) p q) * Cert.Spec.cInv := by
  unfold refVar
  dsimp only
  rw [select_apply, Cert.LibTrailingSums.broadcastInDim_scalar_apply, cmpf_apply, divisor_apply]
  have hg : FloatOps.cmpf .ogt Cert.Spec.c4096 (constant (F := Ideal) S_ .f32 0x00000000#32 ix0) = 1#1 := Cert.Spec.var_guard
  rw [hg, select_one]
  rw [hostDivf_apply, refSum_apply, Cert.LibTrailingSums.broadcastInDim_scalar_apply, divisor_apply, Cert.Spec.div_4096]
  refine congrArg (fun M : Cert.Spec.Mat => Cert.Spec.total M * Cert.Spec.cInv) ?_
  funext p q
  exact congrArg (fun c : EReal => c * c) (congrFun (congrFun (centre_slice T B) p) q)

/-- Matrix B of the batched product is the product of the B-th matrices. -/
theorem product_slice (W X : FVec Ideal S2048x64x64 .f32) (B : Fin 2048) :
    slice (Host.dotGeneral dot_S2048x64x64_S2048x64x64_S2048x64x64_2_1_1_2_0_0 none W X) B
      = Cert.Spec.mm (slice W B) (slice X B) := by
  funext p q
  exact Cert.LibBatchedProduct.dotGeneral_batched_apply (B := 2048) (M := 64) (N := 64) (K := 64)
    dot_S2048x64x64_S2048x64x64_S2048x64x64_2_1_1_2_0_0 rfl rfl none .single
    (fun _ _ => rfl) (fun _ _ => rfl) (fun i k => DotDims.lhsIdx_val_of_single _ rfl i k)
    (fun _ _ => rfl) (fun i k => DotDims.rhsIdx_val_of_single _ rfl i k) (fun _ _ => rfl) W X B p q

/-- The reciprocal deviation read at batch element B. -/
theorem rstd_apply (T : FVec Ideal S2048x64x64 .f32) (B : Fin 2048) :
    Host.rsqrt (addf (refVar T (constantI S_ 32 0#32))
        (broadcastInDim S2048x1x1 ![] Facts₀.bcast_S_S2048x1x1 (constant (F := Ideal) S_ .f32 0x3727C5AC#32))) (ix3 B 0 0)
      = Cert.Spec.rstd (Cert.Spec.centre (slice T B)) := by
  show Ideal.rsqrt (refVar T (constantI S_ 32 0#32) (ix3 B 0 0)
      + broadcastInDim S2048x1x1 ![] Facts₀.bcast_S_S2048x1x1 (constant (F := Ideal) S_ .f32 0x3727C5AC#32) (ix3 B 0 0)) = _
  rw [refVar_apply, Cert.LibTrailingSums.broadcastInDim_scalar_apply]
  rfl

/-- A parameter repeated over the batch reads its own entry at every batch element. -/
theorem refParam_apply (g : FVec Ideal S64x64 .f32) (B : Fin 2048) (p q : Fin 64) :
    refParam g (ix3 B p q) = Cert.Spec.paramMat g p q :=
  Cert.LibTrailingSums.broadcastInDim_param_apply (B := 2048) (M := 64) (N := 64) g _ _ B p q

/-- Matrix B of one layer before the clamp is the specification's layer of the B-th matrices. -/
theorem refNorm_slice (g bt : FVec Ideal S64x64 .f32) (W X : FVec Ideal S2048x64x64 .f32) (B : Fin 2048) :
    slice (refNorm g bt W X) B
      = Cert.Spec.norm (Cert.Spec.paramMat g) (Cert.Spec.paramMat bt) (slice W B) (slice X B) := by
  funext p q
  show refNorm g bt W X (ix3 B p q) = _
  unfold refNorm Cert.Spec.norm
  dsimp only
  rw [addf_apply, mulf_apply, mulf_apply, refParam_apply, refParam_apply,
    Cert.LibTrailingSums.broadcastInDim_column_apply (B := 2048) (M := 64) (N := 64), rstd_apply]
  have hc := congrFun (congrFun (centre_slice (Host.dotGeneral dot_S2048x64x64_S2048x64x64_S2048x64x64_2_1_1_2_0_0 none W X) B) p) q
  rw [product_slice] at hc
  rw [product_slice]
  exact congrArg (fun c => c * _ * _ + _) hc

/-- Matrix B of the clamp is the clamp of matrix B. -/
theorem refRelu_slice (Y : FVec Ideal S2048x64x64 .f32) (B : Fin 2048) :
    slice (refRelu Y) B = Cert.Spec.relu (slice Y B) := by
  funext p q
  show max (Y (ix3 B p q))
      (broadcastInDim S2048x64x64 ![] Facts₀.bcast_S_S2048x64x64 (constant (F := Ideal) S_ .f32 0x00000000#32) (ix3 B p q)) = _
  rw [Cert.LibTrailingSums.broadcastInDim_scalar_apply]
  rfl

/-- Matrix B of a sum is the sum of the B-th matrices. -/
theorem addf_slice (A C : FVec Ideal S2048x64x64 .f32) (B : Fin 2048) :
    slice (addf A C) B = Cert.Spec.plus (slice A B) (slice C B) := rfl

/-- Slice l of the layer-major weights read at batch element B, row p, column k. The four layout steps — the weights viewed
    as [2048, 8, 64, 64], the layer axis moved to the front, the slice at layer l, its unit axis dropped — each keep the
    row-major position or permute the coordinates, and together read row B of the weights at position 4096·l + 64·p + k. -/
theorem weight_apply (l : Fin 8) (h : S8x2048x64x64.Slices ![l.val, 0, 0, 0] S1x2048x64x64)
    (w : FVec Ideal S2048x32768 .f32) (B : Fin 2048) (p k : Fin 64) :
    shapeCast S2048x64x64 (extractStridedSlice S1x2048x64x64 ![l.val, 0, 0, 0] (refWT w) h)
        Facts₀.shapeCasts_S1x2048x64x64_S2048x64x64 (ix3 B p k)
      = Cert.Spec.weightMat w B l p k := by
  refine (shapeCast_apply _ _ (ix3 B p k) (ix4 0 B p k) ?_).trans ?_
  · rw [Shape.rowMajor_val_four, Shape.rowMajor_val_three]
    show ((0 * 2048 + B.val) * 64 + p.val) * 64 + k.val = (B.val * 64 + p.val) * 64 + k.val
    simp
  refine (extractStridedSlice_apply _ _ h (ix4 0 B p k) (ix4 l B p k) fun a => ?_).trans ?_
  · match a with
    | ⟨0, _⟩ => exact (Nat.add_zero _).symm
    | ⟨1, _⟩ => exact (Nat.zero_add _).symm
    | ⟨2, _⟩ => exact (Nat.zero_add _).symm
    | ⟨3, _⟩ => exact (Nat.zero_add _).symm
  unfold refWT
  refine (transpose_apply _ _ _ (ix4 l B p k) (ix4 B l p k) fun b => ?_).trans ?_
  · match b with
    | ⟨0, _⟩ => rfl
    | ⟨1, _⟩ => rfl
    | ⟨2, _⟩ => rfl
    | ⟨3, _⟩ => rfl
  show shapeCast S2048x8x64x64 w _ (ix4 B l p k) = w (ix2 B ⟨l.val * 4096 + p.val * 64 + k.val, _⟩)
  refine shapeCast_apply w _ (ix4 B l p k) _ ?_
  rw [Shape.rowMajor_val_two, Shape.rowMajor_val_four]
  show B.val * 32768 + (l.val * 4096 + p.val * 64 + k.val) = ((B.val * 8 + l.val) * 64 + p.val) * 64 + k.val
  ring

/-- Matrix B of layer 0's weights. -/
theorem refW0_slice (w : FVec Ideal S2048x32768 .f32) (B : Fin 2048) :
    slice (refW0 (refWT w)) B = Cert.Spec.weightMat w B 0 := by
  funext p k
  exact weight_apply 0 Facts₀.slices_S8x2048x64x64_S1x2048x64x64_0_0_0_0 w B p k

/-- Matrix B of layer 1's weights. -/
theorem refW1_slice (w : FVec Ideal S2048x32768 .f32) (B : Fin 2048) :
    slice (refW1 (refWT w)) B = Cert.Spec.weightMat w B 1 := by
  funext p k
  exact weight_apply 1 Facts₀.slices_S8x2048x64x64_S1x2048x64x64_1_0_0_0 w B p k

/-- Matrix B of layer 2's weights. -/
theorem refW2_slice (w : FVec Ideal S2048x32768 .f32) (B : Fin 2048) :
    slice (refW2 (refWT w)) B = Cert.Spec.weightMat w B 2 := by
  funext p k
  exact weight_apply 2 Facts₀.slices_S8x2048x64x64_S1x2048x64x64_2_0_0_0 w B p k

/-- Matrix B of layer 3's weights. -/
theorem refW3_slice (w : FVec Ideal S2048x32768 .f32) (B : Fin 2048) :
    slice (refW3 (refWT w)) B = Cert.Spec.weightMat w B 3 := by
  funext p k
  exact weight_apply 3 Facts₀.slices_S8x2048x64x64_S1x2048x64x64_3_0_0_0 w B p k

/-- Matrix B of layer 4's weights. -/
theorem refW4_slice (w : FVec Ideal S2048x32768 .f32) (B : Fin 2048) :
    slice (refW4 (refWT w)) B = Cert.Spec.weightMat w B 4 := by
  funext p k
  exact weight_apply 4 Facts₀.slices_S8x2048x64x64_S1x2048x64x64_4_0_0_0 w B p k

/-- Matrix B of layer 5's weights. -/
theorem refW5_slice (w : FVec Ideal S2048x32768 .f32) (B : Fin 2048) :
    slice (refW5 (refWT w)) B = Cert.Spec.weightMat w B 5 := by
  funext p k
  exact weight_apply 5 Facts₀.slices_S8x2048x64x64_S1x2048x64x64_5_0_0_0 w B p k

/-- Matrix B of layer 6's weights. -/
theorem refW6_slice (w : FVec Ideal S2048x32768 .f32) (B : Fin 2048) :
    slice (refW6 (refWT w)) B = Cert.Spec.weightMat w B 6 := by
  funext p k
  exact weight_apply 6 Facts₀.slices_S8x2048x64x64_S1x2048x64x64_6_0_0_0 w B p k

/-- Matrix B of layer 7's weights. -/
theorem refW7_slice (w : FVec Ideal S2048x32768 .f32) (B : Fin 2048) :
    slice (refW7 (refWT w)) B = Cert.Spec.weightMat w B 7 := by
  funext p k
  exact weight_apply 7 Facts₀.slices_S8x2048x64x64_S1x2048x64x64_7_0_0_0 w B p k

/-- Matrix B of the eight layers is the specification's eight layers of batch element B's matrices. -/
theorem refNet_slice (w : FVec Ideal S2048x32768 .f32) (x : FVec Ideal S2048x64x64 .f32) (g bt : FVec Ideal S64x64 .f32)
    (B : Fin 2048) :
    slice (refNet w x g bt) B
      = Cert.Spec.net (Cert.Spec.weightMat w B) (Cert.Spec.stateMat x B) (Cert.Spec.paramMat g) (Cert.Spec.paramMat bt) := by
  unfold refNet Cert.Spec.net
  simp only [addf_slice, refRelu_slice, refNorm_slice, refW0_slice, refW1_slice, refW2_slice, refW3_slice, refW4_slice,
    refW5_slice, refW6_slice, refW7_slice]
  rfl

/-- The reference's whole-array function is the specification's result array: every index is a batch element, a row and a
    column, and there the two agree matrix by matrix. -/
theorem refNet_eq (w : FVec Ideal S2048x32768 .f32) (x : FVec Ideal S2048x64x64 .f32) (g bt : FVec Ideal S64x64 .f32) :
    refNet w x g bt = Cert.Spec.result w x g bt := by
  funext i
  obtain ⟨B, p, q, rfl⟩ : ∃ (B : Fin 2048) (p q : Fin 64), i = ix3 B p q := ⟨i 0, i 1, i 2, eq_ix3 i⟩
  exact congrFun (congrFun (refNet_slice w x g bt B) p) q

end Cert.ReferenceIdeal.RefValue

end
-- ==== Proof.lean ====
/-
  The kernel and its reference compute the same array over the extended reals.

  Both programs take weights [2048, 32768], a state [2048, 64, 64] and parameters γ, β [64, 64], and treat the 2048 batch elements
  independently. Batch element B's row of weights is eight 64 × 64 matrices W₀ … W₇; its state x is a 64 × 64 matrix. Layer l forms
  T = W_l · x, subtracts the mean of T's 4096 entries, divides by the square root of their variance plus ε, scales by γ and shifts
  by β, entry by entry; even layers are then clamped below at zero; layer 0's value replaces x and every later layer's value is
  added to x. The result is the state after layer 7 (`Cert.Spec.result`, Proof/Spec.lean).

  The kernel runs 32 grid points of 64 batch elements each. What a point writes back is, matrix by matrix, the specification's
  eight layers of that point's blocks (Proof/KernelLayers.lean: the body's stored value as a composition of layer functions;
  Proof/KernelIndex.lean: each layer function acts on one batch element at a time; Proof/KernelPoint.lean and Proof/KernelValue.lean:
  the blocks are the arguments' entries and the 32 blocks tile the result). The reference runs the same layers on all 2048 batch
  elements at once (Proof/RefDefs.lean, Proof/RefRun.lean: its run read back as one term; Proof/RefIndex.lean: that term index by
  index). The only difference in the arithmetic is that the kernel multiplies the two sums of a layer by 2⁻¹² where the reference
  divides them by 4096 − 0 after checking that the divisor is positive: on every extended real these agree (Proof/Spec.lean
  `div_4096`, `var_guard`), so no hypothesis on the inputs is used for the values. Sums over the 4096 entries are taken lane by
  lane in the kernel and at once in the reference; addition of extended reals is commutative and associative, so both are the same
  double sum (Proof/LibTrailingSums.lean). Rounding the product's operands to half width is the identity at the extended reals.

  The frames of the two kernel programs are the generated ones; the reference's frame is its run with the result dropped. The
  idealization rewrote nothing, so the preservation claim is trivial.
-/
import proofs.«102972_j63007170233017_2_alg».proof.Defs
import proofs.«102972_j63007170233017_2_alg».proof.Proof.Gen.Kernel
import proofs.«102972_j63007170233017_2_alg».proof.Proof.Gen.Kernel.Skeleton
import proofs.«102972_j63007170233017_2_alg».proof.Proof.Gen.Kernel.Launch
import proofs.«102972_j63007170233017_2_alg».proof.Proof.Gen.Kernel.Points
import proofs.«102972_j63007170233017_2_alg».proof.Proof.Gen.Kernel.Frame
import proofs.«102972_j63007170233017_2_alg».proof.Proof.Gen.KernelIdeal
import proofs.«102972_j63007170233017_2_alg».proof.Proof.Gen.KernelIdeal.Skeleton
import proofs.«102972_j63007170233017_2_alg».proof.Proof.Gen.KernelIdeal.Launch
import proofs.«102972_j63007170233017_2_alg».proof.Proof.Gen.KernelIdeal.Points
import proofs.«102972_j63007170233017_2_alg».proof.Proof.Gen.KernelIdeal.Frame
import proofs.«102972_j63007170233017_2_alg».proof.Proof.Gen.KernelIdeal.Value
import proofs.«102972_j63007170233017_2_alg».proof.Proof.Gen.ReferenceIdeal
import proofs.«102972_j63007170233017_2_alg».proof.Proof.Gen.Pre_finite_inputs
import proofs.«102972_j63007170233017_2_alg».proof.Proof.KernelValue
import proofs.«102972_j63007170233017_2_alg».proof.Proof.RefRun
import proofs.«102972_j63007170233017_2_alg».proof.Proof.RefIndex
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does the kernel read at the extended reals. -/
theorem frame_kernel_ideal : Cert.frame_KernelIdeal := fun m ρ _ => Cert.KernelIdeal.Gen.frame m ρ

/-- So does the reference: its run, with what it says about the result dropped. -/
theorem frame_reference_ideal : Cert.frame_ReferenceIdeal := fun m ρ _ =>
  (θ_run Cert.ReferenceIdeal.defs _ _).mono (fun _ h c => (h c).2) (Cert.ReferenceIdeal.RefValue.run (F := Ideal) m ρ)

/-- Nothing was rewritten between the kernel and its reading at the extended reals. -/
theorem preserves : Cert.preserves_Kernel_KernelIdeal := trivial

/-- From memories that agree on the four arguments, the kernel's output array and the reference's result both end at the
    specification's result array of those arguments. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2.1, (hagree c).2.2.1, (hagree c).2.2.2]
  exact Cert.ReferenceIdeal.RefValue.refNet_eq _ _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
